-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S1024x1024 : Shape := ⟨2, ![1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x1024x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x1024x1024 : Shape := ⟨3, ![2, 1024, 1024]⟩
abbrev S1024x1024 : Shape := ⟨2, ![1024, 1024]⟩
abbrev S1024x3072 : Shape := ⟨2, ![1024, 3072]⟩
abbrev S2048x1024 : Shape := ⟨2, ![2048, 1024]⟩
abbrev S2048x3072 : Shape := ⟨2, ![2048, 3072]⟩
abbrev S512x1024 : Shape := ⟨2, ![512, 1024]⟩
abbrev S512x3072 : Shape := ⟨2, ![512, 3072]⟩
abbrev S2x1024x64x16 : Shape := ⟨4, ![2, 1024, 64, 16]⟩
abbrev S2x64x1024x16 : Shape := ⟨4, ![2, 64, 1024, 16]⟩
abbrev S128x1024x16 : Shape := ⟨3, ![128, 1024, 16]⟩
abbrev S2x64x16x1024 : Shape := ⟨4, ![2, 64, 16, 1024]⟩
abbrev S128x16x1024 : Shape := ⟨3, ![128, 16, 1024]⟩
abbrev S16x256x16 : Shape := ⟨3, ![16, 256, 16]⟩
abbrev S16x16x256 : Shape := ⟨3, ![16, 16, 256]⟩
abbrev S16x256x1 : Shape := ⟨3, ![16, 256, 1]⟩
abbrev S16x256x256 : Shape := ⟨3, ![16, 256, 256]⟩
abbrev S16x256 : Shape := ⟨2, ![16, 256]⟩

abbrev nBuf : Space → Nat
  | .hbm => 39
  | .vmem => 21
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x3072, .bf16⟩
  | .hbm, ⟨15, _⟩ => ⟨S2048x1024, .bf16⟩
  | .hbm, ⟨16, _⟩ => ⟨S2048x3072, .bf16⟩
  | .hbm, ⟨17, _⟩ => ⟨S2048x1024, .bf16⟩
  | .hbm, ⟨18, _⟩ => ⟨S2x1024x1024, .bf16⟩
  | .hbm, ⟨19, _⟩ => ⟨S2048x1024, .bf16⟩
  | .hbm, ⟨20, _⟩ => ⟨S2x1024x1024, .bf16⟩
  | .hbm, ⟨21, _⟩ => ⟨S2048x1024, .bf16⟩
  | .hbm, ⟨22, _⟩ => ⟨S2x1024x1024, .bf16⟩
  | .hbm, ⟨23, _⟩ => ⟨S2x1024x64x16, .bf16⟩
  | .hbm, ⟨24, _⟩ => ⟨S2x64x1024x16, .bf16⟩
  | .hbm, ⟨25, _⟩ => ⟨S128x1024x16, .bf16⟩
  | .hbm, ⟨26, _⟩ => ⟨S2x1024x64x16, .bf16⟩
  | .hbm, ⟨27, _⟩ => ⟨S2x64x16x1024, .bf16⟩
  | .hbm, ⟨28, _⟩ => ⟨S128x16x1024, .bf16⟩
  | .hbm, ⟨29, _⟩ => ⟨S2x1024x64x16, .bf16⟩
  | .hbm, ⟨30, _⟩ => ⟨S2x64x16x1024, .bf16⟩
  | .hbm, ⟨31, _⟩ => ⟨S128x16x1024, .bf16⟩
  | .hbm, ⟨32, _⟩ => ⟨S128x1024x16, .bf16⟩
  | .hbm, ⟨33, _⟩ => ⟨S2x64x1024x16, .bf16⟩
  | .hbm, ⟨34, _⟩ => ⟨S2x1024x64x16, .bf16⟩
  | .hbm, ⟨35, _⟩ => ⟨S2x1024x1024, .bf16⟩
  | .hbm, ⟨36, _⟩ => ⟨S2048x1024, .bf16⟩
  | .hbm, ⟨37, _⟩ => ⟨S2048x1024, .f32⟩
  | .hbm, ⟨38, _⟩ => ⟨S2x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S16x256x16, .bf16⟩
  | .local _ .vmem, ⟨6, _⟩ => ⟨S16x256x16, .bf16⟩
  | .local _ .vmem, ⟨7, _⟩ => ⟨S16x16x256, .bf16⟩
  | .local _ .vmem, ⟨8, _⟩ => ⟨S16x16x256, .bf16⟩
  | .local _ .vmem, ⟨9, _⟩ => ⟨S16x16x256, .bf16⟩
  | .local _ .vmem, ⟨10, _⟩ => ⟨S16x16x256, .bf16⟩
  | .local _ .vmem, ⟨11, _⟩ => ⟨S16x256x16, .bf16⟩
  | .local _ .vmem, ⟨12, _⟩ => ⟨S16x256x16, .bf16⟩
  | .local _ .vmem, ⟨13, _⟩ => ⟨S16x256x1, .f32⟩
  | .local _ .vmem, ⟨14, _⟩ => ⟨S16x256x1, .f32⟩
  | .local _ .vmem, ⟨15, _⟩ => ⟨S16x256x16, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S16x256x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S16x16x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S16x16x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S16x256x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  shapeCasts_S2x1024x1024_S2048x1024 : S2x1024x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S2048x3072_S2048x1024_0_0 : S2048x3072.Slices ![0, 0] S2048x1024
  shapeCasts_S2048x1024_S2x1024x1024 : S2048x1024.ShapeCasts S2x1024x1024
  slices_S2048x3072_S2048x1024_0_1024 : S2048x3072.Slices ![0, 1024] S2048x1024
  slices_S2048x3072_S2048x1024_0_2048 : S2048x3072.Slices ![0, 2048] S2048x1024
  shapeCasts_S2x1024x1024_S2x1024x64x16 : S2x1024x1024.ShapeCasts S2x1024x64x16
  transposes_S2x1024x64x16_S2x64x1024x16_0_2_1_3 : S2x1024x64x16.Transposes [0, 2, 1, 3] S2x64x1024x16
  shapeCasts_S2x64x1024x16_S128x1024x16 : S2x64x1024x16.ShapeCasts S128x1024x16
  transposes_S2x1024x64x16_S2x64x16x1024_0_2_3_1 : S2x1024x64x16.Transposes [0, 2, 3, 1] S2x64x16x1024
  shapeCasts_S2x64x16x1024_S128x16x1024 : S2x64x16x1024.ShapeCasts S128x16x1024
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x16_S16x256x16_0_0_0 : ∀ a, (![0, 0, 0] : Fin 3 → Nat) a + S16x256x16.size a ≤ S16x256x16.size a
  h_S16x256x16 : 0 < S16x256x16.numel
  shapeCasts_S16x256x16_S16x256x16 : S16x256x16.ShapeCasts S16x256x16
  inb_S16x16x256_S16x16x256_0_0_0 : ∀ a, (![0, 0, 0] : Fin 3 → Nat) a + S16x16x256.size a ≤ S16x16x256.size a
  h_S16x16x256 : 0 < S16x16x256.numel
  shapeCasts_S16x16x256_S16x16x256 : S16x16x256.ShapeCasts S16x16x256
  reduces_S16x256x256_S16x256 : S16x256x256.Reduces [2] S16x256
  shapeCasts_S16x256_S16x256x1 : S16x256.ShapeCasts S16x256x1
  broadcasts_S16x256x1_S16x256x256 : S16x256x1.Broadcasts S16x256x256
  broadcasts_S16x256x1_S16x256x16 : S16x256x1.Broadcasts S16x256x16
  packedbf16_S16x256x16_S16x256x16_0_0_0 : (Rect.unit (s := S16x256x16) ![0, 0, 0] S16x256x16.size inb_S16x256x16_S16x256x16_0_0_0).PackedRows (EltTy.packing .bf16)
  shapeCasts_S128x1024x16_S2x64x1024x16 : S128x1024x16.ShapeCasts S2x64x1024x16
  transposes_S2x64x1024x16_S2x1024x64x16_0_2_1_3 : S2x64x1024x16.Transposes [0, 2, 1, 3] S2x1024x64x16
  shapeCasts_S2x1024x64x16_S2x1024x1024 : S2x1024x64x16.ShapeCasts S2x1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x3072_S512x3072_1_0_0_1_n_n_wf : DotDims.WF S512x1024 S1024x3072 S512x3072 [1] [0] [0] [1] [] []
  dot_S16x256x16_S16x16x256_S16x256x256_2_1_1_2_0_0_wf : DotDims.WF S16x256x16 S16x16x256 S16x256x256 [2] [1] [1] [2] [0] [0]
  dot_S16x256x256_S16x16x256_S16x256x16_2_2_1_1_0_0_wf : DotDims.WF S16x256x256 S16x16x256 S16x256x16 [2] [2] [1] [1] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S2048x3072.size a
  hwx0_2 : ∀ i : grid0.Coords, EltTy.bits .bf16 = 32 ∨ (Rect.block (s := S2048x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x16.size a ≤ S128x1024x16.size a
  hwx1_0 : ∀ i : grid1.Coords, EltTy.bits .bf16 = 32 ∨ (Rect.block (s := S128x1024x16) S16x256x16.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x16x256.size a ≤ S128x16x1024.size a
  hwx1_1 : ∀ i : grid1.Coords, EltTy.bits .bf16 = 32 ∨ (Rect.block (s := S128x16x1024) S16x16x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x16x256.size a ≤ S128x16x1024.size a
  hwx1_2 : ∀ i : grid1.Coords, EltTy.bits .bf16 = 32 ∨ (Rect.block (s := S128x16x1024) S16x16x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x16.size a ≤ S128x1024x16.size a
  hwx1_3 : ∀ i : grid1.Coords, EltTy.bits .bf16 = 32 ∨ (Rect.block (s := S128x1024x16) S16x256x16.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .bf16 = 32 ∨ (Rect.block (s := S2048x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x1024.size a
  hwx2_2 : ∀ i : grid2.Coords, EltTy.bits .f32 = 32 ∨ (Rect.block (s := S2048x1024) S512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S16x256x16_S16x16x256_S16x256x256_2_1_1_2_0_0 : DotDims S16x256x16 S16x16x256 S16x256x256 where
  lhsContracting := [2]
  rhsContracting := [1]
  lhsNonContracting := [1]
  rhsNonContracting := [2]
  lhsBatch := [0]
  rhsBatch := [0]
  wf := dot_S16x256x16_S16x16x256_S16x256x256_2_1_1_2_0_0_wf
def dot_S16x256x256_S16x16x256_S16x256x16_2_2_1_1_0_0 : DotDims S16x256x256 S16x16x256 S16x256x16 where
  lhsContracting := [2]
  rhsContracting := [2]
  lhsNonContracting := [1]
  rhsNonContracting := [1]
  lhsBatch := [0]
  rhsBatch := [0]
  wf := dot_S16x256x256_S16x16x256_S16x256x16_2_2_1_1_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S16x256x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S16x16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S16x16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S16x256x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v31) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x1024x1024 : Shape := ⟨3, ![2, 1024, 1024]⟩
abbrev S1024x1024 : Shape := ⟨2, ![1024, 1024]⟩
abbrev S2x1024x64x16 : Shape := ⟨4, ![2, 1024, 64, 16]⟩
abbrev S2x64x1024x16 : Shape := ⟨4, ![2, 64, 1024, 16]⟩
abbrev S_ : Shape := ⟨0, ![]⟩
abbrev S2x64x1024x1024 : Shape := ⟨4, ![2, 64, 1024, 1024]⟩
abbrev S2x64x1024 : Shape := ⟨3, ![2, 64, 1024]⟩
abbrev S2x64x1024x1 : Shape := ⟨4, ![2, 64, 1024, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x1024x1024, .f32⟩
  | .hbm, ⟨6, _⟩ => ⟨S2x1024x64x16, .f32⟩
  | .hbm, ⟨7, _⟩ => ⟨S2x64x1024x16, .f32⟩
  | .hbm, ⟨8, _⟩ => ⟨S2x1024x1024, .f32⟩
  | .hbm, ⟨9, _⟩ => ⟨S2x1024x64x16, .f32⟩
  | .hbm, ⟨10, _⟩ => ⟨S2x64x1024x16, .f32⟩
  | .hbm, ⟨11, _⟩ => ⟨S2x1024x1024, .f32⟩
  | .hbm, ⟨12, _⟩ => ⟨S2x1024x64x16, .f32⟩
  | .hbm, ⟨13, _⟩ => ⟨S2x64x1024x16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x64x1024x1024, .f32⟩
  | .hbm, ⟨19, _⟩ => ⟨S2x64x1024x1024, .f32⟩
  | .hbm, ⟨20, _⟩ => ⟨S2x64x1024x1024, .f32⟩
  | .hbm, ⟨21, _⟩ => ⟨S_, .f32⟩
  | .hbm, ⟨22, _⟩ => ⟨S2x64x1024, .f32⟩
  | .hbm, ⟨23, _⟩ => ⟨S_, .f32⟩
  | .hbm, ⟨24, _⟩ => ⟨S2x64x1024, .f32⟩
  | .hbm, ⟨25, _⟩ => ⟨S2x64x1024, .f32⟩
  | .hbm, ⟨26, _⟩ => ⟨S2x64x1024x1, .f32⟩
  | .hbm, ⟨27, _⟩ => ⟨S2x64x1024x1024, .f32⟩
  | .hbm, ⟨28, _⟩ => ⟨S2x64x1024x1024, .f32⟩
  | .hbm, ⟨29, _⟩ => ⟨S2x64x1024x1024, .f32⟩
  | .hbm, ⟨30, _⟩ => ⟨S_, .f32⟩
  | .hbm, ⟨31, _⟩ => ⟨S2x64x1024, .f32⟩
  | .hbm, ⟨32, _⟩ => ⟨S2x64x1024x1, .f32⟩
  | .hbm, ⟨33, _⟩ => ⟨S2x64x1024x1024, .f32⟩
  | .hbm, ⟨34, _⟩ => ⟨S2x64x1024x1024, .f32⟩
  | .hbm, ⟨35, _⟩ => ⟨S2x64x1024x16, .f32⟩
  | .hbm, ⟨36, _⟩ => ⟨S2x1024x64x16, .f32⟩
  | .hbm, ⟨37, _⟩ => ⟨S2x1024x1024, .f32⟩
  | .hbm, ⟨38, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S2x1024x1024_S2x1024x64x16 : S2x1024x1024.ShapeCasts S2x1024x64x16
  transposes_S2x1024x64x16_S2x64x1024x16_0_2_1_3 : S2x1024x64x16.Transposes [0, 2, 1, 3] S2x64x1024x16
  bcast_S_S2x64x1024x1024 : S_.BroadcastsInDim S2x64x1024x1024 (![] : Fin 0 → Fin S2x64x1024x1024.rank)
  reducesTo_S2x64x1024x1024_S2x64x1024_d3 : S2x64x1024x1024.ReducesTo [3] S2x64x1024
  h_S_ : 0 < S_.numel
  bcast_S_S2x64x1024 : S_.BroadcastsInDim S2x64x1024 (![] : Fin 0 → Fin S2x64x1024.rank)
  bcast_S2x64x1024_S2x64x1024x1_0_1_2 : S2x64x1024.BroadcastsInDim S2x64x1024x1 (![0, 1, 2] : Fin 3 → Fin S2x64x1024x1.rank)
  bcast_S2x64x1024x1_S2x64x1024x1024_0_1_2_3 : S2x64x1024x1.BroadcastsInDim S2x64x1024x1024 (![0, 1, 2, 3] : Fin 4 → Fin S2x64x1024x1024.rank)
  transposes_S2x64x1024x16_S2x1024x64x16_0_2_1_3 : S2x64x1024x16.Transposes [0, 2, 1, 3] S2x1024x64x16
  shapeCasts_S2x1024x64x16_S2x1024x1024 : S2x1024x64x16.ShapeCasts S2x1024x1024
  dot_S2x1024x1024_S1024x1024_S2x1024x1024_2_1_01_0_n_n_wf : DotDims.WF S2x1024x1024 S1024x1024 S2x1024x1024 [2] [1] [0, 1] [0] [] []
  dot_S2x64x1024x16_S2x64x1024x16_S2x64x1024x1024_3_3_2_2_01_01_wf : DotDims.WF S2x64x1024x16 S2x64x1024x16 S2x64x1024x1024 [3] [3] [2] [2] [0, 1] [0, 1]
  dot_S2x64x1024x1024_S2x64x1024x16_S2x64x1024x16_3_2_2_3_01_01_wf : DotDims.WF S2x64x1024x1024 S2x64x1024x16 S2x64x1024x16 [3] [2] [2] [3] [0, 1] [0, 1]

variable [Facts₀]

def dot_S2x1024x1024_S1024x1024_S2x1024x1024_2_1_01_0_n_n : DotDims S2x1024x1024 S1024x1024 S2x1024x1024 where
  lhsContracting := [2]
  rhsContracting := [1]
  lhsNonContracting := [0, 1]
  rhsNonContracting := [0]
  lhsBatch := []
  rhsBatch := []
  wf := dot_S2x1024x1024_S1024x1024_S2x1024x1024_2_1_01_0_n_n_wf
def dot_S2x64x1024x16_S2x64x1024x16_S2x64x1024x1024_3_3_2_2_01_01 : DotDims S2x64x1024x16 S2x64x1024x16 S2x64x1024x1024 where
  lhsContracting := [3]
  rhsContracting := [3]
  lhsNonContracting := [2]
  rhsNonContracting := [2]
  lhsBatch := [0, 1]
  rhsBatch := [0, 1]
  wf := dot_S2x64x1024x16_S2x64x1024x16_S2x64x1024x1024_3_3_2_2_01_01_wf
def dot_S2x64x1024x1024_S2x64x1024x16_S2x64x1024x16_3_2_2_3_01_01 : DotDims S2x64x1024x1024 S2x64x1024x16 S2x64x1024x16 where
  lhsContracting := [3]
  rhsContracting := [2]
  lhsNonContracting := [2]
  rhsNonContracting := [3]
  lhsBatch := [0, 1]
  rhsBatch := [0, 1]
  wf := dot_S2x64x1024x1024_S2x64x1024x16_S2x64x1024x16_3_2_2_3_01_01_wf

class Facts : Prop extends Facts₀ where

variable [Facts]
-- ==== Proof.FrI0.lean ====
import proofs.«119430_j62362925137949_2_alg».proof.Proof.Gen.KernelIdeal.Launch
import proofs.«119430_j62362925137949_2_alg».proof.Proof.Gen.KernelIdeal.Skeleton
import proofs.«119430_j62362925137949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: `cc0_linear_kernel`, at the buffer contents `V` found when the region is entered -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched at that point or
    at an earlier one (then its block index has not moved since), for any proof data over the arrays `V` whose body
    leaves the input in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-- The output window's staging buffer after the body, from the two input blocks: its one store, of the product of
    the two blocks, over the whole buffer. -/
def out0_2 (x0 : Vec F S512x1024 .bf16) (x1 : Vec F S1024x3072 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
/-- The kernel body on whole staging buffers, the inputs' at contents `x0`, `x1` and the output's at anything,
    runs to the continuation with the inputs as they were and the output at `out0_2 x0 x1`. The body also reads
    the output buffer before it overwrites it; the value read is not used. -/
theorem sound_kernel0 (c : Dev nD) (E : Set ℕ) (i : grid0.Coords)
    (arg0 : Memref sig .tc .vmem S512x1024 .bf16) (harg0 : arg0.IsWhole) (arg1 : Memref sig .tc .vmem S1024x3072 .bf16) (harg1 : arg1.IsWhole)
    (arg2 : Memref sig .tc .vmem S512x3072 .bf16) (harg2 : arg2.IsWhole)
    (x0 : Vec F S512x1024 .bf16) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0_linear_kernel i arg0 harg0 arg1 harg1 arg2 harg2) K := by
  simp only [cc0_linear_kernel_eq_skeleton]; unfold cc0_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them; after the body at
    point `t` each input's buffer at its block and the output's at `out0_2` of the two input blocks; the
    invariant is the rest of the core's memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr
end
-- ==== Proof.FrI1Runs.lean ====
import proofs.«119430_j62362925137949_2_alg».proof.Proof.Gen.KernelIdeal.Launch
import proofs.«119430_j62362925137949_2_alg».proof.Proof.Gen.KernelIdeal.Skeleton
import proofs.«119430_j62362925137949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): what its three whole-body runs share

The region's half of the frame is stated at a parameter `V`: the TensorCore's buffer contents when the region is
entered. -/

section Blocks

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first `scf.if` (the key/value axis is at its first block), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the key/value axis is at its last block). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A the output is idle: the case stores nothing into it, -/
theorem idleAt1_3_A : ∀ t : Fin cfg1.N, cond1_0 (grid1.coords t) → ¬cond1_1 (grid1.coords t) → cfg1.idle 3 (grid1.coords t) = true := by decide +kernel
/-- and the pipeline does not write its block back there. -/
theorem noFlush1_3_A : ∀ t : Fin cfg1.N, cond1_0 (grid1.coords t) → ¬cond1_1 (grid1.coords t) → (cfg1.win 3).flush t = false := by decide +kernel
/-- The same at the points of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C the output is live: the case stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated. -/
abbrev VO1_3 : View sig .tc .vmem S16x256x16 .bf16 := (Memref.whole cc1_stg3_0 : Memref sig .tc .vmem S16x256x16 .bf16).view
/-- Each window's current staging memref at point `t`, spelled as the pipeline passes it, and its wholeness. -/
abbrev ms1_0 (t : Fin cfg1.N) : Memref sig .tc .vmem S16x256x16 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x16x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x256x16 .bf16 := win1_3.stage (cfg1.slots t 3)
abbrev hs1_3 (t : Fin cfg1.N) : (ms1_3 t).IsWhole := hstage1_3 ((cfg1.slots t 3).cast nbuf1_3)
/-- The scratch operands: the running maximum, the running sum, the accumulator — whole scoped buffers of the kernel's own. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x16 .f32 := Memref.whole cc1_scratch2
/-- The same as views: what they hold is stated through these. -/
abbrev VS1_0 : View sig .tc .vmem S16x256x1 .f32 := scM1_0.view
abbrev VS1_1 : View sig .tc .vmem S16x256x1 .f32 := scM1_1.view
abbrev VS1_2 : View sig .tc .vmem S16x256x16 .f32 := scM1_2.view

/-! ## The invariant's frame: the scoped rest with the three scratch buffers singled out -/

/-- The scoped rest of region 1 with the three scratch buffers at the given assertions: the other two kernels' staging
    buffers at some contents each, and the generator register at some state. -/
def PhiWith (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- What the launch hands the region is the scoped rest with every scratch buffer at some contents. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA PhiWith; rw [scopedRest1_eq]; simp only [scM1_0, scM1_1, scM1_2, owns_whole]; try rfl

end Cert.KernelIdeal.Fr

end
-- ==== Proof.FrI1A.lean ====
import proofs.«119430_j62362925137949_2_alg».proof.Proof.FrI1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch buffers, as pieces (last first), in
    case A (the key/value axis at its first block and not at its last: the three scratch buffers are initialised, then updated; the output is not stored), with the proof that on whole memrefs — the inputs' at their contents, the output's at contents handed back untouched,
    the scratch buffers at anything — the body runs to the continuation holding the inputs' as they were and each
    buffer it stored into with its pieces written. -/
noncomputable def kernelRun1_A (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) :
    Σ' (L3 : List (View.Piece (Elt F) S16x256x16 .bf16)) (LS0 : List (View.Piece (Elt F) S16x256x1 .f32)) (LS1 : List (View.Piece (Elt F) S16x256x1 .f32)), { LS2 : List (View.Piece (Elt F) S16x256x16 .f32) //
      ∀ (xi3 : Vec F S16x256x16 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.FrI1B.lean ====
import proofs.«119430_j62362925137949_2_alg».proof.Proof.FrI1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch buffers, as pieces (last first), in
    case B (the key/value axis at neither end: the three scratch buffers are updated from what the point before left; the output is not stored), with the proof that on whole memrefs — the inputs' at their contents, the output's at contents handed back untouched,
    the scratch buffers at what the point before left — the body runs to the continuation holding the inputs' as they were and each
    buffer it stored into with its pieces written. -/
noncomputable def kernelRun1_B (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    Σ' (L3 : List (View.Piece (Elt F) S16x256x16 .bf16)) (LS0 : List (View.Piece (Elt F) S16x256x1 .f32)) (LS1 : List (View.Piece (Elt F) S16x256x1 .f32)), { LS2 : List (View.Piece (Elt F) S16x256x16 .f32) //
      ∀ (xi3 : Vec F S16x256x16 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.FrI1C.lean ====
import proofs.«119430_j62362925137949_2_alg».proof.Proof.FrI1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch buffers, as pieces (last first), in
    case C (the key/value axis at its last block and not at its first: the three scratch buffers are updated from what the point before left and the output is stored from them), with the proof that on whole memrefs — the inputs' at their contents, the output's at anything,
    the scratch buffers at what the point before left — the body runs to the continuation holding the inputs' as they were and each
    buffer it stored into with its pieces written. -/
noncomputable def kernelRun1_C (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    Σ' (L3 : List (View.Piece (Elt F) S16x256x16 .bf16)) (LS0 : List (View.Piece (Elt F) S16x256x1 .f32)) (LS1 : List (View.Piece (Elt F) S16x256x1 .f32)), { LS2 : List (View.Piece (Elt F) S16x256x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.FrI1.lean ====
import proofs.«119430_j62362925137949_2_alg».proof.Proof.FrI1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): the frame's half for a kernel that carries three scratch buffers

Stated at a parameter `V`: the TensorCore's buffer contents when the region is entered. -/

variable (V : (c : Dev nD) → (b : Ref sig .tc) → Buf (Elt F) ((c : Thread nD τ).loc b))

/-! ## What each case leaves in the output's staging buffer and in the scratch buffers -/

/-- Case A stores nothing into the output (the window is idle at its points and not written back there): no pieces — a
    placeholder that nothing consults. -/
def out1_A_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x16 .bf16 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for the running maximum cover it (whole stores). -/
theorem scover1_A_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) (y : S16x256x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S16x256x1.size (by sl_kernel_rfl) y

/-- What case A leaves in the running maximum: its pieces read back. -/
def sout1_A_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for the running sum cover it (whole stores). -/
theorem scover1_A_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) (y : S16x256x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S16x256x1.size (by sl_kernel_rfl) y

/-- What case A leaves in the running sum: its pieces read back. -/
def sout1_A_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for the accumulator cover it (whole stores). -/
theorem scover1_A_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) (y : S16x256x16.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S16x256x16.size (by sl_kernel_rfl) y

/-- What case A leaves in the accumulator: its pieces read back. -/
def sout1_A_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x16 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output (the window is idle at its points and not written back there): no pieces — a
    placeholder that nothing consults. -/
def out1_B_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .bf16 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for the running maximum cover it (whole stores). -/
theorem scover1_B_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S16x256x1.size (by sl_kernel_rfl) y

/-- What case B leaves in the running maximum: its pieces read back. -/
def sout1_B_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for the running sum cover it (whole stores). -/
theorem scover1_B_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S16x256x1.size (by sl_kernel_rfl) y

/-- What case B leaves in the running sum: its pieces read back. -/
def sout1_B_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for the accumulator cover it (whole stores). -/
theorem scover1_B_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x16.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S16x256x16.size (by sl_kernel_rfl) y

/-- What case B leaves in the accumulator: its pieces read back. -/
def sout1_B_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for the output tile its block (one whole store), so they cover it. -/
theorem cover1_C_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x16.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S16x256x16.size (by sl_kernel_rfl) y

/-- What case C leaves in the output's staging buffer: its pieces read back. -/
def out1_C_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .bf16 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for the running maximum cover it (whole stores). -/
theorem scover1_C_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S16x256x1.size (by sl_kernel_rfl) y

/-- What case C leaves in the running maximum: its pieces read back. -/
def sout1_C_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for the running sum cover it (whole stores). -/
theorem scover1_C_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S16x256x1.size (by sl_kernel_rfl) y

/-- What case C leaves in the running sum: its pieces read back. -/
def sout1_C_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for the accumulator cover it (whole stores). -/
theorem scover1_C_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x16.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S16x256x16.size (by sl_kernel_rfl) y

/-- What case C leaves in the accumulator: its pieces read back. -/
def sout1_C_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output block and the three scratch buffers hold after each point -/

/-- What the output's staging buffer and the three scratch buffers (running maximum, running sum, accumulator) hold after the
    body at position `n`: the case the closed forms select at `n`, run at the point's memrefs and input blocks, the scratch
    buffers at what this leaves at `n - 1`. Both conditions at once is no case. -/
def outsAt1 (c : Dev nD) : (n : ℕ) → n < cfg1.N → Vec F S16x256x16 .bf16 × Vec F S16x256x1 .f32 × Vec F S16x256x1 .f32 × Vec F S16x256x16 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (every scratch buffer at
    anything); afterwards the scoped rest with the three scratch buffers at what the point before left in them. -/
def PhiS1 (c : Dev nD) : (n : ℕ) → n ≤ cfg1.N → sProp 𝕄
  | 0, _ => Pipeline.ΦA spec1 c
  | n + 1, hn => PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2)

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) := rfl

/-- Before a point that is not the first: the scratch buffers at what the point before left. -/
theorem PhiS1_pos (c : Dev nD) (n : ℕ) (h : n ≤ cfg1.N) (hz : n ≠ 0) :
    PhiS1 V c n h = PhiWith c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-! ## The pipeline's proof data -/

/-- The proof data of region 1 on core `c`: the arrays as the region finds them (`V`); after the body at point `t` each
    input's buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the three scratch buffers at what the point before left (at anything at the first point) and the
    rest of the scoped buffers and the generator register, which pass through unread, and takes the scratch buffers back at
    this point's contents; where the output is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact RT
        isplitl [Ho]; · iexact Ho
        isplitl [H0]; · iexact H0
        isplitl [H1]; · iexact H1
        isplitl [H2]; · iexact H2
        iexists _; iexact H3
      · rw [PhiS1_castSucc V c t, PhiS1_pos V c _ _ hz]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact RT
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _)
          iexact RT
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _)
          iexact RT
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives back what the launch handed: the scratch buffers' named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  unfold PhiWith
  iintro ⟨⟨R0, R1, R2, R3, R4, HS0, HS1, HS2, RT⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [HS0]; · iexists _; iexact HS0
  isplitl [HS1]; · iexists _; iexact HS1
  isplitl [HS2]; · iexists _; iexact HS2
  iexact RT

/-- The same after the last point. -/
theorem hout1 (c : Dev nD) : (dat1 (F := F) V c).Φ (Fin.last cfg1.N) ⊢ Pipeline.ΦA spec1 c :=
  Phi_out1 V c _ (by rw [Fin.val_last]; have : cfg1.N = 128 := N_1; omega)

end Cert.KernelIdeal.Fr

end
-- ==== Proof.FrI2.lean ====
import proofs.«119430_j62362925137949_2_alg».proof.Proof.Gen.KernelIdeal.Launch
import proofs.«119430_j62362925137949_2_alg».proof.Proof.Gen.KernelIdeal.Skeleton
import proofs.«119430_j62362925137949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: `cc2_linear_kernel`, at the buffer contents `V` found when the region is entered -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched at that point or
    at an earlier one (then its block index has not moved since), for any proof data over the arrays `V` whose body
    leaves the input in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each staging buffer whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-- The output window's staging buffer after the body, from the two input blocks: its one store, of the product of
    the two blocks, over the whole buffer. -/
def out2_2 (x0 : Vec F S512x1024 .bf16) (x1 : Vec F S1024x1024 .bf16) : Vec F S512x1024 .f32 :=
  View.canon [⟨r2_2, k2_pay1 (View.ld x0 r2_0) (View.ld x1 r2_1)⟩]

/-- The one store covers the buffer. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

set_option maxHeartbeats 1000000 in
/-- The kernel body on whole staging buffers, the inputs' at contents `x0`, `x1` and the output's at anything,
    runs to the continuation with the inputs as they were and the output at `out2_2 x0 x1`. The body also reads
    the output buffer before it overwrites it; the value read is not used. -/
theorem sound_kernel2 (c : Dev nD) (E : Set ℕ) (i : grid2.Coords)
    (arg0 : Memref sig .tc .vmem S512x1024 .bf16) (harg0 : arg0.IsWhole) (arg1 : Memref sig .tc .vmem S1024x1024 .bf16) (harg1 : arg1.IsWhole)
    (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2_linear_kernel i arg0 harg0 arg1 harg1 arg2 harg2) K := by
  simp only [cc2_linear_kernel_eq_skeleton]; unfold cc2_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them; after the body at
    point `t` each input's buffer at its block and the output's at `out2_2` of the two input blocks; the
    invariant is the rest of the core's memory and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr
end
-- ==== Proof.RunI.lean ====
/-
  The whole run of the program: host operations, then three kernel regions with host operations between and
  after them.  The buffers' contents at every boundary are written as a fold from the launch memory — a stretch of
  host operations applies them in order; a region leaves its arrays at what its blocks' write-backs produce and
  every other buffer untouched — and every weakly fair execution is shown to terminate, without a fault, in a memory
  that holds every unscoped buffer at the last of these contents.  No host operation and no region writes an
  argument array, so each argument is read back through the fold to its launch contents.
-/
import proofs.«119430_j62362925137949_2_alg».proof.Proof.FrI0
import proofs.«119430_j62362925137949_2_alg».proof.Proof.FrI1
import proofs.«119430_j62362925137949_2_alg».proof.Proof.FrI2
import proofs.«119430_j62362925137949_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch of host operations (region 0 is entered here). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- After region 0: its arrays at what its write-backs leave, every other buffer as the region found it. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second stretch (region 1 is entered here). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- After region 1: its arrays at what its write-backs leave, every other buffer as the region found it. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third stretch (region 2 is entered here). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- After region 2: its arrays at what its write-backs leave, every other buffer as the region found it. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same, read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-- After the last host operation: the contents the program ends with. -/
abbrev W7 : Dev nD → Valuation τ sig (Elt F) := fun c => StableHlo.after hostOps3 (W6 m c)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data of the three regions, and what rides along -/

/-- Each region's proof data at the contents it is entered with. -/
def pdatsF : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱F : Variants := Variants.none
abbrev LF : GSem nD τ sig → Finset Unit := fun _ => ∅
abbrev lvF : GSem nD τ sig → Unit → ℕ := fun _ _ => 0
/-- Beside the buffers: the generator register at some state, and the core owing nothing. -/
abbrev RF (c : Dev nD) : sProp 𝕄 := iprop((∃ r, prngReg c r) ∗ ∃ W, owes (c : Thread nD τ) (0 : CellTallies nD τ sig Unit) W)
/-- A stretch of host operations as a segment from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev TnF (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at the contents before it, left with them
    at the contents after it; its arrays are split out of the unscoped buffers and put back at what the write-backs
    leave; the generator register passes through the invariant; nothing is owed. -/
def reg0 : Pipeline.RegionSeg (pcfgs (F := F)) adm (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (E1 m c) (E2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them
    at the contents after it; its arrays are split out of the unscoped buffers and put back at what the write-backs
    leave; the generator register passes through the invariant; nothing is owed. -/
def reg1 : Pipeline.RegionSeg (pcfgs (F := F)) adm (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdatsF m) launch1.win launch1.arr_whole c
      ((pdatsF m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdatsF m 1 c).Φ (Fin.last _) = (dat1 (E3 m) c).Φ (Fin.last cfg1.N) from rfl]
    have hh := hout1 (E3 m) c
    unfold Pipeline.ΦA at hh
    iintro H
    ihave H2 := hh $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (E3 m c) (E4 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them
    at the contents after it; its arrays are split out of the unscoped buffers and put back at what the write-backs
    leave; the generator register passes through the invariant; nothing is owed. -/
def reg2 : Pipeline.RegionSeg (pcfgs (F := F)) adm (pdatsF m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LF lvF 2 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdatsF m) launch2.win launch2.arr_whole c
      ((pdatsF m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsF m) ((pdatsF m 2 c).share_full fun _ => rfl)
      (E5 m c) (E6 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The last host stretch ends at the final thread state beside the core owing nothing. -/
abbrev segsF : List (Pipeline.Seg (pcfgs (F := F)) adm (pdatsF m) () defs₀ 𝒱F LF lvF) :=
  [ .host (hsegF hostOps0 hostOps0_sub hostOps0_fresh (W0 m)),
    .region (reg0 m),
    .host (hsegF hostOps1 hostOps1_sub hostOps1_fresh (W2 m)),
    .region (reg1 m),
    .host (hsegF hostOps2 hostOps2_sub hostOps2_fresh (W4 m)),
    .region (reg2 m),
    .host (hsegF hostOps3 hostOps3_sub hostOps3_fresh (W6 m)) ]
theorem main_runF (c : Dev nD) : main (F := F) c = Pipeline.Seg.run (segsF m) := (main_chain c).trans (by chain_rfl)

set_option backward.isDefEq.respectTransparency.types false in
/-- Every weakly fair execution from memory `m` with zero counters terminates, nothing faulting, in a memory that
    holds every unscoped buffer at the final contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c)) (Tₙ := TnF m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ RF c) : sProp 𝕄)
        ⊢ iprop(TnF m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_ucF main_arg0 (by decide))).trans (W7_main_arg0 m c),
     (h c _ (mem_ucF main_arg1 (by decide))).trans (W7_main_arg1 m c),
     (h c _ (mem_ucF main_arg2 (by decide))).trans (W7_main_arg2 m c),
     (h c _ (mem_ucF main_arg3 (by decide))).trans (W7_main_arg3 m c),
     (h c _ (mem_ucF main_arg4 (by decide))).trans (W7_main_arg4 m c)⟩) (run_all m ρ)

end Cert.KernelIdeal.Fr

end
-- ==== Proof.FrB0.lean ====
import proofs.«119430_j62362925137949_2_alg».proof.Proof.Gen.Kernel.Launch
import proofs.«119430_j62362925137949_2_alg».proof.Proof.Gen.Kernel.Skeleton
import proofs.«119430_j62362925137949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: `cc0_linear_kernel`, at the buffer contents `V` found when the region is entered -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched at that point or
    at an earlier one (then its block index has not moved since), for any proof data over the arrays `V` whose body
    leaves the input in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-- The output window's staging buffer after the body, from the two input blocks: its one store, of the product of
    the two blocks, over the whole buffer. -/
def out0_2 (x0 : Vec F S512x1024 .bf16) (x1 : Vec F S1024x3072 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
/-- The kernel body on whole staging buffers, the inputs' at contents `x0`, `x1` and the output's at anything,
    runs to the continuation with the inputs as they were and the output at `out0_2 x0 x1`. The body also reads
    the output buffer before it overwrites it; the value read is not used. -/
theorem sound_kernel0 (c : Dev nD) (E : Set ℕ) (i : grid0.Coords)
    (arg0 : Memref sig .tc .vmem S512x1024 .bf16) (harg0 : arg0.IsWhole) (arg1 : Memref sig .tc .vmem S1024x3072 .bf16) (harg1 : arg1.IsWhole)
    (arg2 : Memref sig .tc .vmem S512x3072 .bf16) (harg2 : arg2.IsWhole)
    (x0 : Vec F S512x1024 .bf16) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0_linear_kernel i arg0 harg0 arg1 harg1 arg2 harg2) K := by
  simp only [cc0_linear_kernel_eq_skeleton]; unfold cc0_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them; after the body at
    point `t` each input's buffer at its block and the output's at `out0_2` of the two input blocks; the
    invariant is the rest of the core's memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr
end
-- ==== Proof.FrB1Runs.lean ====
import proofs.«119430_j62362925137949_2_alg».proof.Proof.Gen.Kernel.Launch
import proofs.«119430_j62362925137949_2_alg».proof.Proof.Gen.Kernel.Skeleton
import proofs.«119430_j62362925137949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): what its three whole-body runs share

The region's half of the frame is stated at a parameter `V`: the TensorCore's buffer contents when the region is
entered. -/

section Blocks

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first `scf.if` (the key/value axis is at its first block), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the key/value axis is at its last block). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A the output is idle: the case stores nothing into it, -/
theorem idleAt1_3_A : ∀ t : Fin cfg1.N, cond1_0 (grid1.coords t) → ¬cond1_1 (grid1.coords t) → cfg1.idle 3 (grid1.coords t) = true := by decide +kernel
/-- and the pipeline does not write its block back there. -/
theorem noFlush1_3_A : ∀ t : Fin cfg1.N, cond1_0 (grid1.coords t) → ¬cond1_1 (grid1.coords t) → (cfg1.win 3).flush t = false := by decide +kernel
/-- The same at the points of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C the output is live: the case stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated. -/
abbrev VO1_3 : View sig .tc .vmem S16x256x16 .bf16 := (Memref.whole cc1_stg3_0 : Memref sig .tc .vmem S16x256x16 .bf16).view
/-- Each window's current staging memref at point `t`, spelled as the pipeline passes it, and its wholeness. -/
abbrev ms1_0 (t : Fin cfg1.N) : Memref sig .tc .vmem S16x256x16 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x16x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x256x16 .bf16 := win1_3.stage (cfg1.slots t 3)
abbrev hs1_3 (t : Fin cfg1.N) : (ms1_3 t).IsWhole := hstage1_3 ((cfg1.slots t 3).cast nbuf1_3)
/-- The scratch operands: the running maximum, the running sum, the accumulator — whole scoped buffers of the kernel's own. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x16 .f32 := Memref.whole cc1_scratch2
/-- The same as views: what they hold is stated through these. -/
abbrev VS1_0 : View sig .tc .vmem S16x256x1 .f32 := scM1_0.view
abbrev VS1_1 : View sig .tc .vmem S16x256x1 .f32 := scM1_1.view
abbrev VS1_2 : View sig .tc .vmem S16x256x16 .f32 := scM1_2.view

/-! ## The invariant's frame: the scoped rest with the three scratch buffers singled out -/

/-- The scoped rest of region 1 with the three scratch buffers at the given assertions: the other two kernels' staging
    buffers at some contents each, and the generator register at some state. -/
def PhiWith (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- What the launch hands the region is the scoped rest with every scratch buffer at some contents. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA PhiWith; rw [scopedRest1_eq]; simp only [scM1_0, scM1_1, scM1_2, owns_whole]; try rfl

end Cert.Kernel.Fr

end
-- ==== Proof.FrB1A.lean ====
import proofs.«119430_j62362925137949_2_alg».proof.Proof.FrB1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch buffers, as pieces (last first), in
    case A (the key/value axis at its first block and not at its last: the three scratch buffers are initialised, then updated; the output is not stored), with the proof that on whole memrefs — the inputs' at their contents, the output's at contents handed back untouched,
    the scratch buffers at anything — the body runs to the continuation holding the inputs' as they were and each
    buffer it stored into with its pieces written. -/
noncomputable def kernelRun1_A (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) :
    Σ' (L3 : List (View.Piece (Elt F) S16x256x16 .bf16)) (LS0 : List (View.Piece (Elt F) S16x256x1 .f32)) (LS1 : List (View.Piece (Elt F) S16x256x1 .f32)), { LS2 : List (View.Piece (Elt F) S16x256x16 .f32) //
      ∀ (xi3 : Vec F S16x256x16 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.FrB1B.lean ====
import proofs.«119430_j62362925137949_2_alg».proof.Proof.FrB1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch buffers, as pieces (last first), in
    case B (the key/value axis at neither end: the three scratch buffers are updated from what the point before left; the output is not stored), with the proof that on whole memrefs — the inputs' at their contents, the output's at contents handed back untouched,
    the scratch buffers at what the point before left — the body runs to the continuation holding the inputs' as they were and each
    buffer it stored into with its pieces written. -/
noncomputable def kernelRun1_B (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    Σ' (L3 : List (View.Piece (Elt F) S16x256x16 .bf16)) (LS0 : List (View.Piece (Elt F) S16x256x1 .f32)) (LS1 : List (View.Piece (Elt F) S16x256x1 .f32)), { LS2 : List (View.Piece (Elt F) S16x256x16 .f32) //
      ∀ (xi3 : Vec F S16x256x16 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.FrB1C.lean ====
import proofs.«119430_j62362925137949_2_alg».proof.Proof.FrB1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the three scratch buffers, as pieces (last first), in
    case C (the key/value axis at its last block and not at its first: the three scratch buffers are updated from what the point before left and the output is stored from them), with the proof that on whole memrefs — the inputs' at their contents, the output's at anything,
    the scratch buffers at what the point before left — the body runs to the continuation holding the inputs' as they were and each
    buffer it stored into with its pieces written. -/
noncomputable def kernelRun1_C (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    Σ' (L3 : List (View.Piece (Elt F) S16x256x16 .bf16)) (LS0 : List (View.Piece (Elt F) S16x256x1 .f32)) (LS1 : List (View.Piece (Elt F) S16x256x1 .f32)), { LS2 : List (View.Piece (Elt F) S16x256x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.FrB1.lean ====
import proofs.«119430_j62362925137949_2_alg».proof.Proof.FrB1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): the frame's half for a kernel that carries three scratch buffers

Stated at a parameter `V`: the TensorCore's buffer contents when the region is entered. -/

variable (V : (c : Dev nD) → (b : Ref sig .tc) → Buf (Elt F) ((c : Thread nD τ).loc b))

/-! ## What each case leaves in the output's staging buffer and in the scratch buffers -/

/-- Case A stores nothing into the output (the window is idle at its points and not written back there): no pieces — a
    placeholder that nothing consults. -/
def out1_A_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x16 .bf16 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for the running maximum cover it (whole stores). -/
theorem scover1_A_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) (y : S16x256x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S16x256x1.size (by sl_kernel_rfl) y

/-- What case A leaves in the running maximum: its pieces read back. -/
def sout1_A_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for the running sum cover it (whole stores). -/
theorem scover1_A_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) (y : S16x256x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S16x256x1.size (by sl_kernel_rfl) y

/-- What case A leaves in the running sum: its pieces read back. -/
def sout1_A_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for the accumulator cover it (whole stores). -/
theorem scover1_A_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) (y : S16x256x16.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S16x256x16.size (by sl_kernel_rfl) y

/-- What case A leaves in the accumulator: its pieces read back. -/
def sout1_A_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) : Vec F S16x256x16 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output (the window is idle at its points and not written back there): no pieces — a
    placeholder that nothing consults. -/
def out1_B_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .bf16 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for the running maximum cover it (whole stores). -/
theorem scover1_B_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S16x256x1.size (by sl_kernel_rfl) y

/-- What case B leaves in the running maximum: its pieces read back. -/
def sout1_B_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for the running sum cover it (whole stores). -/
theorem scover1_B_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S16x256x1.size (by sl_kernel_rfl) y

/-- What case B leaves in the running sum: its pieces read back. -/
def sout1_B_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for the accumulator cover it (whole stores). -/
theorem scover1_B_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x16.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S16x256x16.size (by sl_kernel_rfl) y

/-- What case B leaves in the accumulator: its pieces read back. -/
def sout1_B_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for the output tile its block (one whole store), so they cover it. -/
theorem cover1_C_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x16.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S16x256x16.size (by sl_kernel_rfl) y

/-- What case C leaves in the output's staging buffer: its pieces read back. -/
def out1_C_3 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .bf16 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for the running maximum cover it (whole stores). -/
theorem scover1_C_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S16x256x1.size (by sl_kernel_rfl) y

/-- What case C leaves in the running maximum: its pieces read back. -/
def sout1_C_0 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for the running sum cover it (whole stores). -/
theorem scover1_C_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S16x256x1.size (by sl_kernel_rfl) y

/-- What case C leaves in the running sum: its pieces read back. -/
def sout1_C_1 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for the accumulator cover it (whole stores). -/
theorem scover1_C_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) (y : S16x256x16.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S16x256x16.size (by sl_kernel_rfl) y

/-- What case C leaves in the accumulator: its pieces read back. -/
def sout1_C_2 (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) : Vec F S16x256x16 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output block and the three scratch buffers hold after each point -/

/-- What the output's staging buffer and the three scratch buffers (running maximum, running sum, accumulator) hold after the
    body at position `n`: the case the closed forms select at `n`, run at the point's memrefs and input blocks, the scratch
    buffers at what this leaves at `n - 1`. Both conditions at once is no case. -/
def outsAt1 (c : Dev nD) : (n : ℕ) → n < cfg1.N → Vec F S16x256x16 .bf16 × Vec F S16x256x1 .f32 × Vec F S16x256x1 .f32 × Vec F S16x256x16 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (every scratch buffer at
    anything); afterwards the scoped rest with the three scratch buffers at what the point before left in them. -/
def PhiS1 (c : Dev nD) : (n : ℕ) → n ≤ cfg1.N → sProp 𝕄
  | 0, _ => Pipeline.ΦA spec1 c
  | n + 1, hn => PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2)

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) := rfl

/-- Before a point that is not the first: the scratch buffers at what the point before left. -/
theorem PhiS1_pos (c : Dev nD) (n : ℕ) (h : n ≤ cfg1.N) (hz : n ≠ 0) :
    PhiS1 V c n h = PhiWith c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-! ## The pipeline's proof data -/

/-- The proof data of region 1 on core `c`: the arrays as the region finds them (`V`); after the body at point `t` each
    input's buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the three scratch buffers at what the point before left (at anything at the first point) and the
    rest of the scoped buffers and the generator register, which pass through unread, and takes the scratch buffers back at
    this point's contents; where the output is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact RT
        isplitl [Ho]; · iexact Ho
        isplitl [H0]; · iexact H0
        isplitl [H1]; · iexact H1
        isplitl [H2]; · iexact H2
        iexists _; iexact H3
      · rw [PhiS1_castSucc V c t, PhiS1_pos V c _ _ hz]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact RT
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _)
          iexact RT
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        unfold PhiWith
        iintro ⟨⟨⟨R0, R1, R2, R3, R4, HS0, HS1, HS2, RT⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 HS0 HS1 HS2 RT Hg]
        · isplitr [Hg]
          swap; · iexact Hg
          isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _)
          iexact RT
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives back what the launch handed: the scratch buffers' named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  unfold PhiWith
  iintro ⟨⟨R0, R1, R2, R3, R4, HS0, HS1, HS2, RT⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [HS0]; · iexists _; iexact HS0
  isplitl [HS1]; · iexists _; iexact HS1
  isplitl [HS2]; · iexists _; iexact HS2
  iexact RT

/-- The same after the last point. -/
theorem hout1 (c : Dev nD) : (dat1 (F := F) V c).Φ (Fin.last cfg1.N) ⊢ Pipeline.ΦA spec1 c :=
  Phi_out1 V c _ (by rw [Fin.val_last]; have : cfg1.N = 128 := N_1; omega)

end Cert.Kernel.Fr

end
-- ==== Proof.FrB2.lean ====
import proofs.«119430_j62362925137949_2_alg».proof.Proof.Gen.Kernel.Launch
import proofs.«119430_j62362925137949_2_alg».proof.Proof.Gen.Kernel.Skeleton
import proofs.«119430_j62362925137949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: `cc2_linear_kernel`, at the buffer contents `V` found when the region is entered -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched at that point or
    at an earlier one (then its block index has not moved since), for any proof data over the arrays `V` whose body
    leaves the input in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each staging buffer whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-- The output window's staging buffer after the body, from the two input blocks: its one store, of the product of
    the two blocks, over the whole buffer. -/
def out2_2 (x0 : Vec F S512x1024 .bf16) (x1 : Vec F S1024x1024 .bf16) : Vec F S512x1024 .f32 :=
  View.canon [⟨r2_2, k2_pay1 (View.ld x0 r2_0) (View.ld x1 r2_1)⟩]

/-- The one store covers the buffer. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

set_option maxHeartbeats 1000000 in
/-- The kernel body on whole staging buffers, the inputs' at contents `x0`, `x1` and the output's at anything,
    runs to the continuation with the inputs as they were and the output at `out2_2 x0 x1`. The body also reads
    the output buffer before it overwrites it; the value read is not used. -/
theorem sound_kernel2 (c : Dev nD) (E : Set ℕ) (i : grid2.Coords)
    (arg0 : Memref sig .tc .vmem S512x1024 .bf16) (harg0 : arg0.IsWhole) (arg1 : Memref sig .tc .vmem S1024x1024 .bf16) (harg1 : arg1.IsWhole)
    (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2_linear_kernel i arg0 harg0 arg1 harg1 arg2 harg2) K := by
  simp only [cc2_linear_kernel_eq_skeleton]; unfold cc2_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them; after the body at
    point `t` each input's buffer at its block and the output's at `out2_2` of the two input blocks; the
    invariant is the rest of the core's memory and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr
end
-- ==== Proof.RunB.lean ====
/-
  The whole run of the program: host operations, then three kernel regions with host operations between and
  after them.  The buffers' contents at every boundary are written as a fold from the launch memory — a stretch of
  host operations applies them in order; a region leaves its arrays at what its blocks' write-backs produce and
  every other buffer untouched — and every weakly fair execution is shown to terminate, without a fault, in a memory
  that holds every unscoped buffer at the last of these contents.  No host operation and no region writes an
  argument array, so each argument is read back through the fold to its launch contents.
-/
import proofs.«119430_j62362925137949_2_alg».proof.Proof.FrB0
import proofs.«119430_j62362925137949_2_alg».proof.Proof.FrB1
import proofs.«119430_j62362925137949_2_alg».proof.Proof.FrB2
import proofs.«119430_j62362925137949_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch of host operations (region 0 is entered here). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- After region 0: its arrays at what its write-backs leave, every other buffer as the region found it. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second stretch (region 1 is entered here). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- After region 1: its arrays at what its write-backs leave, every other buffer as the region found it. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third stretch (region 2 is entered here). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- After region 2: its arrays at what its write-backs leave, every other buffer as the region found it. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same, read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-- After the last host operation: the contents the program ends with. -/
abbrev W7 : Dev nD → Valuation τ sig (Elt F) := fun c => StableHlo.after hostOps3 (W6 m c)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data of the three regions, and what rides along -/

/-- Each region's proof data at the contents it is entered with. -/
def pdatsF : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱F : Variants := Variants.none
abbrev LF : GSem nD τ sig → Finset Unit := fun _ => ∅
abbrev lvF : GSem nD τ sig → Unit → ℕ := fun _ _ => 0
/-- Beside the buffers: the generator register at some state, and the core owing nothing. -/
abbrev RF (c : Dev nD) : sProp 𝕄 := iprop((∃ r, prngReg c r) ∗ ∃ W, owes (c : Thread nD τ) (0 : CellTallies nD τ sig Unit) W)
/-- A stretch of host operations as a segment from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev TnF (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at the contents before it, left with them
    at the contents after it; its arrays are split out of the unscoped buffers and put back at what the write-backs
    leave; the generator register passes through the invariant; nothing is owed. -/
def reg0 : Pipeline.RegionSeg (pcfgs (F := F)) adm (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (E1 m c) (E2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them
    at the contents after it; its arrays are split out of the unscoped buffers and put back at what the write-backs
    leave; the generator register passes through the invariant; nothing is owed. -/
def reg1 : Pipeline.RegionSeg (pcfgs (F := F)) adm (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdatsF m) launch1.win launch1.arr_whole c
      ((pdatsF m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdatsF m 1 c).Φ (Fin.last _) = (dat1 (E3 m) c).Φ (Fin.last cfg1.N) from rfl]
    have hh := hout1 (E3 m) c
    unfold Pipeline.ΦA at hh
    iintro H
    ihave H2 := hh $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (E3 m c) (E4 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them
    at the contents after it; its arrays are split out of the unscoped buffers and put back at what the write-backs
    leave; the generator register passes through the invariant; nothing is owed. -/
def reg2 : Pipeline.RegionSeg (pcfgs (F := F)) adm (pdatsF m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LF lvF 2 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdatsF m) launch2.win launch2.arr_whole c
      ((pdatsF m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsF m) ((pdatsF m 2 c).share_full fun _ => rfl)
      (E5 m c) (E6 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The last host stretch ends at the final thread state beside the core owing nothing. -/
abbrev segsF : List (Pipeline.Seg (pcfgs (F := F)) adm (pdatsF m) () defs₀ 𝒱F LF lvF) :=
  [ .host (hsegF hostOps0 hostOps0_sub hostOps0_fresh (W0 m)),
    .region (reg0 m),
    .host (hsegF hostOps1 hostOps1_sub hostOps1_fresh (W2 m)),
    .region (reg1 m),
    .host (hsegF hostOps2 hostOps2_sub hostOps2_fresh (W4 m)),
    .region (reg2 m),
    .host (hsegF hostOps3 hostOps3_sub hostOps3_fresh (W6 m)) ]
theorem main_runF (c : Dev nD) : main (F := F) c = Pipeline.Seg.run (segsF m) := (main_chain c).trans (by chain_rfl)

set_option backward.isDefEq.respectTransparency.types false in
/-- Every weakly fair execution from memory `m` with zero counters terminates, nothing faulting, in a memory that
    holds every unscoped buffer at the final contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c)) (Tₙ := TnF m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ RF c) : sProp 𝕄)
        ⊢ iprop(TnF m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_ucF main_arg0 (by decide))).trans (W7_main_arg0 m c),
     (h c _ (mem_ucF main_arg1 (by decide))).trans (W7_main_arg1 m c),
     (h c _ (mem_ucF main_arg2 (by decide))).trans (W7_main_arg2 m c),
     (h c _ (mem_ucF main_arg3 (by decide))).trans (W7_main_arg3 m c),
     (h c _ (mem_ucF main_arg4 (by decide))).trans (W7_main_arg4 m c)⟩) (run_all m ρ)

end Cert.Kernel.Fr

end
-- ==== Proof.Spec.lean ====
/-
  Multi-head attention as a function of its arguments, over the reals.

  An input x of shape [2, 1024, 1024] is projected by three 1024 × 1024 weights (y = x · Wᵀ); each projection's
  feature axis of length 1024 is split as 64 × 16, the 64 joined with the batch axis into 128 independent
  attention problems of sequence length 1024 and feature width 16; the attention output is joined back and
  projected by a fourth weight.  Two arrangements of the attention step are written out: one scales the query
  entries by 1/4 before the feature contraction and divides by the normaliser after the value contraction
  (`attnK`), the other scales the scores after the contraction and normalises the weights before the value
  contraction (`attnR`).  They are the same function (SpecLaws).
-/
import Mathlib.Analysis.SpecialFunctions.Exp
import Mathlib.Algebra.BigOperators.Group.Finset.Basic
import Mathlib.Order.Fin.Basic

noncomputable section

namespace Cert.Spec

/-- y = x · Wᵀ: entry (b, c, d) is the sum over e of x (b, c, e) · W (d, e). -/
def proj (x : Fin 2 → Fin 1024 → Fin 1024 → ℝ) (W : Fin 1024 → Fin 1024 → ℝ) (b : Fin 2) (c : Fin 1024) (d : Fin 1024) : ℝ :=
  ∑ e : Fin 1024, x b c e * W d e

/-- The batch index of attention problem n (n = b · 64 + g). -/
def bOf (n : Fin 128) : Fin 2 := ⟨n.val / 64, by omega⟩
/-- The feature of problem n's h-th component (g · 16 + h, g = n mod 64). -/
def fOf (n : Fin 128) (h : Fin 16) : Fin 1024 := ⟨(n.val % 64) * 16 + h.val, by omega⟩

/-- Queries of problem n: position q, component h. -/
def Qn (x : Fin 2 → Fin 1024 → Fin 1024 → ℝ) (Wq : Fin 1024 → Fin 1024 → ℝ) (n : Fin 128) (q : Fin 1024) (h : Fin 16) : ℝ :=
  proj x Wq (bOf n) q (fOf n h)
/-- Keys (and values) of problem n, component-major: component h, position k. -/
def KVn (x : Fin 2 → Fin 1024 → Fin 1024 → ℝ) (W : Fin 1024 → Fin 1024 → ℝ) (n : Fin 128) (h : Fin 16) (k : Fin 1024) : ℝ :=
  proj x W (bOf n) k (fOf n h)

/-- The largest entry of a row of 1024 reals. -/
def rowMax (s : Fin 1024 → ℝ) : ℝ := Finset.univ.sup' Finset.univ_nonempty s

/-- Scores with the scale on the queries. -/
def scoreK (Q : Fin 128 → Fin 1024 → Fin 16 → ℝ) (K : Fin 128 → Fin 16 → Fin 1024 → ℝ) (n : Fin 128) (q k : Fin 1024) : ℝ :=
  ∑ h : Fin 16, (Q n q h * (1 / 4)) * K n h k
/-- Attention with the division last: (Σₖ e^{sₖ − M} vₖ) / (Σₖ e^{sₖ − M}), M the row's largest score. -/
def attnK (Q : Fin 128 → Fin 1024 → Fin 16 → ℝ) (K V : Fin 128 → Fin 16 → Fin 1024 → ℝ) (n : Fin 128) (q : Fin 1024) (h : Fin 16) : ℝ :=
  (∑ k : Fin 1024, Real.exp (scoreK Q K n q k - rowMax (scoreK Q K n q)) * V n h k)
    / (∑ k : Fin 1024, Real.exp (scoreK Q K n q k - rowMax (scoreK Q K n q)))

/-- Scores with the scale after the contraction. -/
def scoreR (Q : Fin 128 → Fin 1024 → Fin 16 → ℝ) (K : Fin 128 → Fin 16 → Fin 1024 → ℝ) (n : Fin 128) (q k : Fin 1024) : ℝ :=
  (∑ h : Fin 16, Q n q h * K n h k) * (1 / 4)
/-- Attention with the weights normalised first: Σₖ (e^{sₖ − M} / Σₖ' e^{sₖ' − M}) vₖ. -/
def attnR (Q : Fin 128 → Fin 1024 → Fin 16 → ℝ) (K V : Fin 128 → Fin 16 → Fin 1024 → ℝ) (n : Fin 128) (q : Fin 1024) (h : Fin 16) : ℝ :=
  ∑ k : Fin 1024, (Real.exp (scoreR Q K n q k - rowMax (scoreR Q K n q))
      / (∑ k' : Fin 1024, Real.exp (scoreR Q K n q k' - rowMax (scoreR Q K n q)))) * V n h k

/-- Problem (b, g)'s index, and the split of a feature e into (e / 16, e mod 16). -/
def nOf (b : Fin 2) (e : Fin 1024) : Fin 128 := ⟨b.val * 64 + e.val / 16, by omega⟩
def hOf (e : Fin 1024) : Fin 16 := ⟨e.val % 16, by omega⟩

/-- The whole function with the first arrangement of attention: entry (b, c, d). -/
def outK (x : Fin 2 → Fin 1024 → Fin 1024 → ℝ) (Wq Wk Wv Wo : Fin 1024 → Fin 1024 → ℝ) (b : Fin 2) (c d : Fin 1024) : ℝ :=
  ∑ e : Fin 1024, attnK (Qn x Wq) (KVn x Wk) (KVn x Wv) (nOf b e) c (hOf e) * Wo d e
/-- The whole function with the second arrangement. -/
def outR (x : Fin 2 → Fin 1024 → Fin 1024 → ℝ) (Wq Wk Wv Wo : Fin 1024 → Fin 1024 → ℝ) (b : Fin 2) (c d : Fin 1024) : ℝ :=
  ∑ e : Fin 1024, attnR (Qn x Wq) (KVn x Wk) (KVn x Wv) (nOf b e) c (hOf e) * Wo d e

end Cert.Spec

end
-- ==== Proof.LibERealFinite.lean ====
/-
  Extended reals that are reals.

  Three small facts used when a claim about extended reals holds only for finite inputs: the coercion from the
  reals commutes with finite sums; subtracting a real and adding it back changes no extended real, the two
  infinities included; and an extended real whose absolute value lies strictly below the word of +infinity (the test
  a finiteness precondition applies to every entry) is a real.
-/
import Idealize.ShloMosaic.PureOps.Ideal.Laws

noncomputable section

namespace Idealize.ShloMosaic.ERealFinite

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real and adding it back is the identity on every extended real, the infinities included. -/
theorem sub_add_cancel_coe (a : EReal) (c : ℝ) : a - (c : EReal) + (c : EReal) = a := by
  induction a using EReal.rec with
  | bot => simp
  | coe a => rw [← EReal.coe_sub, ← EReal.coe_add]; congr 1; ring
  | top => simp

/-- An extended real whose absolute value compares strictly below the single-precision word of +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Idealize.ShloMosaic.ERealFinite

end
-- ==== Proof.RefV1.lean ====
/-
  The reference's three projections, read at an index.

  Each of the first three contractions x · Wᵀ is reshaped from [2, 1024, 1024] to [2, 1024, 64, 16] (feature f goes to
  (f / 16, f mod 16)) and transposed to [2, 64, 1024, 16]; read at (b, g, q, h) the result is the projection's entry
  (b, q, g · 16 + h): the query, key or value of attention problem b · 64 + g at position q, component h.
-/
import proofs.«119430_j62362925137949_2_alg».proof.Proof.Gen.ReferenceIdeal.Read
import proofs.«119430_j62362925137949_2_alg».proof.Proof.Spec
import proofs.«119430_j62362925137949_2_alg».proof.Proof.LibERealFinite

noncomputable section

namespace Cert.ReferenceIdeal.RefValue

open Idealize.ShloMosaic Idealize.ShloMosaic.ValueIdx Cert.ReferenceIdeal Cert.ReferenceIdeal.Read Cert.Spec

/-- Attention problem (b, g)'s index b · 64 + g. -/
def nIdx (bb : Fin 2) (g : Fin 64) : Fin 128 := ⟨bb.val * 64 + g.val, by omega⟩

theorem bOf_nIdx (bb : Fin 2) (g : Fin 64) : bOf (nIdx bb g) = bb :=
  Fin.ext (by show (bb.val * 64 + g.val) / 64 = bb.val; omega)

theorem fOf_nIdx (bb : Fin 2) (g : Fin 64) (h : Fin 16) :
    fOf (nIdx bb g) h = (⟨g.val * 16 + h.val, by omega⟩ : Fin 1024) :=
  Fin.ext (by show (bb.val * 64 + g.val) % 64 * 16 + h.val = g.val * 16 + h.val; omega)

/-- The transpose then the reshape send (b, g, q, h) back to (b, q, g · 16 + h). -/
theorem idx_v1_v2 (bb : Fin 2) (g : Fin 64) (q : Fin 1024) (h : Fin 16) :
    idx_main_v1 (idx_main_v2 (ix4 bb g q h)) = ix3 bb q (⟨g.val * 16 + h.val, by omega⟩ : Fin 1024) :=
  funext fun a => Fin.ext (by
    match a with
    | ⟨0, _⟩ => show (((bb.val * 1024 + q.val) * 64 + g.val) * 16 + h.val) / 1048576 = bb.val; omega
    | ⟨1, _⟩ => show (((bb.val * 1024 + q.val) * 64 + g.val) * 16 + h.val) / 1024 % 1024 = q.val; omega
    | ⟨2, _⟩ => show (((bb.val * 1024 + q.val) * 64 + g.val) * 16 + h.val) % 1024 = g.val * 16 + h.val; omega)

theorem lidx_v0 (bb : Fin 2) (q f k : Fin 1024) : lidx_main_v0 (ix3 bb q f) k = ix3 bb q k :=
  funext fun a => Fin.ext (by match a with | ⟨0, _⟩ => rfl | ⟨1, _⟩ => rfl | ⟨2, _⟩ => rfl)

theorem ridx_v0 (bb : Fin 2) (q f k : Fin 1024) : ridx_main_v0 (ix3 bb q f) k = ix2 f k :=
  funext fun a => Fin.ext (by match a with | ⟨0, _⟩ => rfl | ⟨1, _⟩ => rfl)

/-- The first projection at (b, g, q, h) is the real projection's entry (b, q, g · 16 + h). -/
theorem v2_apply (a0 : FVec Ideal S2x1024x1024 .f32) (a1 : FVec Ideal S1024x1024 .f32)
    (xr : Fin 2 → Fin 1024 → Fin 1024 → ℝ) (W : Fin 1024 → Fin 1024 → ℝ)
    (h0 : ∀ b c e, a0 (ix3 b c e) = ((xr b c e : ℝ) : EReal)) (h1 : ∀ d e, a1 (ix2 d e) = ((W d e : ℝ) : EReal))
    (bb : Fin 2) (g : Fin 64) (q : Fin 1024) (h : Fin 16) :
    val_main_v2 (F := Ideal) a0 a1 (ix4 bb g q h)
      = ((proj xr W bb q (⟨g.val * 16 + h.val, by omega⟩ : Fin 1024) : ℝ) : EReal) := by
  rw [val_main_v2_apply, val_main_v1_apply, idx_v1_v2, val_main_v0_apply]
  unfold proj
  rw [Idealize.ShloMosaic.ERealFinite.coe_sum]
  refine Finset.sum_congr rfl fun k _ => ?_
  rw [lidx_v0, ridx_v0, h0, h1, EReal.coe_mul]

/-- The transpose then the reshape send (b, g, q, h) back to (b, q, g · 16 + h). -/
theorem idx_v4_v5 (bb : Fin 2) (g : Fin 64) (q : Fin 1024) (h : Fin 16) :
    idx_main_v4 (idx_main_v5 (ix4 bb g q h)) = ix3 bb q (⟨g.val * 16 + h.val, by omega⟩ : Fin 1024) :=
  funext fun a => Fin.ext (by
    match a with
    | ⟨0, _⟩ => show (((bb.val * 1024 + q.val) * 64 + g.val) * 16 + h.val) / 1048576 = bb.val; omega
    | ⟨1, _⟩ => show (((bb.val * 1024 + q.val) * 64 + g.val) * 16 + h.val) / 1024 % 1024 = q.val; omega
    | ⟨2, _⟩ => show (((bb.val * 1024 + q.val) * 64 + g.val) * 16 + h.val) % 1024 = g.val * 16 + h.val; omega)

theorem lidx_v3 (bb : Fin 2) (q f k : Fin 1024) : lidx_main_v3 (ix3 bb q f) k = ix3 bb q k :=
  funext fun a => Fin.ext (by match a with | ⟨0, _⟩ => rfl | ⟨1, _⟩ => rfl | ⟨2, _⟩ => rfl)

theorem ridx_v3 (bb : Fin 2) (q f k : Fin 1024) : ridx_main_v3 (ix3 bb q f) k = ix2 f k :=
  funext fun a => Fin.ext (by match a with | ⟨0, _⟩ => rfl | ⟨1, _⟩ => rfl)

/-- The second projection at (b, g, q, h) is the real projection's entry (b, q, g · 16 + h). -/
theorem v5_apply (a0 : FVec Ideal S2x1024x1024 .f32) (a1 : FVec Ideal S1024x1024 .f32)
    (xr : Fin 2 → Fin 1024 → Fin 1024 → ℝ) (W : Fin 1024 → Fin 1024 → ℝ)
    (h0 : ∀ b c e, a0 (ix3 b c e) = ((xr b c e : ℝ) : EReal)) (h1 : ∀ d e, a1 (ix2 d e) = ((W d e : ℝ) : EReal))
    (bb : Fin 2) (g : Fin 64) (q : Fin 1024) (h : Fin 16) :
    val_main_v5 (F := Ideal) a0 a1 (ix4 bb g q h)
      = ((proj xr W bb q (⟨g.val * 16 + h.val, by omega⟩ : Fin 1024) : ℝ) : EReal) := by
  rw [val_main_v5_apply, val_main_v4_apply, idx_v4_v5, val_main_v3_apply]
  unfold proj
  rw [Idealize.ShloMosaic.ERealFinite.coe_sum]
  refine Finset.sum_congr rfl fun k _ => ?_
  rw [lidx_v3, ridx_v3, h0, h1, EReal.coe_mul]

/-- The transpose then the reshape send (b, g, q, h) back to (b, q, g · 16 + h). -/
theorem idx_v7_v8 (bb : Fin 2) (g : Fin 64) (q : Fin 1024) (h : Fin 16) :
    idx_main_v7 (idx_main_v8 (ix4 bb g q h)) = ix3 bb q (⟨g.val * 16 + h.val, by omega⟩ : Fin 1024) :=
  funext fun a => Fin.ext (by
    match a with
    | ⟨0, _⟩ => show (((bb.val * 1024 + q.val) * 64 + g.val) * 16 + h.val) / 1048576 = bb.val; omega
    | ⟨1, _⟩ => show (((bb.val * 1024 + q.val) * 64 + g.val) * 16 + h.val) / 1024 % 1024 = q.val; omega
    | ⟨2, _⟩ => show (((bb.val * 1024 + q.val) * 64 + g.val) * 16 + h.val) % 1024 = g.val * 16 + h.val; omega)

theorem lidx_v6 (bb : Fin 2) (q f k : Fin 1024) : lidx_main_v6 (ix3 bb q f) k = ix3 bb q k :=
  funext fun a => Fin.ext (by match a with | ⟨0, _⟩ => rfl | ⟨1, _⟩ => rfl | ⟨2, _⟩ => rfl)

theorem ridx_v6 (bb : Fin 2) (q f k : Fin 1024) : ridx_main_v6 (ix3 bb q f) k = ix2 f k :=
  funext fun a => Fin.ext (by match a with | ⟨0, _⟩ => rfl | ⟨1, _⟩ => rfl)

/-- The third projection at (b, g, q, h) is the real projection's entry (b, q, g · 16 + h). -/
theorem v8_apply (a0 : FVec Ideal S2x1024x1024 .f32) (a1 : FVec Ideal S1024x1024 .f32)
    (xr : Fin 2 → Fin 1024 → Fin 1024 → ℝ) (W : Fin 1024 → Fin 1024 → ℝ)
    (h0 : ∀ b c e, a0 (ix3 b c e) = ((xr b c e : ℝ) : EReal)) (h1 : ∀ d e, a1 (ix2 d e) = ((W d e : ℝ) : EReal))
    (bb : Fin 2) (g : Fin 64) (q : Fin 1024) (h : Fin 16) :
    val_main_v8 (F := Ideal) a0 a1 (ix4 bb g q h)
      = ((proj xr W bb q (⟨g.val * 16 + h.val, by omega⟩ : Fin 1024) : ℝ) : EReal) := by
  rw [val_main_v8_apply, val_main_v7_apply, idx_v7_v8, val_main_v6_apply]
  unfold proj
  rw [Idealize.ShloMosaic.ERealFinite.coe_sum]
  refine Finset.sum_congr rfl fun k _ => ?_
  rw [lidx_v6, ridx_v6, h0, h1, EReal.coe_mul]

section
variable (a0 : FVec Ideal S2x1024x1024 .f32) (aW : FVec Ideal S1024x1024 .f32)
  (xr : Fin 2 → Fin 1024 → Fin 1024 → ℝ) (W : Fin 1024 → Fin 1024 → ℝ)
  (h0 : ∀ b c e, a0 (ix3 b c e) = ((xr b c e : ℝ) : EReal)) (hW : ∀ d e, aW (ix2 d e) = ((W d e : ℝ) : EReal))
include h0 hW

/-- The first projection at (b, g, q, h) is problem b · 64 + g's query at position q, component h. -/
theorem q_apply (bb : Fin 2) (g : Fin 64) (q : Fin 1024) (h : Fin 16) :
    val_main_v2 (F := Ideal) a0 aW (ix4 bb g q h) = ((Qn xr W (nIdx bb g) q h : ℝ) : EReal) := by
  rw [v2_apply a0 aW xr W h0 hW]; unfold Qn; rw [bOf_nIdx, fOf_nIdx]

/-- The second projection at (b, g, k, h) is problem b · 64 + g's key at position k, component h. -/
theorem k_apply (bb : Fin 2) (g : Fin 64) (k : Fin 1024) (h : Fin 16) :
    val_main_v5 (F := Ideal) a0 aW (ix4 bb g k h) = ((KVn xr W (nIdx bb g) h k : ℝ) : EReal) := by
  rw [v5_apply a0 aW xr W h0 hW]; unfold KVn; rw [bOf_nIdx, fOf_nIdx]

/-- The third projection at (b, g, k, h) is problem b · 64 + g's value at position k, component h. -/
theorem v_apply (bb : Fin 2) (g : Fin 64) (k : Fin 1024) (h : Fin 16) :
    val_main_v8 (F := Ideal) a0 aW (ix4 bb g k h) = ((KVn xr W (nIdx bb g) h k : ℝ) : EReal) := by
  rw [v8_apply a0 aW xr W h0 hW]; unfold KVn; rw [bOf_nIdx, fOf_nIdx]

end

end Cert.ReferenceIdeal.RefValue

end
-- ==== Proof.RefV2.lean ====
/-
  The reference's scores and softmax weights, read at an index.

  At (b, g, q, k) the batched contraction of queries with keys over the 16 components, times the scalar
  1 / sqrt 16 = 1/4, is attention problem b · 64 + g's score of query position q against key position k; the
  reduction by maximum from -infinity over k is the row's largest score; subtracting it, exponentiating, and
  dividing by the sum over k gives the normalised weight.
-/
import proofs.«119430_j62362925137949_2_alg».proof.Proof.RefV1

noncomputable section

namespace Cert.ReferenceIdeal.RefValue

open Idealize.ShloMosaic Idealize.ShloMosaic.ValueIdx Cert.ReferenceIdeal Cert.ReferenceIdeal.Read Cert.Spec

variable (a0 : FVec Ideal S2x1024x1024 .f32) (a1 a2 : FVec Ideal S1024x1024 .f32)
  (xr : Fin 2 → Fin 1024 → Fin 1024 → ℝ) (Wq Wk : Fin 1024 → Fin 1024 → ℝ)

/-! ## Constants -/

/-- The word of 16.0 is the real 16. -/
theorem ofBits_16 : Ideal.ofBits .f32 0x41800000#32 = ((16 : ℝ) : EReal) := by
  simp [Ideal.ofBits, Ideal.ieee, -EReal.coe_mul]; norm_num

/-- The word of 1.0 is the real 1. -/
theorem ofBits_1 : Ideal.ofBits .f32 0x3F800000#32 = ((1 : ℝ) : EReal) := by
  simp [Ideal.ofBits, Ideal.ieee, -EReal.coe_mul]; norm_num

/-- The word 0xFF800000 is -infinity. -/
theorem ofBits_neg_inf : Ideal.ofBits .f32 0xFF800000#32 = (⊥ : EReal) := by
  simp [Ideal.ofBits, Ideal.ieee]

theorem sqrt_16 : Real.sqrt 16 = 4 := by
  rw [show (16 : ℝ) = 4 ^ 2 by norm_num]; exact Real.sqrt_sq (by norm_num)

/-- The broadcast scale 1 / sqrt 16 is the real 1/4 at every index. -/
theorem scale_eq (i : S2x64x1024x1024.Idx) : val_main_v12 (F := Ideal) i = ((1 / 4 : ℝ) : EReal) := by
  rw [val_main_v12_apply, val_main_v10_apply, val_main_cst_0_apply, val_main_v9_apply, val_main_cst_apply]
  simp only [Ideal.hostDivf_def, Ideal.hostUnary_sqrt_def, Ideal.ofBits_def]
  rw [ofBits_16, ofBits_1, Ideal.sqrt_coe, if_neg (by norm_num), sqrt_16,
    Ideal.div_coe (by norm_num : (4 : ℝ) ≠ 0), ← EReal.coe_mul]
  norm_num

/-! ## Scores -/

theorem lidx_v11 (bb : Fin 2) (g : Fin 64) (q k : Fin 1024) (h : Fin 16) :
    lidx_main_v11 (ix4 bb g q k) h = ix4 bb g q h :=
  funext fun a => Fin.ext (by match a with | ⟨0, _⟩ => rfl | ⟨1, _⟩ => rfl | ⟨2, _⟩ => rfl | ⟨3, _⟩ => rfl)

theorem ridx_v11 (bb : Fin 2) (g : Fin 64) (q k : Fin 1024) (h : Fin 16) :
    ridx_main_v11 (ix4 bb g q k) h = ix4 bb g k h :=
  funext fun a => Fin.ext (by match a with | ⟨0, _⟩ => rfl | ⟨1, _⟩ => rfl | ⟨2, _⟩ => rfl | ⟨3, _⟩ => rfl)

section
variable (h0 : ∀ b c e, a0 (ix3 b c e) = ((xr b c e : ℝ) : EReal)) (h1 : ∀ d e, a1 (ix2 d e) = ((Wq d e : ℝ) : EReal))
  (h2 : ∀ d e, a2 (ix2 d e) = ((Wk d e : ℝ) : EReal))
include h0 h1 h2

/-- The scaled scores at (b, g, q, k) are problem b · 64 + g's score of position q against position k. -/
theorem score_apply (bb : Fin 2) (g : Fin 64) (q k : Fin 1024) :
    val_main_v13 (F := Ideal) a0 a1 a2 (ix4 bb g q k)
      = ((scoreR (Qn xr Wq) (KVn xr Wk) (nIdx bb g) q k : ℝ) : EReal) := by
  rw [val_main_v13_apply, val_main_v11_apply, scale_eq]
  unfold scoreR
  rw [Ideal.mulf_def, EReal.coe_mul, Idealize.ShloMosaic.ERealFinite.coe_sum]
  refine congrArg (· * (((1 / 4 : ℝ) : ℝ) : EReal)) ?_
  refine Finset.sum_congr rfl fun h _ => ?_
  rw [lidx_v11, ridx_v11, q_apply a0 a1 xr Wq h0 h1, k_apply a0 a2 xr Wk h0 h2, EReal.coe_mul]

/-! ## The row maximum -/

omit h0 h1 h2 in
/-- The fold of the maximum from -infinity over a row of reals is the row's largest entry. -/
theorem fold_max_coe (s : Fin 1024 → ℝ) :
    (Finset.univ : Finset (Fin 1024)).fold max (⊥ : EReal) (fun k => ((s k : ℝ) : EReal)) = ((rowMax s : ℝ) : EReal) := by
  unfold rowMax
  apply le_antisymm
  · rw [Finset.fold_max_le]
    exact ⟨bot_le, fun k _ => EReal.coe_le_coe (Finset.le_sup' s (Finset.mem_univ k))⟩
  · obtain ⟨i, _, hi⟩ := Finset.exists_mem_eq_sup' Finset.univ_nonempty s
    rw [hi, Finset.le_fold_max]
    exact Or.inr ⟨i, Finset.mem_univ i, le_rfl⟩

omit h0 h1 h2 in
theorem reduces3 : S2x64x1024x1024.Reduces [3] S2x64x1024 := by decide

omit h0 h1 h2 in
/-- The reduced index (b, g, q) with key position k put back is (b, g, q, k). -/
theorem lift_ix3 (bb : Fin 2) (g : Fin 64) (q : Fin 1024) (k : Fin (S2x64x1024x1024.size 3)) :
    reduces3.lift (ix3 bb g q) k = ix4 bb g q (⟨k.val, k.isLt⟩ : Fin 1024) := by
  funext c; apply Fin.ext
  fin_cases c <;> rfl

/-- The reduction by maximum from -infinity over the key positions is the row's largest score. -/
theorem rowmax_apply (bb : Fin 2) (g : Fin 64) (q : Fin 1024) :
    val_main_v14 (F := Ideal) a0 a1 a2 (ix3 bb g q)
      = ((rowMax (scoreR (Qn xr Wq) (KVn xr Wk) (nIdx bb g) q) : ℝ) : EReal) := by
  unfold val_main_v14
  generalize hy : val_main_v13 (F := Ideal) a0 a1 a2 = y
  refine (Host.reduce_eq_fold_single (α := Ideal .f32) FloatOps.maximumf y _ _ reduces3 _ (ix3 bb g q)).trans ?_
  have hf : (y ∘ reduces3.lift (ix3 bb g q))
      = fun k : Fin 1024 => ((scoreR (Qn xr Wq) (KVn xr Wk) (nIdx bb g) q k : ℝ) : EReal) :=
    funext fun k => by
      show y (reduces3.lift (ix3 bb g q) k) = _
      rw [lift_ix3, ← hy]
      exact score_apply a0 a1 a2 xr Wq Wk h0 h1 h2 bb g q k
  refine Eq.trans ?_ (fold_max_coe _)
  have hb : (val_main_cst_1 (F := Ideal)) (Shape.Idx.first Gen.h_S_) = (⊥ : EReal) := by
    rw [val_main_cst_1_apply, Ideal.ofBits_def, ofBits_neg_inf]
  rw [hb]
  exact congrArg (fun f => Finset.fold max (⊥ : EReal) f (Finset.univ : Finset (Fin 1024))) hf

end

/-! ## Softmax weights -/

theorem idx_v17_v18 (bb : Fin 2) (g : Fin 64) (q k : Fin 1024) :
    idx_main_v17 (idx_main_v18 (ix4 bb g q k)) = ix3 bb g q :=
  funext fun a => Fin.ext (by match a with | ⟨0, _⟩ => rfl | ⟨1, _⟩ => rfl | ⟨2, _⟩ => rfl)

theorem idx_v22_v23 (bb : Fin 2) (g : Fin 64) (q k : Fin 1024) :
    idx_main_v22 (idx_main_v23 (ix4 bb g q k)) = ix3 bb g q :=
  funext fun a => Fin.ext (by match a with | ⟨0, _⟩ => rfl | ⟨1, _⟩ => rfl | ⟨2, _⟩ => rfl)

theorem idx_v21 (bb : Fin 2) (g : Fin 64) (q k : Fin 1024) :
    idx_main_v21 (ix3 bb g q) k = ix4 bb g q k :=
  funext fun a => Fin.ext (by match a with | ⟨0, _⟩ => rfl | ⟨1, _⟩ => rfl | ⟨2, _⟩ => rfl | ⟨3, _⟩ => rfl)

section
variable (h0 : ∀ b c e, a0 (ix3 b c e) = ((xr b c e : ℝ) : EReal)) (h1 : ∀ d e, a1 (ix2 d e) = ((Wq d e : ℝ) : EReal))
  (h2 : ∀ d e, a2 (ix2 d e) = ((Wk d e : ℝ) : EReal))
include h0 h1 h2

/-- The exponential of a score minus its row's largest score. -/
theorem exp_apply (bb : Fin 2) (g : Fin 64) (q k : Fin 1024) :
    val_main_v20 (F := Ideal) a0 a1 a2 (ix4 bb g q k)
      = ((Real.exp (scoreR (Qn xr Wq) (KVn xr Wk) (nIdx bb g) q k
          - rowMax (scoreR (Qn xr Wq) (KVn xr Wk) (nIdx bb g) q)) : ℝ) : EReal) := by
  rw [val_main_v20_apply, val_main_v19_apply, val_main_v18_apply, val_main_v17_apply, idx_v17_v18, val_main_v16_apply,
    val_main_v15_apply, val_main_cst_2_apply, rowmax_apply a0 a1 a2 xr Wq Wk h0 h1 h2,
    score_apply a0 a1 a2 xr Wq Wk h0 h1 h2]
  simp only [Ideal.hostUnary_exp_def, Ideal.subf_def, Ideal.maximumf_def, Ideal.ofBits_def]
  rw [ofBits_neg_inf, max_eq_right bot_le, ← EReal.coe_sub, Ideal.exp_coe]

/-- The normaliser: the sum over the key positions of the exponentials. -/
theorem sum_apply (bb : Fin 2) (g : Fin 64) (q : Fin 1024) :
    val_main_v21 (F := Ideal) a0 a1 a2 (ix3 bb g q)
      = ((∑ k : Fin 1024, Real.exp (scoreR (Qn xr Wq) (KVn xr Wk) (nIdx bb g) q k
          - rowMax (scoreR (Qn xr Wq) (KVn xr Wk) (nIdx bb g) q)) : ℝ) : EReal) := by
  rw [val_main_v21_apply, val_main_cst_3_apply, Ideal.ofBits_def, Ideal.ofBits_zero_f32, zero_add,
    Idealize.ShloMosaic.ERealFinite.coe_sum]
  refine Finset.sum_congr rfl fun k _ => ?_
  rw [idx_v21, exp_apply a0 a1 a2 xr Wq Wk h0 h1 h2]

/-- The normalised weight of key position k for query position q. -/
theorem weight_apply (bb : Fin 2) (g : Fin 64) (q k : Fin 1024) :
    val_main_v24 (F := Ideal) a0 a1 a2 (ix4 bb g q k)
      = ((Real.exp (scoreR (Qn xr Wq) (KVn xr Wk) (nIdx bb g) q k
            - rowMax (scoreR (Qn xr Wq) (KVn xr Wk) (nIdx bb g) q))
          / (∑ k' : Fin 1024, Real.exp (scoreR (Qn xr Wq) (KVn xr Wk) (nIdx bb g) q k'
            - rowMax (scoreR (Qn xr Wq) (KVn xr Wk) (nIdx bb g) q))) : ℝ) : EReal) := by
  have hne : (∑ k' : Fin 1024, Real.exp (scoreR (Qn xr Wq) (KVn xr Wk) (nIdx bb g) q k'
      - rowMax (scoreR (Qn xr Wq) (KVn xr Wk) (nIdx bb g) q))) ≠ 0 :=
    (Finset.sum_pos (fun k' _ => Real.exp_pos _) Finset.univ_nonempty).ne'
  rw [val_main_v24_apply, val_main_v23_apply, val_main_v22_apply, idx_v22_v23,
    sum_apply a0 a1 a2 xr Wq Wk h0 h1 h2, exp_apply a0 a1 a2 xr Wq Wk h0 h1 h2,
    Ideal.hostDivf_def, Ideal.div_coe hne, ← EReal.coe_mul, mul_one_div]

end

end Cert.ReferenceIdeal.RefValue

end
-- ==== Proof.RefV.lean ====
/-
  The reference program's result, read index by index.

  The batched contraction of the normalised weights with the values gives, at (b, g, q, h), attention problem
  b · 64 + g's output at position q, component h (the arrangement that normalises the weights first); the transpose
  and reshape back to [2, 1024, 1024] put it at feature g · 16 + h; the last contraction with the fourth weight
  gives the whole function's entry (b, c, d).
-/
import proofs.«119430_j62362925137949_2_alg».proof.Proof.RefV2
import proofs.«119430_j62362925137949_2_alg».proof.Proof.Gen.Pre_finite_inputs
import proofs.«119430_j62362925137949_2_alg».proof.Defs

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.Spec

/-- The reference terminates without fault and leaves its five arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-! ## The attention output -/

theorem lidx_v25 (bb : Fin 2) (g : Fin 64) (q : Fin 1024) (h : Fin 16) (k : Fin 1024) :
    lidx_main_v25 (ix4 bb g q h) k = ix4 bb g q k :=
  funext fun a => Fin.ext (by match a with | ⟨0, _⟩ => rfl | ⟨1, _⟩ => rfl | ⟨2, _⟩ => rfl | ⟨3, _⟩ => rfl)

theorem ridx_v25 (bb : Fin 2) (g : Fin 64) (q : Fin 1024) (h : Fin 16) (k : Fin 1024) :
    ridx_main_v25 (ix4 bb g q h) k = ix4 bb g k h :=
  funext fun a => Fin.ext (by match a with | ⟨0, _⟩ => rfl | ⟨1, _⟩ => rfl | ⟨2, _⟩ => rfl | ⟨3, _⟩ => rfl)

/-- The reshape [2, 1024, 64, 16] → [2, 1024, 1024] then the transpose send (b, c, e) back to (b, e / 16, c, e mod 16). -/
theorem idx_v26_v27 (b : Fin 2) (c e : Fin 1024) :
    idx_main_v26 (idx_main_v27 (ix3 b c e))
      = ix4 b (⟨e.val / 16, by omega⟩ : Fin 64) c (⟨e.val % 16, by omega⟩ : Fin 16) :=
  funext fun a => Fin.ext (by
    match a with
    | ⟨0, _⟩ => show ((b.val * 1024 + c.val) * 1024 + e.val) / 1048576 = b.val; omega
    | ⟨1, _⟩ => show ((b.val * 1024 + c.val) * 1024 + e.val) / 16 % 64 = e.val / 16; omega
    | ⟨2, _⟩ => show ((b.val * 1024 + c.val) * 1024 + e.val) / 1024 % 1024 = c.val; omega
    | ⟨3, _⟩ => show ((b.val * 1024 + c.val) * 1024 + e.val) % 16 = e.val % 16; omega)

theorem lidx_v28 (b : Fin 2) (c d k : Fin 1024) : lidx_main_v28 (ix3 b c d) k = ix3 b c k :=
  funext fun a => Fin.ext (by match a with | ⟨0, _⟩ => rfl | ⟨1, _⟩ => rfl | ⟨2, _⟩ => rfl)

theorem ridx_v28 (b : Fin 2) (c d k : Fin 1024) : ridx_main_v28 (ix3 b c d) k = ix2 d k :=
  funext fun a => Fin.ext (by match a with | ⟨0, _⟩ => rfl | ⟨1, _⟩ => rfl)

theorem nOf_eq (b : Fin 2) (e : Fin 1024) : nOf b e = nIdx b (⟨e.val / 16, by omega⟩ : Fin 64) := rfl

theorem hOf_eq (e : Fin 1024) : hOf e = (⟨e.val % 16, by omega⟩ : Fin 16) := rfl

section
variable (a0 : FVec Ideal S2x1024x1024 .f32) (a1 a2 a3 a4 : FVec Ideal S1024x1024 .f32)
  (xr : Fin 2 → Fin 1024 → Fin 1024 → ℝ) (Wq Wk Wv Wo : Fin 1024 → Fin 1024 → ℝ)
  (h0 : ∀ b c e, a0 (ix3 b c e) = ((xr b c e : ℝ) : EReal)) (h1 : ∀ d e, a1 (ix2 d e) = ((Wq d e : ℝ) : EReal))
  (h2 : ∀ d e, a2 (ix2 d e) = ((Wk d e : ℝ) : EReal)) (h3 : ∀ d e, a3 (ix2 d e) = ((Wv d e : ℝ) : EReal))
  (h4 : ∀ d e, a4 (ix2 d e) = ((Wo d e : ℝ) : EReal))

include h0 h1 h2 h3 in
/-- The contraction of the weights with the values at (b, g, q, h) is problem b · 64 + g's attention output. -/
theorem attn_apply (bb : Fin 2) (g : Fin 64) (q : Fin 1024) (h : Fin 16) :
    val_main_v25 (F := Ideal) a0 a1 a2 a3 (ix4 bb g q h)
      = ((attnR (Qn xr Wq) (KVn xr Wk) (KVn xr Wv) (nIdx bb g) q h : ℝ) : EReal) := by
  rw [val_main_v25_apply]
  unfold attnR
  rw [Idealize.ShloMosaic.ERealFinite.coe_sum]
  refine Finset.sum_congr rfl fun k _ => ?_
  rw [lidx_v25, ridx_v25, weight_apply a0 a1 a2 xr Wq Wk h0 h1 h2, v_apply a0 a3 xr Wv h0 h3, EReal.coe_mul]

include h0 h1 h2 h3 h4 in
/-- The reference's result at (b, c, d), when every argument entry is a real. -/
theorem ref_eq (b : Fin 2) (c d : Fin 1024) :
    val_main_v28 (F := Ideal) a0 a1 a2 a3 a4 (ix3 b c d) = ((outR xr Wq Wk Wv Wo b c d : ℝ) : EReal) := by
  rw [val_main_v28_apply]
  unfold outR
  rw [Idealize.ShloMosaic.ERealFinite.coe_sum]
  refine Finset.sum_congr rfl fun e _ => ?_
  rw [lidx_v28, ridx_v28, val_main_v27_apply, val_main_v26_apply, idx_v26_v27,
    attn_apply a0 a1 a2 a3 xr Wq Wk Wv h0 h1 h2 h3, h4, nOf_eq, hOf_eq, EReal.coe_mul]

end

/-- The same, stated on the term the reference's run ends with. -/
theorem ref_run_eq (m : (ℓ : Loc nD τ sig) → Buf (Elt Ideal) ℓ) (dev : Dev nD)
    (xr : Fin 2 → Fin 1024 → Fin 1024 → ℝ) (Wq Wk Wv Wo : Fin 1024 → Fin 1024 → ℝ)
    (h0 : ∀ b c e, m ((dev.tc : Thread nD τ).loc main_arg0) (ix3 b c e) = ((xr b c e : ℝ) : EReal))
    (h1 : ∀ d e, m ((dev.tc : Thread nD τ).loc main_arg1) (ix2 d e) = ((Wq d e : ℝ) : EReal))
    (h2 : ∀ d e, m ((dev.tc : Thread nD τ).loc main_arg2) (ix2 d e) = ((Wk d e : ℝ) : EReal))
    (h3 : ∀ d e, m ((dev.tc : Thread nD τ).loc main_arg3) (ix2 d e) = ((Wv d e : ℝ) : EReal))
    (h4 : ∀ d e, m ((dev.tc : Thread nD τ).loc main_arg4) (ix2 d e) = ((Wo d e : ℝ) : EReal))
    (b : Fin 2) (c d : Fin 1024) :
    Cert.ReferenceIdeal.Value.res_main_v28 m dev (ix3 b c d) = ((outR xr Wq Wk Wv Wo b c d : ℝ) : EReal) := by
  rw [val_main_v28_eq]
  exact ref_eq _ _ _ _ _ xr Wq Wk Wv Wo h0 h1 h2 h3 h4 b c d

end Cert.ReferenceIdeal.RefValue

end
-- ==== Proof.Finite.lean ====
import proofs.«119430_j62362925137949_2_alg».proof.Pre_finite_inputs
import proofs.«119430_j62362925137949_2_alg».proof.Proof.Gen.Pre_finite_inputs
import Idealize.ShloMosaic.Lib.ReduceAll
import Idealize.ShloMosaic.Lib.ValueIdx
import proofs.«119430_j62362925137949_2_alg».proof.Proof.LibERealFinite
noncomputable section
namespace Cert.Finite
open Idealize.ShloMosaic Idealize.ShloMosaic.ValueIdx Cert.Pre_finite_inputs

/-- The rank-0 shape has one index. -/
instance : Subsingleton S_.Idx := ⟨fun a b => funext fun d => d.elim0⟩

/-- The test the precondition applies to an entry: its absolute value is strictly below +infinity. Where the test
    is 1 the entry is a real. -/
theorem real_of_test {T : Shape} (hb : S_.BroadcastsInDim T (![] : Fin 0 → Fin T.rank)) (a : FVec Ideal T .f32) (i : T.Idx)
    (h : cmpf .olt (Host.absf a) (broadcastInDim T ![] hb (constant (F := Ideal) S_ .f32 0x7F800000#32)) i = 1#1) :
    ∃ r : ℝ, a i = ((r : ℝ) : EReal) :=
  ERealFinite.real_of_abs_lt (a i) h

/-- "All entries pass the test", as the precondition prints it (a reduction by `and` from 1 over every axis), gives the
    test at each entry. -/
theorem all_real {T : Shape} {axes : List (Fin T.rank)} (hb : S_.BroadcastsInDim T (![] : Fin 0 → Fin T.rank))
    (hr : T.ReducesTo axes S_) (hu : 0 < S_.numel) (a : FVec Ideal T .f32)
    (h : Host.reduce IntOp.andi (cmpf .olt (Host.absf a) (broadcastInDim T ![] hb (constant (F := Ideal) S_ .f32 0x7F800000#32)))
        (constantI S_ 1 1#1) hr hu ix0 = 1#1) (i : T.Idx) :
    ∃ r : ℝ, a i = ((r : ℝ) : EReal) :=
  real_of_test hb a i (Host.reduce_andi_all _ _ hr hu ix0 h i)

/-- Under the precondition every entry of every argument is a real. -/
theorem real_args [hP : Cert.Pre_finite_inputs.Facts] (a0 : FVec Ideal Cert.Pre_finite_inputs.S2x1024x1024 .f32) (a1 a2 a3 a4 : FVec Ideal Cert.Pre_finite_inputs.S1024x1024 .f32)
    (h : Cert.Pre_finite_inputs.fn (F := Ideal) a0 a1 a2 a3 a4 = fun _ => 1#1) :
    (∃ xr : Fin 2 → Fin 1024 → Fin 1024 → ℝ, ∀ b c e, a0 (ValueIdx.ix3 b c e) = ((xr b c e : ℝ) : EReal))
    ∧ (∃ w : Fin 1024 → Fin 1024 → ℝ, ∀ d e, a1 (ValueIdx.ix2 d e) = ((w d e : ℝ) : EReal))
    ∧ (∃ w : Fin 1024 → Fin 1024 → ℝ, ∀ d e, a2 (ValueIdx.ix2 d e) = ((w d e : ℝ) : EReal))
    ∧ (∃ w : Fin 1024 → Fin 1024 → ℝ, ∀ d e, a3 (ValueIdx.ix2 d e) = ((w d e : ℝ) : EReal))
    ∧ (∃ w : Fin 1024 → Fin 1024 → ℝ, ∀ d e, a4 (ValueIdx.ix2 d e) = ((w d e : ℝ) : EReal)) := by
  have h0 := congrFun h ix0
  dsimp only [fn, fn_part1] at h0
  obtain ⟨h18, t4⟩ := IntOp.andi_eq_one.1 h0
  obtain ⟨h13, t3⟩ := IntOp.andi_eq_one.1 h18
  obtain ⟨h8, t2⟩ := IntOp.andi_eq_one.1 h13
  obtain ⟨t0, t1⟩ := IntOp.andi_eq_one.1 h8
  have r0 := all_real Facts.bcast_S_S2x1024x1024 Facts.reducesTo_S2x1024x1024_S_d0_1_2 Facts.h_S_ a0 t0
  have r1 := all_real Facts.bcast_S_S1024x1024 Facts.reducesTo_S1024x1024_S_d0_1 Facts.h_S_ a1 t1
  have r2 := all_real Facts.bcast_S_S1024x1024 Facts.reducesTo_S1024x1024_S_d0_1 Facts.h_S_ a2 t2
  have r3 := all_real Facts.bcast_S_S1024x1024 Facts.reducesTo_S1024x1024_S_d0_1 Facts.h_S_ a3 t3
  have r4 := all_real Facts.bcast_S_S1024x1024 Facts.reducesTo_S1024x1024_S_d0_1 Facts.h_S_ a4 t4
  refine ⟨?_, ?_, ?_, ?_, ?_⟩
  · choose f hf using fun b c e => r0 (ix3 b c e)
    exact ⟨f, hf⟩
  · choose f hf using fun d e => r1 (ix2 d e)
    exact ⟨f, hf⟩
  · choose f hf using fun d e => r2 (ix2 d e)
    exact ⟨f, hf⟩
  · choose f hf using fun d e => r3 (ix2 d e)
    exact ⟨f, hf⟩
  · choose f hf using fun d e => r4 (ix2 d e)
    exact ⟨f, hf⟩

end Cert.Finite
end
-- ==== Proof.HostK.lean ====
/-
  The kernel program's host operations — changes of format, transposes, a concatenation, slices and reshapes —
  read at an index: each only moves entries, and at the ideal values a change of float format is the identity.
-/
import proofs.«119430_j62362925137949_2_alg».proof.Proof.Gen.KernelIdeal.Launch
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (W : Valuation τ sig (Elt Ideal))

/-- The result is the last region's output array with its 2048 rows split as 2 × 1024. -/
theorem v33_apply (b : Fin 2) (c d : Fin 1024) :
    (StableHlo.after (hostOps3 (F := Ideal)) W (Proc.devRef .tc main_v33) : S2x1024x1024.Idx → EReal) (ix3 b c d)
      = (W (Proc.devRef .tc main_v32) : S2048x1024.Idx → EReal) (ix2 (⟨b.val * 1024 + c.val, by omega⟩ : Fin 2048) d) := by
  have e : (StableHlo.after (hostOps3 (F := Ideal)) W (Proc.devRef .tc main_v33) : S2x1024x1024.Idx → EReal)
      = shapeCast S2x1024x1024 (W (Proc.devRef .tc main_v32) : S2048x1024.Idx → EReal) shapeCasts_S2048x1024_S2x1024x1024 := by
    dsimp only [hostOps3]; after_results; rfl
  rw [e]
  refine shapeCast_apply (s := S2048x1024) (t := S2x1024x1024) _ _ _ _ ?_
  show (S2048x1024.rowMajor (ix2 (⟨b.val * 1024 + c.val, by omega⟩ : Fin 2048) d)).val = (S2x1024x1024.rowMajor (ix3 b c d)).val
  rw [Shape.rowMajor_val_two, Shape.rowMajor_val_three]
  rfl

/-- The last region's first operand: row r, feature e is the attention output of problem (r / 1024) · 64 + e / 16 at
    position r mod 1024, component e mod 16. -/
theorem v31_apply (r : Fin 2048) (e : Fin 1024) :
    (StableHlo.after (hostOps2 (F := Ideal)) W (Proc.devRef .tc main_v31) : S2048x1024.Idx → EReal) (ix2 r e)
      = (W (Proc.devRef .tc main_v27) : S128x1024x16.Idx → EReal)
          (ix3 (⟨r.val / 1024 * 64 + e.val / 16, by omega⟩ : Fin 128) (⟨r.val % 1024, by omega⟩ : Fin 1024) (⟨e.val % 16, by omega⟩ : Fin 16)) := by
  have e' : (StableHlo.after (hostOps2 (F := Ideal)) W (Proc.devRef .tc main_v31) : S2048x1024.Idx → EReal)
      = shapeCast S2048x1024 (shapeCast S2x1024x1024 (transpose S2x1024x64x16 [0, 2, 1, 3]
          (shapeCast S2x64x1024x16 (W (Proc.devRef .tc main_v27) : S128x1024x16.Idx → EReal) shapeCasts_S128x1024x16_S2x64x1024x16)
          transposes_S2x64x1024x16_S2x1024x64x16_0_2_1_3) shapeCasts_S2x1024x64x16_S2x1024x1024) shapeCasts_S2x1024x1024_S2048x1024 := by
    dsimp only [hostOps2]; after_results; rfl
  rw [e']
  rw [shapeCast_apply (s := S2x1024x1024) (t := S2048x1024) _ _ (ix2 r e)
    (ix3 (⟨r.val / 1024, by omega⟩ : Fin 2) (⟨r.val % 1024, by omega⟩ : Fin 1024) e)
    (by rw [Shape.rowMajor_val_three, Shape.rowMajor_val_two]
        show (r.val / 1024 * 1024 + r.val % 1024) * 1024 + e.val = r.val * 1024 + e.val
        have := Nat.div_add_mod r.val 1024; omega)]
  rw [shapeCast_apply (s := S2x1024x64x16) (t := S2x1024x1024) _ _ _
    (ix4 (⟨r.val / 1024, by omega⟩ : Fin 2) (⟨r.val % 1024, by omega⟩ : Fin 1024) (⟨e.val / 16, by omega⟩ : Fin 64) (⟨e.val % 16, by omega⟩ : Fin 16))
    (by rw [Shape.rowMajor_val_four, Shape.rowMajor_val_three]
        show ((r.val / 1024 * 1024 + r.val % 1024) * 64 + e.val / 16) * 16 + e.val % 16 = (r.val / 1024 * 1024 + r.val % 1024) * 1024 + e.val
        have := Nat.div_add_mod e.val 16; omega)]
  rw [transpose_apply (s := S2x64x1024x16) (t := S2x1024x64x16) [0, 2, 1, 3] _ _ _
    (ix4 (⟨r.val / 1024, by omega⟩ : Fin 2) (⟨e.val / 16, by omega⟩ : Fin 64) (⟨r.val % 1024, by omega⟩ : Fin 1024) (⟨e.val % 16, by omega⟩ : Fin 16)) (fun b' => by match b' with | ⟨0, _⟩ => rfl | ⟨1, _⟩ => rfl | ⟨2, _⟩ => rfl | ⟨3, _⟩ => rfl)]
  exact shapeCast_apply (s := S128x1024x16) (t := S2x64x1024x16) _ _ _ _
    (by rw [Shape.rowMajor_val_three, Shape.rowMajor_val_four]; rfl)

/-- The attention region's queries: problem n, position q, component h is column (n mod 64) · 16 + h of row
    (n / 64) · 1024 + q of the fused projection. -/
theorem v20_apply (n : Fin 128) (q : Fin 1024) (h : Fin 16) :
    (StableHlo.after (hostOps1 (F := Ideal)) W (Proc.devRef .tc main_v20) : S128x1024x16.Idx → EReal) (ix3 n q h)
      = (W (Proc.devRef .tc main_v11) : S2048x3072.Idx → EReal)
          (ix2 (⟨n.val / 64 * 1024 + q.val, by omega⟩ : Fin 2048) (⟨0 + (n.val % 64 * 16 + h.val), by omega⟩ : Fin 3072)) := by
  have e : (StableHlo.after (hostOps1 (F := Ideal)) W (Proc.devRef .tc main_v20) : S128x1024x16.Idx → EReal)
      = shapeCast S128x1024x16 (transpose S2x64x1024x16 [0, 2, 1, 3] (shapeCast S2x1024x64x16 (shapeCast S2x1024x1024
          (extractStridedSlice S2048x1024 ![0, 0] (W (Proc.devRef .tc main_v11) : S2048x3072.Idx → EReal) slices_S2048x3072_S2048x1024_0_0)
          shapeCasts_S2048x1024_S2x1024x1024) shapeCasts_S2x1024x1024_S2x1024x64x16) transposes_S2x1024x64x16_S2x64x1024x16_0_2_1_3)
          shapeCasts_S2x64x1024x16_S128x1024x16 := by
    dsimp only [hostOps1]; after_results; rfl
  rw [e]
  rw [shapeCast_apply (s := S2x64x1024x16) (t := S128x1024x16) _ _ (ix3 n q h)
    (ix4 (⟨n.val / 64, by omega⟩ : Fin 2) (⟨n.val % 64, by omega⟩ : Fin 64) q h)
    (by rw [Shape.rowMajor_val_four, Shape.rowMajor_val_three]
        show ((n.val / 64 * 64 + n.val % 64) * 1024 + q.val) * 16 + h.val = (n.val * 1024 + q.val) * 16 + h.val
        have := Nat.div_add_mod n.val 64; omega)]
  rw [transpose_apply (s := S2x1024x64x16) (t := S2x64x1024x16) [0, 2, 1, 3] _ _ _
    (ix4 (⟨n.val / 64, by omega⟩ : Fin 2) q (⟨n.val % 64, by omega⟩ : Fin 64) h) (fun b' => by match b' with | ⟨0, _⟩ => rfl | ⟨1, _⟩ => rfl | ⟨2, _⟩ => rfl | ⟨3, _⟩ => rfl)]
  rw [shapeCast_apply (s := S2x1024x1024) (t := S2x1024x64x16) _ _ _
    (ix3 (⟨n.val / 64, by omega⟩ : Fin 2) q (⟨n.val % 64 * 16 + h.val, by omega⟩ : Fin 1024))
    (by rw [Shape.rowMajor_val_three, Shape.rowMajor_val_four]
        show (n.val / 64 * 1024 + q.val) * 1024 + (n.val % 64 * 16 + h.val) = ((n.val / 64 * 1024 + q.val) * 64 + n.val % 64) * 16 + h.val
        omega)]
  rw [shapeCast_apply (s := S2048x1024) (t := S2x1024x1024) _ _ _
    (ix2 (⟨n.val / 64 * 1024 + q.val, by omega⟩ : Fin 2048) (⟨n.val % 64 * 16 + h.val, by omega⟩ : Fin 1024))
    (by rw [Shape.rowMajor_val_two, Shape.rowMajor_val_three]; rfl)]
  exact extractStridedSlice_apply (s := S2048x3072) (t := S2048x1024) _ _ _ _ _
    (fun a => by match a with | ⟨0, _⟩ => exact (Nat.zero_add _).symm | ⟨1, _⟩ => rfl)

/-- The attention region's keys, component-major: problem n, component h, position k is column 1024 + (n mod 64) · 16 + h of row (n / 64) · 1024 + k of the fused projection. -/
theorem v23_apply (n : Fin 128) (h : Fin 16) (k : Fin 1024) :
    (StableHlo.after (hostOps1 (F := Ideal)) W (Proc.devRef .tc main_v23) : S128x16x1024.Idx → EReal) (ix3 n h k)
      = (W (Proc.devRef .tc main_v11) : S2048x3072.Idx → EReal)
          (ix2 (⟨n.val / 64 * 1024 + k.val, by omega⟩ : Fin 2048) (⟨1024 + (n.val % 64 * 16 + h.val), by omega⟩ : Fin 3072)) := by
  have e : (StableHlo.after (hostOps1 (F := Ideal)) W (Proc.devRef .tc main_v23) : S128x16x1024.Idx → EReal)
      = shapeCast S128x16x1024 (transpose S2x64x16x1024 [0, 2, 3, 1] (shapeCast S2x1024x64x16 (shapeCast S2x1024x1024
          (extractStridedSlice S2048x1024 ![0, 1024] (W (Proc.devRef .tc main_v11) : S2048x3072.Idx → EReal) slices_S2048x3072_S2048x1024_0_1024)
          shapeCasts_S2048x1024_S2x1024x1024) shapeCasts_S2x1024x1024_S2x1024x64x16) transposes_S2x1024x64x16_S2x64x16x1024_0_2_3_1)
          shapeCasts_S2x64x16x1024_S128x16x1024 := by
    dsimp only [hostOps1]; after_results; rfl
  rw [e]
  rw [shapeCast_apply (s := S2x64x16x1024) (t := S128x16x1024) _ _ (ix3 n h k)
    (ix4 (⟨n.val / 64, by omega⟩ : Fin 2) (⟨n.val % 64, by omega⟩ : Fin 64) h k)
    (by rw [Shape.rowMajor_val_four, Shape.rowMajor_val_three]
        show ((n.val / 64 * 64 + n.val % 64) * 16 + h.val) * 1024 + k.val = (n.val * 16 + h.val) * 1024 + k.val
        have := Nat.div_add_mod n.val 64; omega)]
  rw [transpose_apply (s := S2x1024x64x16) (t := S2x64x16x1024) [0, 2, 3, 1] _ _ _
    (ix4 (⟨n.val / 64, by omega⟩ : Fin 2) k (⟨n.val % 64, by omega⟩ : Fin 64) h) (fun b' => by match b' with | ⟨0, _⟩ => rfl | ⟨1, _⟩ => rfl | ⟨2, _⟩ => rfl | ⟨3, _⟩ => rfl)]
  rw [shapeCast_apply (s := S2x1024x1024) (t := S2x1024x64x16) _ _ _
    (ix3 (⟨n.val / 64, by omega⟩ : Fin 2) k (⟨n.val % 64 * 16 + h.val, by omega⟩ : Fin 1024))
    (by rw [Shape.rowMajor_val_three, Shape.rowMajor_val_four]
        show (n.val / 64 * 1024 + k.val) * 1024 + (n.val % 64 * 16 + h.val) = ((n.val / 64 * 1024 + k.val) * 64 + n.val % 64) * 16 + h.val
        omega)]
  rw [shapeCast_apply (s := S2048x1024) (t := S2x1024x1024) _ _ _
    (ix2 (⟨n.val / 64 * 1024 + k.val, by omega⟩ : Fin 2048) (⟨n.val % 64 * 16 + h.val, by omega⟩ : Fin 1024))
    (by rw [Shape.rowMajor_val_two, Shape.rowMajor_val_three]; rfl)]
  exact extractStridedSlice_apply (s := S2048x3072) (t := S2048x1024) _ _ _ _ _
    (fun a => by match a with | ⟨0, _⟩ => exact (Nat.zero_add _).symm | ⟨1, _⟩ => rfl)

/-- The attention region's values, component-major: the same with the third band of columns, from 2048. -/
theorem v26_apply (n : Fin 128) (h : Fin 16) (k : Fin 1024) :
    (StableHlo.after (hostOps1 (F := Ideal)) W (Proc.devRef .tc main_v26) : S128x16x1024.Idx → EReal) (ix3 n h k)
      = (W (Proc.devRef .tc main_v11) : S2048x3072.Idx → EReal)
          (ix2 (⟨n.val / 64 * 1024 + k.val, by omega⟩ : Fin 2048) (⟨2048 + (n.val % 64 * 16 + h.val), by omega⟩ : Fin 3072)) := by
  have e : (StableHlo.after (hostOps1 (F := Ideal)) W (Proc.devRef .tc main_v26) : S128x16x1024.Idx → EReal)
      = shapeCast S128x16x1024 (transpose S2x64x16x1024 [0, 2, 3, 1] (shapeCast S2x1024x64x16 (shapeCast S2x1024x1024
          (extractStridedSlice S2048x1024 ![0, 2048] (W (Proc.devRef .tc main_v11) : S2048x3072.Idx → EReal) slices_S2048x3072_S2048x1024_0_2048)
          shapeCasts_S2048x1024_S2x1024x1024) shapeCasts_S2x1024x1024_S2x1024x64x16) transposes_S2x1024x64x16_S2x64x16x1024_0_2_3_1)
          shapeCasts_S2x64x16x1024_S128x16x1024 := by
    dsimp only [hostOps1]; after_results; rfl
  rw [e]
  rw [shapeCast_apply (s := S2x64x16x1024) (t := S128x16x1024) _ _ (ix3 n h k)
    (ix4 (⟨n.val / 64, by omega⟩ : Fin 2) (⟨n.val % 64, by omega⟩ : Fin 64) h k)
    (by rw [Shape.rowMajor_val_four, Shape.rowMajor_val_three]
        show ((n.val / 64 * 64 + n.val % 64) * 16 + h.val) * 1024 + k.val = (n.val * 16 + h.val) * 1024 + k.val
        have := Nat.div_add_mod n.val 64; omega)]
  rw [transpose_apply (s := S2x1024x64x16) (t := S2x64x16x1024) [0, 2, 3, 1] _ _ _
    (ix4 (⟨n.val / 64, by omega⟩ : Fin 2) k (⟨n.val % 64, by omega⟩ : Fin 64) h) (fun b' => by match b' with | ⟨0, _⟩ => rfl | ⟨1, _⟩ => rfl | ⟨2, _⟩ => rfl | ⟨3, _⟩ => rfl)]
  rw [shapeCast_apply (s := S2x1024x1024) (t := S2x1024x64x16) _ _ _
    (ix3 (⟨n.val / 64, by omega⟩ : Fin 2) k (⟨n.val % 64 * 16 + h.val, by omega⟩ : Fin 1024))
    (by rw [Shape.rowMajor_val_three, Shape.rowMajor_val_four]
        show (n.val / 64 * 1024 + k.val) * 1024 + (n.val % 64 * 16 + h.val) = ((n.val / 64 * 1024 + k.val) * 64 + n.val % 64) * 16 + h.val
        omega)]
  rw [shapeCast_apply (s := S2048x1024) (t := S2x1024x1024) _ _ _
    (ix2 (⟨n.val / 64 * 1024 + k.val, by omega⟩ : Fin 2048) (⟨n.val % 64 * 16 + h.val, by omega⟩ : Fin 1024))
    (by rw [Shape.rowMajor_val_two, Shape.rowMajor_val_three]; rfl)]
  exact extractStridedSlice_apply (s := S2048x3072) (t := S2048x1024) _ _ _ _ _
    (fun a => by match a with | ⟨0, _⟩ => exact (Nat.zero_add _).symm | ⟨1, _⟩ => rfl)

/-- The first region's left operand: the input with its batch and position axes joined. -/
theorem v10_apply (r : Fin 2048) (e : Fin 1024) :
    (StableHlo.after (hostOps0 (F := Ideal)) W (Proc.devRef .tc main_v10) : S2048x1024.Idx → EReal) (ix2 r e)
      = (W (Proc.devRef .tc main_arg0) : S2x1024x1024.Idx → EReal) (ix3 (⟨r.val / 1024, by omega⟩ : Fin 2) (⟨r.val % 1024, by omega⟩ : Fin 1024) e) := by
  have e' : (StableHlo.after (hostOps0 (F := Ideal)) W (Proc.devRef .tc main_v10) : S2048x1024.Idx → EReal)
      = (shapeCast S2048x1024 (truncf (F := Ideal) .bf16 (W (Proc.devRef .tc main_arg0) : FVec Ideal S2x1024x1024 .f32) bitsLt_bf16_f32) shapeCasts_S2x1024x1024_S2048x1024 : S2048x1024.Idx → EReal) := by
    dsimp only [hostOps0]; after_results; rfl
  rw [e']
  exact shapeCast_apply (s := S2x1024x1024) (t := S2048x1024) _ _ (ix2 r e) _
    (by rw [Shape.rowMajor_val_three, Shape.rowMajor_val_two]
        show (r.val / 1024 * 1024 + r.val % 1024) * 1024 + e.val = r.val * 1024 + e.val
        have := Nat.div_add_mod r.val 1024; omega)

/-- The last region's right operand: the output weight transposed. -/
theorem v8_apply (e d : Fin 1024) :
    (StableHlo.after (hostOps0 (F := Ideal)) W (Proc.devRef .tc main_v8) : S1024x1024.Idx → EReal) (ix2 e d)
      = (W (Proc.devRef .tc main_arg4) : S1024x1024.Idx → EReal) (ix2 d e) := by
  have e' : (StableHlo.after (hostOps0 (F := Ideal)) W (Proc.devRef .tc main_v8) : S1024x1024.Idx → EReal)
      = (truncf (F := Ideal) .bf16 (transpose S1024x1024 [1, 0] (W (Proc.devRef .tc main_arg4) : FVec Ideal S1024x1024 .f32) transposes_S1024x1024_S1024x1024_1_0) bitsLt_bf16_f32 : S1024x1024.Idx → EReal) := by
    dsimp only [hostOps0]; after_results
  rw [e']
  exact transpose_apply (s := S1024x1024) (t := S1024x1024) [1, 0] _ _ (ix2 e d) (ix2 d e) (fun b' => by match b' with | ⟨0, _⟩ => rfl | ⟨1, _⟩ => rfl)

end Cert.KernelIdeal.Val

end
-- ==== Proof.HostK9.lean ====
/-
  The fused weight of the first region — the three transposed projection weights side by side along the columns —
  read at an index: column band 0 … 1023 is the first weight transposed, 1024 … 2047 the second, 2048 … 3071 the third;
  at the ideal values the change of float format in between is the identity.
-/
import proofs.«119430_j62362925137949_2_alg».proof.Proof.Gen.KernelIdeal.Launch
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (W : Valuation τ sig (Elt Ideal))

/-! ## A concatenation of three 1024×1024 arrays along the columns, read at an index -/

section Cat
variable {α : Type} (X0 X1 X2 : S1024x1024.Idx → α)
  (h : Shape.Concatenates (([⟨S1024x1024, X0⟩, ⟨S1024x1024, X1⟩, ⟨S1024x1024, X2⟩] : List ((s : Shape) × (s.Idx → α))).map (·.1)) S1024x3072 1)

/-- Columns 0 … 1023 are the first piece's. -/
theorem cat_first (e f : Fin 1024) :
    concatenate S1024x3072 1 [⟨S1024x1024, X0⟩, ⟨S1024x1024, X1⟩, ⟨S1024x1024, X2⟩] h (ix2 e (⟨0 + f.val, by omega⟩ : Fin 3072)) = X0 (ix2 e f) :=
  concatenate_apply_piece 1 _ h _ 0 (show 0 < 3 from by decide) S1024x1024 X0 rfl rfl 0 rfl (ix2 e f)
    (fun b hb => by match b with | ⟨0, _⟩ => rfl | ⟨1, _⟩ => exact absurd rfl hb) rfl

/-- Columns 1024 … 2047 are the second piece's. -/
theorem cat_second (e f : Fin 1024) :
    concatenate S1024x3072 1 [⟨S1024x1024, X0⟩, ⟨S1024x1024, X1⟩, ⟨S1024x1024, X2⟩] h (ix2 e (⟨1024 + f.val, by omega⟩ : Fin 3072)) = X1 (ix2 e f) :=
  concatenate_apply_piece 1 _ h _ 1 (show 1 < 3 from by decide) S1024x1024 X1 rfl rfl 1024 rfl (ix2 e f)
    (fun b hb => by match b with | ⟨0, _⟩ => rfl | ⟨1, _⟩ => exact absurd rfl hb) rfl

/-- Columns 2048 … 3071 are the third piece's. -/
theorem cat_third (e f : Fin 1024) :
    concatenate S1024x3072 1 [⟨S1024x1024, X0⟩, ⟨S1024x1024, X1⟩, ⟨S1024x1024, X2⟩] h (ix2 e (⟨2048 + f.val, by omega⟩ : Fin 3072)) = X2 (ix2 e f) :=
  concatenate_apply_piece 1 _ h _ 2 (show 2 < 3 from by decide) S1024x1024 X2 rfl rfl 2048 rfl (ix2 e f)
    (fun b hb => by match b with | ⟨0, _⟩ => rfl | ⟨1, _⟩ => exact absurd rfl hb) rfl
end Cat

/-! ## The fused weight at an index -/

/-- Row e, column f of the fused weight is entry (f, e) of the first projection weight. -/
theorem v9_q_apply (e f : Fin 1024) :
    (StableHlo.after (hostOps0 (F := Ideal)) W (Proc.devRef .tc main_v9) : S1024x3072.Idx → EReal) (ix2 e (⟨0 + f.val, by omega⟩ : Fin 3072))
      = (W (Proc.devRef .tc main_arg1) : S1024x1024.Idx → EReal) (ix2 f e) := by
  dsimp only [hostOps0]
  after_results
  refine (cat_first _ _ _ _ e f).trans ?_
  change (_ : Valuation τ sig (Elt Ideal)) (Proc.devRef .tc main_v2) (ix2 e f) = _
  repeat (first
    | rw [StableHlo.unary_result]
    | (rw [StableHlo.unary_result_ne]; rotate_left; decide))
  exact transpose_apply (s := S1024x1024) (t := S1024x1024) [1, 0] _ _ (ix2 e f) (ix2 f e) (fun b' => by match b' with | ⟨0, _⟩ => rfl | ⟨1, _⟩ => rfl)

/-- Row e, column 1024 + f of the fused weight is entry (f, e) of the second projection weight. -/
theorem v9_k_apply (e f : Fin 1024) :
    (StableHlo.after (hostOps0 (F := Ideal)) W (Proc.devRef .tc main_v9) : S1024x3072.Idx → EReal) (ix2 e (⟨1024 + f.val, by omega⟩ : Fin 3072))
      = (W (Proc.devRef .tc main_arg2) : S1024x1024.Idx → EReal) (ix2 f e) := by
  dsimp only [hostOps0]
  after_results
  refine (cat_second _ _ _ _ e f).trans ?_
  change (_ : Valuation τ sig (Elt Ideal)) (Proc.devRef .tc main_v4) (ix2 e f) = _
  repeat (first
    | rw [StableHlo.unary_result]
    | (rw [StableHlo.unary_result_ne]; rotate_left; decide))
  exact transpose_apply (s := S1024x1024) (t := S1024x1024) [1, 0] _ _ (ix2 e f) (ix2 f e) (fun b' => by match b' with | ⟨0, _⟩ => rfl | ⟨1, _⟩ => rfl)

/-- Row e, column 2048 + f of the fused weight is entry (f, e) of the third projection weight. -/
theorem v9_v_apply (e f : Fin 1024) :
    (StableHlo.after (hostOps0 (F := Ideal)) W (Proc.devRef .tc main_v9) : S1024x3072.Idx → EReal) (ix2 e (⟨2048 + f.val, by omega⟩ : Fin 3072))
      = (W (Proc.devRef .tc main_arg3) : S1024x1024.Idx → EReal) (ix2 f e) := by
  dsimp only [hostOps0]
  after_results
  refine (cat_third _ _ _ _ e f).trans ?_
  change (_ : Valuation τ sig (Elt Ideal)) (Proc.devRef .tc main_v6) (ix2 e f) = _
  repeat (first
    | rw [StableHlo.unary_result]
    | (rw [StableHlo.unary_result_ne]; rotate_left; decide))
  exact transpose_apply (s := S1024x1024) (t := S1024x1024) [1, 0] _ _ (ix2 e f) (ix2 f e) (fun b' => by match b' with | ⟨0, _⟩ => rfl | ⟨1, _⟩ => rfl)

end Cert.KernelIdeal.Val

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.Val0.lean ====
import proofs.«119430_j62362925137949_2_alg».proof.Proof.FrI0
import proofs.«119430_j62362925137949_2_alg».proof.Proof.LibDotRows
import Idealize.ShloMosaic.Lib.ValueIdx
import Idealize.ShloMosaic.Lib.Pipeline.Value
import Idealize.ShloMosaic.PureOps.Ideal.Laws
set_option maxRecDepth 16384
noncomputable section
namespace Cert.KernelIdeal.Val
open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

/-! # Region 0 at the exact values: the output array is the row-by-column product of the two input arrays -/

theorem zero_off0 : (![0, 0] : Fin 2 → Nat) = fun _ => 0 := funext fun a => by fin_cases a <;> rfl

/-- The product of a 2048×1024 array and a 1024×3072 array: entry (r, d) is the sum over the 1024 contraction indices
    e of left (r, e) · right (e, d). -/
def prod0 (a : S2048x1024.Idx → EReal) (b : S1024x3072.Idx → EReal) : S2048x3072.Idx → EReal :=
  fun i => ∑ e : Fin 1024, a (ix2 (i 0) e) * b (ix2 e (i 1))

theorem prod0_ix2 (a : S2048x1024.Idx → EReal) (b : S1024x3072.Idx → EReal) (r : Fin 2048) (d : Fin 3072) :
    prod0 a b (ix2 r d) = ∑ e : Fin 1024, a (ix2 r e) * b (ix2 e d) := rfl

/-- The body's stored value at an entry of the block: the matrix product into the zero accumulator, then a rounding that the exact values do not feel. -/
theorem pay0_ix2 (x0 : FVec Ideal S512x1024 .bf16) (x1 : FVec Ideal S1024x3072 .bf16) (p : Fin 512) (q : Fin 3072) :
    (k0_pay1 (F := Ideal) x0 x1 (ix2 p q) : EReal) = ∑ k : Fin 1024, (x0 (ix2 p k) : EReal) * (x1 (ix2 k q) : EReal) := by
  unfold k0_pay1
  show matmul dot_S512x1024_S1024x3072_S512x3072_1_0_0_1_n_n none (shapeCast S512x1024 x0 _) (shapeCast S1024x3072 x1 _) (constant S512x3072 .f32 0x00000000#32) (ix2 p q) = _
  rw [shapeCast_self, shapeCast_self]
  exact DotRows.matmul_zero_ix2 dot_S512x1024_S1024x3072_S512x3072_1_0_0_1_n_n rfl rfl rfl rfl rfl rfl none x0 x1 p q

/-- A block of the product from blocks of the factors: if row (j 0) of the left block is row (i 0) of the left array and
    column (j 1) of the right block is column (i 1) of the right array, the stored value at j is the product at i. -/
theorem blockprod0 (A : S2048x1024.Idx → EReal) (B : S1024x3072.Idx → EReal)
    (x0 : FVec Ideal S512x1024 .bf16) (x1 : FVec Ideal S1024x3072 .bf16) (j : S512x3072.Idx) (i : S2048x3072.Idx)
    (h0 : ∀ k : Fin 1024, x0 (ix2 (j 0) k) = A (ix2 (i 0) k))
    (h1 : ∀ k : Fin 1024, x1 (ix2 k (j 1)) = B (ix2 k (i 1))) :
    (k0_pay1 (F := Ideal) x0 x1 j : EReal) = prod0 A B i := by
  refine (congrArg (k0_pay1 (F := Ideal) x0 x1) (eq_ix2 j)).trans ?_
  refine (pay0_ix2 x0 x1 (j 0) (j 1)).trans ?_
  exact Finset.sum_congr rfl fun k _ => congrArg₂ (fun a b : EReal => a * b) (h0 k) (h1 k)

/-- The printed index maps, decided over the grid: the left input's and the output's blocks are row block t, all columns;
    the right input's block is the whole array. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every row block is some point's. -/
theorem idx_onto0 : ∀ q0 : Fin 4, ∃ t : Fin cfg0.N, win0_2.index t = ![q0.val, 0] :=
  (by decide +kernel : ∀ q0 : Fin 4, ∃ t : Fin grid0.N, win0_2.index t = ![q0.val, 0])

/-- What point t writes back is block t of the product of the two input arrays as the region finds them. -/
theorem flushed0_eq (c : Dev nD) (t : Fin cfg0.N) :
    (dat0 V c).flushed 2 t = ((cfg0.win 2).blk t).view.read (Elt Ideal) (prod0 (V c main_v10) (V c main_v9)) := by
  show (cfg0.win 2).cut (grid0.coords t) ((dat0 V c).after 2 t) = _
  rw [after0_2]
  unfold out0_2
  rw [View.canon_unit_zero zero_off0]
  simp only [View.ld_unit_zero (S := S512x1024) zero_off0, View.ld_unit_zero (S := S1024x3072) zero_off0]
  obtain ⟨e0, e1, e2, e3, e4, e5⟩ := idx_facts0 t
  funext j
  refine blockprod0 (V c main_v10) (V c main_v9) (iblk0 V c 0 t) (iblk0 V c 1 t) j (((cfg0.win 2).blk t).view.emb j) ?_ ?_
  · intro k
    show V c main_v10 (((cfg0.win 0).blk t).view.emb (ix2 (j 0) k)) = V c main_v10 (ix2 ((((cfg0.win 2).blk t).view.emb j) 0) k)
    refine congrArg (V c main_v10) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · intro k
    show V c main_v9 (((cfg0.win 1).blk t).view.emb (ix2 k (j 1))) = V c main_v9 (ix2 k ((((cfg0.win 2).blk t).view.emb j) 1))
    refine congrArg (V c main_v9) ?_
    funext a; apply Fin.ext
    match a with
    | ⟨0, _⟩ => show win0_1.index t (0 : Fin 2) * 1024 + 1 * k.val = k.val; omega
    | ⟨1, _⟩ => show win0_1.index t (1 : Fin 2) * 3072 + 1 * (j 1).val = win0_2.index t (1 : Fin 2) * 3072 + 1 * (j 1).val; omega

/-- An index of the output array is in point t's block iff each coordinate is in the block's range on its axis. -/
theorem mem_blk0 (t : Fin cfg0.N) (i : S2048x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v11).slice (win0_2.rect t)).set ↔ _
  rw [View.set_slice_whole, Rect.mem_set_unit]
  exact Iff.rfl

/-- The blocks cover the output array: row r is in row block r / 512. -/
theorem cover0 (i : S2048x3072.Idx) : ∃ t : Fin cfg0.N, (cfg0.win 2).flush t = true ∧ i ∈ ((cfg0.win 2).blk t).view.set := by
  have hi0 : (i 0).val < 2048 := (i 0).isLt
  have hi1 : (i 1).val < 3072 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The output array after the region is the product of the two input arrays as the region found them. -/
theorem arr0 (c : Dev nD) : (dat0 V c).arrAt 2 cfg0.N = prod0 (V c main_v10) (V c main_v9) :=
  (dat0 V c).arrAt_eq_of_cover 2 (prod0 (V c main_v10) (V c main_v9)) (fun t _ => flushed0_eq V c t) (cover0)

/-- Entry by entry: at row r and column d the output array holds the sum over the 1024 contraction indices e of
    A (r, e) · B (e, d), where A and B name the two input arrays as the region found them. -/
theorem final0 (c : Dev nD) (A : S2048x1024.Idx → EReal) (B : S1024x3072.Idx → EReal)
    (hA : A = V c main_v10) (hB : B = V c main_v9) (r : Fin 2048) (d : Fin 3072) :
    (dat0 V c).arrAt 2 cfg0.N (ValueIdx.ix2 r d) = ∑ e : Fin 1024, A (ValueIdx.ix2 r e) * B (ValueIdx.ix2 e d) := by
  subst hA; subst hB
  rw [arr0]; rfl

end Cert.KernelIdeal.Val
end
-- ==== Proof.Bridge1.lean ====
/-
  The kernel program from its arguments up to the attention region's three operands, and the output weight
  carried to the last region.

  The first region multiplies the input, its batch and position axes joined into 2048 rows, by the three transposed
  weights set side by side in 3072 columns: the three bands of columns of its output are the three projections.
  The host operations after it cut the bands out, split the 1024 features as 64 × 16 and join the 64 with the batch
  axis: the attention region's operands are the 128 problems' queries, keys and values.  The fourth weight,
  transposed by the first stretch of host operations, is written by nothing afterwards.
-/
import proofs.«119430_j62362925137949_2_alg».proof.Proof.RunI
import proofs.«119430_j62362925137949_2_alg».proof.Proof.HostK
import proofs.«119430_j62362925137949_2_alg».proof.Proof.HostK9
import proofs.«119430_j62362925137949_2_alg».proof.Proof.Val0
import proofs.«119430_j62362925137949_2_alg».proof.Proof.Spec
import proofs.«119430_j62362925137949_2_alg».proof.Proof.LibERealFinite

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

section
variable (m : (ℓ : Loc nD τ sig) → Buf (Elt Ideal) ℓ) (c : Dev nD)
  (xr : Fin 2 → Fin 1024 → Fin 1024 → ℝ) (Wq Wk Wv Wo : Fin 1024 → Fin 1024 → ℝ)
  (hx : ∀ b c' e, (m ((c : Thread nD τ).loc main_arg0) : S2x1024x1024.Idx → EReal) (ix3 b c' e) = ((xr b c' e : ℝ) : EReal))
  (hq : ∀ d e, (m ((c : Thread nD τ).loc main_arg1) : S1024x1024.Idx → EReal) (ix2 d e) = ((Wq d e : ℝ) : EReal))
  (hk : ∀ d e, (m ((c : Thread nD τ).loc main_arg2) : S1024x1024.Idx → EReal) (ix2 d e) = ((Wk d e : ℝ) : EReal))
  (hv : ∀ d e, (m ((c : Thread nD τ).loc main_arg3) : S1024x1024.Idx → EReal) (ix2 d e) = ((Wv d e : ℝ) : EReal))
  (ho : ∀ d e, (m ((c : Thread nD τ).loc main_arg4) : S1024x1024.Idx → EReal) (ix2 d e) = ((Wo d e : ℝ) : EReal))

/-! ## The first region's output: three bands of columns, three projections -/

include hx hq in
/-- Columns 0 to 1023 of the first region's output are the first projection: row r is batch r / 1024, position r mod 1024. -/
theorem w2_v11_q (r : Fin 2048) (f : Fin 1024) :
    (W2 m c (Proc.devRef .tc main_v11) : S2048x3072.Idx → EReal) (ix2 r (⟨0 + f.val, by omega⟩ : Fin 3072))
      = ((proj xr Wq (⟨r.val / 1024, by omega⟩ : Fin 2) (⟨r.val % 1024, by omega⟩ : Fin 1024) f : ℝ) : EReal) := by
  have e2 : W2 m c (Proc.devRef .tc main_v11) = (dat0 (E1 m) c).arrAt 2 cfg0.N := W2_arr m c 2
  refine (congrFun e2 _).trans ?_
  refine (final0 (E1 m) c _ _ rfl rfl r (⟨0 + f.val, by omega⟩ : Fin 3072)).trans ?_
  unfold proj
  rw [Idealize.ShloMosaic.ERealFinite.coe_sum]
  show @Eq EReal _ _
  refine Finset.sum_congr rfl fun e _ => ?_
  rw [EReal.coe_mul]
  exact congrArg₂ (fun a b : EReal => a * b) ((v10_apply (W0 m c) r e).trans (hx _ _ _))
    ((v9_q_apply (W0 m c) e f).trans (hq _ _))

include hx hk in
/-- Columns 1024 to 2047 are the second projection. -/
theorem w2_v11_k (r : Fin 2048) (f : Fin 1024) :
    (W2 m c (Proc.devRef .tc main_v11) : S2048x3072.Idx → EReal) (ix2 r (⟨1024 + f.val, by omega⟩ : Fin 3072))
      = ((proj xr Wk (⟨r.val / 1024, by omega⟩ : Fin 2) (⟨r.val % 1024, by omega⟩ : Fin 1024) f : ℝ) : EReal) := by
  have e2 : W2 m c (Proc.devRef .tc main_v11) = (dat0 (E1 m) c).arrAt 2 cfg0.N := W2_arr m c 2
  refine (congrFun e2 _).trans ?_
  refine (final0 (E1 m) c _ _ rfl rfl r (⟨1024 + f.val, by omega⟩ : Fin 3072)).trans ?_
  unfold proj
  rw [Idealize.ShloMosaic.ERealFinite.coe_sum]
  show @Eq EReal _ _
  refine Finset.sum_congr rfl fun e _ => ?_
  rw [EReal.coe_mul]
  exact congrArg₂ (fun a b : EReal => a * b) ((v10_apply (W0 m c) r e).trans (hx _ _ _))
    ((v9_k_apply (W0 m c) e f).trans (hk _ _))

include hx hv in
/-- Columns 2048 to 3071 are the third projection. -/
theorem w2_v11_v (r : Fin 2048) (f : Fin 1024) :
    (W2 m c (Proc.devRef .tc main_v11) : S2048x3072.Idx → EReal) (ix2 r (⟨2048 + f.val, by omega⟩ : Fin 3072))
      = ((proj xr Wv (⟨r.val / 1024, by omega⟩ : Fin 2) (⟨r.val % 1024, by omega⟩ : Fin 1024) f : ℝ) : EReal) := by
  have e2 : W2 m c (Proc.devRef .tc main_v11) = (dat0 (E1 m) c).arrAt 2 cfg0.N := W2_arr m c 2
  refine (congrFun e2 _).trans ?_
  refine (final0 (E1 m) c _ _ rfl rfl r (⟨2048 + f.val, by omega⟩ : Fin 3072)).trans ?_
  unfold proj
  rw [Idealize.ShloMosaic.ERealFinite.coe_sum]
  show @Eq EReal _ _
  refine Finset.sum_congr rfl fun e _ => ?_
  rw [EReal.coe_mul]
  exact congrArg₂ (fun a b : EReal => a * b) ((v10_apply (W0 m c) r e).trans (hx _ _ _))
    ((v9_v_apply (W0 m c) e f).trans (hv _ _))

/-! ## The attention region's operands -/

include hx hq in
/-- The attention region's first operand holds the 128 problems' queries. -/
theorem w3_v20 (n : Fin 128) (q : Fin 1024) (h : Fin 16) :
    (W3 m c (Proc.devRef .tc main_v20) : S128x1024x16.Idx → EReal) (ix3 n q h) = ((Qn xr Wq n q h : ℝ) : EReal) := by
  refine (v20_apply (W2 m c) n q h).trans ?_
  refine (w2_v11_q m c xr Wq hx hq (⟨n.val / 64 * 1024 + q.val, by omega⟩ : Fin 2048)
    (⟨n.val % 64 * 16 + h.val, by omega⟩ : Fin 1024)).trans ?_
  have eb : (⟨(n.val / 64 * 1024 + q.val) / 1024, by omega⟩ : Fin 2) = bOf n :=
    Fin.ext (by show (n.val / 64 * 1024 + q.val) / 1024 = n.val / 64; omega)
  have er : (⟨(n.val / 64 * 1024 + q.val) % 1024, by omega⟩ : Fin 1024) = q :=
    Fin.ext (by show (n.val / 64 * 1024 + q.val) % 1024 = q.val; omega)
  have ef : (⟨n.val % 64 * 16 + h.val, by omega⟩ : Fin 1024) = fOf n h := rfl
  rw [eb, er, ef]
  rfl

include hx hk in
/-- Its second operand holds the keys, component-major. -/
theorem w3_v23 (n : Fin 128) (h : Fin 16) (k : Fin 1024) :
    (W3 m c (Proc.devRef .tc main_v23) : S128x16x1024.Idx → EReal) (ix3 n h k) = ((KVn xr Wk n h k : ℝ) : EReal) := by
  refine (v23_apply (W2 m c) n h k).trans ?_
  refine (w2_v11_k m c xr Wk hx hk (⟨n.val / 64 * 1024 + k.val, by omega⟩ : Fin 2048)
    (⟨n.val % 64 * 16 + h.val, by omega⟩ : Fin 1024)).trans ?_
  have eb : (⟨(n.val / 64 * 1024 + k.val) / 1024, by omega⟩ : Fin 2) = bOf n :=
    Fin.ext (by show (n.val / 64 * 1024 + k.val) / 1024 = n.val / 64; omega)
  have er : (⟨(n.val / 64 * 1024 + k.val) % 1024, by omega⟩ : Fin 1024) = k :=
    Fin.ext (by show (n.val / 64 * 1024 + k.val) % 1024 = k.val; omega)
  have ef : (⟨n.val % 64 * 16 + h.val, by omega⟩ : Fin 1024) = fOf n h := rfl
  rw [eb, er, ef]
  rfl

include hx hv in
/-- Its third operand holds the values, component-major. -/
theorem w3_v26 (n : Fin 128) (h : Fin 16) (k : Fin 1024) :
    (W3 m c (Proc.devRef .tc main_v26) : S128x16x1024.Idx → EReal) (ix3 n h k) = ((KVn xr Wv n h k : ℝ) : EReal) := by
  refine (v26_apply (W2 m c) n h k).trans ?_
  refine (w2_v11_v m c xr Wv hx hv (⟨n.val / 64 * 1024 + k.val, by omega⟩ : Fin 2048)
    (⟨n.val % 64 * 16 + h.val, by omega⟩ : Fin 1024)).trans ?_
  have eb : (⟨(n.val / 64 * 1024 + k.val) / 1024, by omega⟩ : Fin 2) = bOf n :=
    Fin.ext (by show (n.val / 64 * 1024 + k.val) / 1024 = n.val / 64; omega)
  have er : (⟨(n.val / 64 * 1024 + k.val) % 1024, by omega⟩ : Fin 1024) = k :=
    Fin.ext (by show (n.val / 64 * 1024 + k.val) % 1024 = k.val; omega)
  have ef : (⟨n.val % 64 * 16 + h.val, by omega⟩ : Fin 1024) = fOf n h := rfl
  rw [eb, er, ef]
  rfl

/-! ## The output weight reaches the last region as the first host operations left it -/

include ho in
/-- The last region's right operand is the fourth weight transposed: nothing after the first stretch of host
    operations writes it. -/
theorem w5_v8 (e d : Fin 1024) :
    (W5 m c (Proc.devRef .tc main_v8) : S1024x1024.Idx → EReal) (ix2 e d) = ((Wo d e : ℝ) : EReal) := by
  have e5 : W5 m c (Proc.devRef .tc main_v8) = W1 m c (Proc.devRef .tc main_v8) :=
    calc W5 m c (Proc.devRef .tc main_v8)
      _ = W4 m c (Proc.devRef .tc main_v8) := StableHlo.after_of_writes_sub hostOps2 _ hostOps2_writes (by decide)
      _ = W3 m c (Proc.devRef .tc main_v8) := W4_of_ne m c main_v8 (by decide)
      _ = W2 m c (Proc.devRef .tc main_v8) := StableHlo.after_of_writes_sub hostOps1 _ hostOps1_writes (by decide)
      _ = W1 m c (Proc.devRef .tc main_v8) := W2_of_ne m c main_v8 (by decide)
  refine (congrFun e5 _).trans ?_
  exact (v8_apply (W0 m c) e d).trans (ho d e)

end

end Cert.KernelIdeal.Val

end
-- ==== Proof.Val2.lean ====
import proofs.«119430_j62362925137949_2_alg».proof.Proof.FrI2
import proofs.«119430_j62362925137949_2_alg».proof.Proof.LibDotRows
import Idealize.ShloMosaic.Lib.ValueIdx
import Idealize.ShloMosaic.Lib.Pipeline.Value
import Idealize.ShloMosaic.PureOps.Ideal.Laws
set_option maxRecDepth 16384
noncomputable section
namespace Cert.KernelIdeal.Val
open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

/-! # Region 2 at the exact values: the output array is the row-by-column product of the two input arrays -/

theorem zero_off2 : (![0, 0] : Fin 2 → Nat) = fun _ => 0 := funext fun a => by fin_cases a <;> rfl

/-- The product of a 2048×1024 array and a 1024×1024 array: entry (r, d) is the sum over the 1024 contraction indices
    e of left (r, e) · right (e, d). -/
def prod2 (a : S2048x1024.Idx → EReal) (b : S1024x1024.Idx → EReal) : S2048x1024.Idx → EReal :=
  fun i => ∑ e : Fin 1024, a (ix2 (i 0) e) * b (ix2 e (i 1))

theorem prod2_ix2 (a : S2048x1024.Idx → EReal) (b : S1024x1024.Idx → EReal) (r : Fin 2048) (d : Fin 1024) :
    prod2 a b (ix2 r d) = ∑ e : Fin 1024, a (ix2 r e) * b (ix2 e d) := rfl

/-- The body's stored value at an entry of the block: the matrix product into the zero accumulator. -/
theorem pay2_ix2 (x0 : FVec Ideal S512x1024 .bf16) (x1 : FVec Ideal S1024x1024 .bf16) (p : Fin 512) (q : Fin 1024) :
    (k2_pay1 (F := Ideal) x0 x1 (ix2 p q) : EReal) = ∑ k : Fin 1024, (x0 (ix2 p k) : EReal) * (x1 (ix2 k q) : EReal) := by
  unfold k2_pay1
  show matmul dot_S512x1024_S1024x1024_S512x1024_1_0_0_1_n_n none (shapeCast S512x1024 x0 _) (shapeCast S1024x1024 x1 _) (constant S512x1024 .f32 0x00000000#32) (ix2 p q) = _
  rw [shapeCast_self, shapeCast_self]
  exact DotRows.matmul_zero_ix2 dot_S512x1024_S1024x1024_S512x1024_1_0_0_1_n_n rfl rfl rfl rfl rfl rfl none x0 x1 p q

/-- A block of the product from blocks of the factors: if row (j 0) of the left block is row (i 0) of the left array and
    column (j 1) of the right block is column (i 1) of the right array, the stored value at j is the product at i. -/
theorem blockprod2 (A : S2048x1024.Idx → EReal) (B : S1024x1024.Idx → EReal)
    (x0 : FVec Ideal S512x1024 .bf16) (x1 : FVec Ideal S1024x1024 .bf16) (j : S512x1024.Idx) (i : S2048x1024.Idx)
    (h0 : ∀ k : Fin 1024, x0 (ix2 (j 0) k) = A (ix2 (i 0) k))
    (h1 : ∀ k : Fin 1024, x1 (ix2 k (j 1)) = B (ix2 k (i 1))) :
    (k2_pay1 (F := Ideal) x0 x1 j : EReal) = prod2 A B i := by
  refine (congrArg (k2_pay1 (F := Ideal) x0 x1) (eq_ix2 j)).trans ?_
  refine (pay2_ix2 x0 x1 (j 0) (j 1)).trans ?_
  exact Finset.sum_congr rfl fun k _ => congrArg₂ (fun a b : EReal => a * b) (h0 k) (h1 k)

/-- The printed index maps, decided over the grid: the left input's and the output's blocks are row block t, all columns;
    the right input's block is the whole array. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 3 :=
  (by decide +kernel : ∀ t : Fin grid2.N, _)

/-- Every row block is some point's. -/
theorem idx_onto2 : ∀ q0 : Fin 4, ∃ t : Fin cfg2.N, win2_2.index t = ![q0.val, 0] :=
  (by decide +kernel : ∀ q0 : Fin 4, ∃ t : Fin grid2.N, win2_2.index t = ![q0.val, 0])

/-- What point t writes back is block t of the product of the two input arrays as the region finds them. -/
theorem flushed2_eq (c : Dev nD) (t : Fin cfg2.N) :
    (dat2 V c).flushed 2 t = ((cfg2.win 2).blk t).view.read (Elt Ideal) (prod2 (V c main_v31) (V c main_v8)) := by
  show (cfg2.win 2).cut (grid2.coords t) ((dat2 V c).after 2 t) = _
  rw [after2_2]
  unfold out2_2
  rw [View.canon_unit_zero zero_off2]
  simp only [View.ld_unit_zero (S := S512x1024) zero_off2, View.ld_unit_zero (S := S1024x1024) zero_off2]
  obtain ⟨e0, e1, e2, e3, e4, e5⟩ := idx_facts2 t
  funext j
  refine blockprod2 (V c main_v31) (V c main_v8) (iblk2 V c 0 t) (iblk2 V c 1 t) j (((cfg2.win 2).blk t).view.emb j) ?_ ?_
  · intro k
    show V c main_v31 (((cfg2.win 0).blk t).view.emb (ix2 (j 0) k)) = V c main_v31 (ix2 ((((cfg2.win 2).blk t).view.emb j) 0) k)
    refine congrArg (V c main_v31) ?_
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 1024 + 1 * k.val = k.val; omega
  · intro k
    show V c main_v8 (((cfg2.win 1).blk t).view.emb (ix2 k (j 1))) = V c main_v8 (ix2 k ((((cfg2.win 2).blk t).view.emb j) 1))
    refine congrArg (V c main_v8) ?_
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_2.index t (1 : Fin 2) * 1024 + 1 * (j 1).val; omega

/-- An index of the output array is in point t's block iff each coordinate is in the block's range on its axis. -/
theorem mem_blk2 (t : Fin cfg2.N) (i : S2048x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v32).slice (win2_2.rect t)).set ↔ _
  rw [View.set_slice_whole, Rect.mem_set_unit]
  exact Iff.rfl

/-- The blocks cover the output array: row r is in row block r / 512. -/
theorem cover2 (i : S2048x1024.Idx) : ∃ t : Fin cfg2.N, (cfg2.win 2).flush t = true ∧ i ∈ ((cfg2.win 2).blk t).view.set := by
  have hi0 : (i 0).val < 2048 := (i 0).isLt
  have hi1 : (i 1).val < 1024 := (i 1).isLt
  obtain ⟨t, ht⟩ := idx_onto2 ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region is the product of the two input arrays as the region found them. -/
theorem arr2 (c : Dev nD) : (dat2 V c).arrAt 2 cfg2.N = prod2 (V c main_v31) (V c main_v8) :=
  (dat2 V c).arrAt_eq_of_cover 2 (prod2 (V c main_v31) (V c main_v8)) (fun t _ => flushed2_eq V c t) (cover2)

/-- Entry by entry: at row r and column d the output array holds the sum over the 1024 contraction indices e of
    A (r, e) · B (e, d), where A and B name the two input arrays as the region found them. -/
theorem final2 (c : Dev nD) (A : S2048x1024.Idx → EReal) (B : S1024x1024.Idx → EReal)
    (hA : A = V c main_v31) (hB : B = V c main_v8) (r : Fin 2048) (d : Fin 1024) :
    (dat2 V c).arrAt 2 cfg2.N (ValueIdx.ix2 r d) = ∑ e : Fin 1024, A (ValueIdx.ix2 r e) * B (ValueIdx.ix2 e d) := by
  subst hA; subst hB
  rw [arr2]; rfl

end Cert.KernelIdeal.Val
end
-- ==== Proof.Bridge2.lean ====
/-
  From the attention region's output to the program's result.  Given what the attention region's three operands and
  the last region's weight hold (as real arrays), and the closed form of the attention region's output, the
  result at (b, c, d) is the sum over the 1024 features e of the attention output of problem b · 64 + e / 16 at
  position c, component e mod 16, times the output weight at (d, e).
-/
import proofs.«119430_j62362925137949_2_alg».proof.Proof.RunI
import proofs.«119430_j62362925137949_2_alg».proof.Proof.HostK
import proofs.«119430_j62362925137949_2_alg».proof.Proof.Val2
import proofs.«119430_j62362925137949_2_alg».proof.Proof.Spec
import proofs.«119430_j62362925137949_2_alg».proof.Proof.LibERealFinite

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

section
variable (m : (ℓ : Loc nD τ sig) → Buf (Elt Ideal) ℓ) (c : Dev nD)
  (A : Fin 128 → Fin 1024 → Fin 16 → ℝ) (Wo : Fin 1024 → Fin 1024 → ℝ)
  (h27 : ∀ n q h, (W4 m c (Proc.devRef .tc main_v27) : S128x1024x16.Idx → EReal) (ix3 n q h) = ((A n q h : ℝ) : EReal))
  (h8 : ∀ e d, (W5 m c (Proc.devRef .tc main_v8) : S1024x1024.Idx → EReal) (ix2 e d) = ((Wo d e : ℝ) : EReal))

include h27 in
/-- The last region's left operand: row r, feature e. -/
theorem w5_v31 (r : Fin 2048) (e : Fin 1024) :
    (W5 m c (Proc.devRef .tc main_v31) : S2048x1024.Idx → EReal) (ix2 r e)
      = ((A (nOf (⟨r.val / 1024, by omega⟩ : Fin 2) e) (⟨r.val % 1024, by omega⟩ : Fin 1024) (hOf e) : ℝ) : EReal) :=
  (v31_apply (W4 m c) r e).trans (h27 _ _ _)

include h27 h8 in
/-- The last region's output: row r, column d. -/
theorem w6_v32 (r : Fin 2048) (d : Fin 1024) :
    (W6 m c (Proc.devRef .tc main_v32) : S2048x1024.Idx → EReal) (ix2 r d)
      = ((∑ e : Fin 1024, A (nOf (⟨r.val / 1024, by omega⟩ : Fin 2) e) (⟨r.val % 1024, by omega⟩ : Fin 1024) (hOf e) * Wo d e : ℝ) : EReal) := by
  have ha : (W6 m c (Proc.devRef .tc main_v32) : S2048x1024.Idx → EReal) = (dat2 (E5 m) c).arrAt 2 cfg2.N := W6_arr m c 2
  obtain ⟨A', hA'⟩ : ∃ A' : S2048x1024.Idx → EReal, A' = E5 m c main_v31 := ⟨_, rfl⟩
  obtain ⟨B', hB'⟩ : ∃ B' : S1024x1024.Idx → EReal, B' = E5 m c main_v8 := ⟨_, rfl⟩
  have e1 := final2 (E5 m) c A' B' hA' hB' r d
  have hA2 : ∀ e : Fin 1024, A' (ix2 r e)
      = ((A (nOf (⟨r.val / 1024, by omega⟩ : Fin 2) e) (⟨r.val % 1024, by omega⟩ : Fin 1024) (hOf e) : ℝ) : EReal) :=
    fun e => by rw [hA']; exact w5_v31 m c A h27 r e
  have hB2 : ∀ e : Fin 1024, B' (ix2 e d) = ((Wo d e : ℝ) : EReal) := fun e => by rw [hB']; exact h8 e d
  rw [ha]
  refine e1.trans ?_
  show (∑ e : Fin 1024, A' (ix2 r e) * B' (ix2 e d) : EReal) = _
  rw [ERealFinite.coe_sum]
  refine Finset.sum_congr rfl fun e _ => ?_
  rw [EReal.coe_mul, hA2, hB2]

include h27 h8 in
/-- The result at (b, p, d). -/
theorem w7_v33 (b : Fin 2) (p d : Fin 1024) :
    (W7 m c (Proc.devRef .tc main_v33) : S2x1024x1024.Idx → EReal) (ix3 b p d)
      = ((∑ e : Fin 1024, A (nOf b e) p (hOf e) * Wo d e : ℝ) : EReal) := by
  refine (v33_apply (W6 m c) b p d).trans ?_
  rw [w6_v32 m c A Wo h27 h8]
  have hb : (⟨(b.val * 1024 + p.val) / 1024, by omega⟩ : Fin 2) = b := Fin.ext (by show (b.val * 1024 + p.val) / 1024 = b.val; omega)
  have hp : (⟨(b.val * 1024 + p.val) % 1024, by omega⟩ : Fin 1024) = p := Fin.ext (by show (b.val * 1024 + p.val) % 1024 = p.val; omega)
  simp only [hb, hp]

end

end Cert.KernelIdeal.Val

end
-- ==== Proof.FrI1Pay.lean ====
import proofs.«119430_j62362925137949_2_alg».proof.Proof.FrI1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each case leaves, as the body's arithmetic

Each named term of the frame — the pieces a case's run found, read back — is the body's arithmetic on the point's input
blocks and, in cases B and C, on what the point before left in the scratch buffers. -/

/-- The zero offsets of a rank-3 whole-buffer access. -/
theorem hz3 : (![0, 0, 0] : Fin 3 → ℕ) = fun _ => 0 := by funext a; fin_cases a <;> rfl

/-- What case A leaves in the running maximum is the body's arithmetic on the point's input blocks and the initial values. -/
theorem sout1_A_0_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) :
    sout1_A_0 c i arg3 harg3 arg4 harg4 arg5 harg5 arg6 harg6 arg7 harg7 arg8 harg8 arg9 harg9 hc0 hc1 x0 x1 x2 = k1_pay2 (k1_pay8 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case A leaves in the running sum is the body's arithmetic on the point's input blocks and the initial values. -/
theorem sout1_A_1_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) :
    sout1_A_1 c i arg3 harg3 arg4 harg4 arg5 harg5 arg6 harg6 arg7 harg7 arg8 harg8 arg9 harg9 hc0 hc1 x0 x1 x2 = k1_pay11 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case A leaves in the accumulator is the body's arithmetic on the point's input blocks and the initial values. -/
theorem sout1_A_2_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : cond1_0 i) (hc1 : ¬cond1_1 i)
    (x0 : Vec F S16x256x16 .bf16) (x1 : Vec F S16x16x256 .bf16) (x2 : Vec F S16x16x256 .bf16) :
    sout1_A_2 c i arg3 harg3 arg4 harg4 arg5 harg5 arg6 harg6 arg7 harg7 arg8 harg8 arg9 harg9 hc0 hc1 x0 x1 x2 = k1_pay1 (k1_pay9 x0 x1 (k1_pay4 (F := F)) (k1_pay4 (F := F))) (k1_pay12 x0 x1 (k1_pay4 (F := F))) x2 (k1_pay6 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case B leaves in the running maximum is the body's arithmetic on the point's input blocks and what the point before left. -/
theorem sout1_B_0_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    sout1_B_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case B leaves in the running sum is the body's arithmetic on the point's input blocks and what the point before left. -/
theorem sout1_B_1_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    sout1_B_1 c i arg3 harg3 arg4 harg4 arg5 harg5 arg6 harg6 arg7 harg7 arg8 harg8 arg9 harg9 hc0 hc1 x0 x1 x2 xs0 xs1 xs2 = k1_pay11 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case B leaves in the accumulator is the body's arithmetic on the point's input blocks and what the point before left. -/
theorem sout1_B_2_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : ¬cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    sout1_B_2 c i arg3 harg3 arg4 harg4 arg5 harg5 arg6 harg6 arg7 harg7 arg8 harg8 arg9 harg9 hc0 hc1 x0 x1 x2 xs0 xs1 xs2 = k1_pay1 (k1_pay9 x0 x1 xs0 xs0) (k1_pay12 x0 x1 xs0) x2 xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case C leaves in the running maximum is the body's arithmetic on the point's input blocks and what the point before left. -/
theorem sout1_C_0_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    sout1_C_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case C leaves in the running sum is the body's arithmetic on the point's input blocks and what the point before left. -/
theorem sout1_C_1_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    sout1_C_1 c i arg3 harg3 arg4 harg4 arg5 harg5 arg6 harg6 arg7 harg7 arg8 harg8 arg9 harg9 hc0 hc1 x0 x1 x2 xs0 xs1 xs2 = k1_pay11 x0 x1 xs0 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case C leaves in the accumulator is the body's arithmetic on the point's input blocks and what the point before left. -/
theorem sout1_C_2_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    sout1_C_2 c i arg3 harg3 arg4 harg4 arg5 harg5 arg6 harg6 arg7 harg7 arg8 harg8 arg9 harg9 hc0 hc1 x0 x1 x2 xs0 xs1 xs2 = k1_pay1 (k1_pay9 x0 x1 xs0 xs0) (k1_pay12 x0 x1 xs0) x2 xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

/-- What case C leaves in the output is the body's arithmetic on the point's input blocks and what the point before left. -/
theorem out1_C_3_eq (c : Dev nD) (i : grid1.Coords) (arg3 : Memref sig .tc .vmem S16x256x16 .bf16) (harg3 : arg3.IsWhole) (arg4 : Memref sig .tc .vmem S16x16x256 .bf16) (harg4 : arg4.IsWhole) (arg5 : Memref sig .tc .vmem S16x16x256 .bf16) (harg5 : arg5.IsWhole) (arg6 : Memref sig .tc .vmem S16x256x16 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x16 .f32) (harg9 : arg9.IsWhole) (hc0 : ¬cond1_0 i) (hc1 : cond1_1 i)
    (x0 : Vec F S16x256x16 .bf16) (x1 : Vec F S16x16x256 .bf16) (x2 : Vec F S16x16x256 .bf16) (xs0 : Vec F S16x256x1 .f32) (xs1 : Vec F S16x256x1 .f32) (xs2 : Vec F S16x256x16 .f32) :
    out1_C_3 c i arg3 harg3 arg4 harg4 arg5 harg5 arg6 harg6 arg7 harg7 arg8 harg8 arg9 harg9 hc0 hc1 x0 x1 x2 xs0 xs1 xs2 = k1_pay3 (k1_pay1 (k1_pay9 x0 x1 xs0 xs0) (k1_pay12 x0 x1 xs0) x2 xs2) (k1_pay11 x0 x1 xs0 xs0 xs1) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero hz3]
  simp only [View.readAt_eq_ld, harg3.read_unread, harg4.read_unread, harg5.read_unread, harg7.read_unread, harg8.read_unread, harg9.read_unread,
    View.readCov_unit_zero (S := S16x256x1) arg7.view hz3, View.readCov_unit_zero (S := S16x256x1) arg8.view hz3, View.readCov_unit_zero (S := S16x256x16) arg9.view hz3, View.ld_unit_zero (S := S16x256x16) hz3, View.ld_unit_zero (S := S16x16x256) hz3, View.ld_unit_zero (S := S16x256x1) hz3]

end Cert.KernelIdeal.Fr

end
-- ==== Proof.FrI1Step.lean ====
import proofs.«119430_j62362925137949_2_alg».proof.Proof.FrI1Pay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the scratch triple point by point, as one step function

The three scratch buffers (running maximum, running sum, accumulator) after a point are one step of the online softmax
applied to what they held before it; the first key/value block starts from the initial triple; the last one also stores the
output, the accumulator divided by the running sum. -/

/-- The initial scratch triple: the maximum at minus infinity, the sum and the accumulator at zero. -/
def frInit1 : Vec F S16x256x1 .f32 × Vec F S16x256x1 .f32 × Vec F S16x256x16 .f32 := (k1_pay4, k1_pay5, k1_pay6)

/-- One step on the scratch triple `(m, l, acc)` with the point's query, key and value blocks. -/
def frStep1 (x0 : Vec F S16x256x16 .bf16) (x1 x2 : Vec F S16x16x256 .bf16) (s : Vec F S16x256x1 .f32 × Vec F S16x256x1 .f32 × Vec F S16x256x16 .f32) : Vec F S16x256x1 .f32 × Vec F S16x256x1 .f32 × Vec F S16x256x16 .f32 :=
  (k1_pay2 (k1_pay8 x0 x1 s.1), k1_pay11 x0 x1 s.1 s.1 s.2.1, k1_pay1 (k1_pay9 x0 x1 s.1 s.1) (k1_pay12 x0 x1 s.1) x2 s.2.2)

/-- The output block from the final scratch triple. -/
def frFin1 (s : Vec F S16x256x1 .f32 × Vec F S16x256x1 .f32 × Vec F S16x256x16 .f32) : Vec F S16x256x16 .bf16 := k1_pay3 s.2.2 s.2.1

variable (V : (c : Dev nD) → (b : Ref sig .tc) → Buf (Elt F) ((c : Thread nD τ).loc b))

/-- `outsAt1` depends on the position only. -/
theorem outsAt1_congr (c : Dev nD) {n n' : ℕ} (e : n = n') (h : n < cfg1.N) (h' : n' < cfg1.N) :
    outsAt1 V c n h = outsAt1 V c n' h' := by subst e; rfl

/-- After a point of case A the scratch triple is one step from the initial triple. -/
theorem outsAt1_A_step (c : Dev nD) (t : Fin cfg1.N) (h0 : t.val % 4 = 0) (h1 : ¬t.val % 4 = 3) :
    (outsAt1 V c t.val t.isLt).2 = frStep1 (iblk1 V c 0 t) (iblk1 V c 1 t) (iblk1 V c 2 t) frInit1 := by
  rw [outsAt1_A V c t h0 h1]; dsimp only
  rw [sout1_A_0_eq, sout1_A_1_eq, sout1_A_2_eq]; rfl

/-- After a point of case B it is one step from what the point before left. -/
theorem outsAt1_B_step (c : Dev nD) (t : Fin cfg1.N) (h0 : ¬t.val % 4 = 0) (h1 : ¬t.val % 4 = 3) :
    (outsAt1 V c t.val t.isLt).2 = frStep1 (iblk1 V c 0 t) (iblk1 V c 1 t) (iblk1 V c 2 t) (outsAt1 V c (t.val - 1) (Nat.lt_of_le_of_lt (Nat.sub_le _ _) t.isLt)).2 := by
  rw [outsAt1_B V c t h0 h1]; dsimp only
  rw [sout1_B_0_eq, sout1_B_1_eq, sout1_B_2_eq]; rfl

/-- The same after a point of case C, -/
theorem outsAt1_C_step (c : Dev nD) (t : Fin cfg1.N) (h0 : ¬t.val % 4 = 0) (h1 : t.val % 4 = 3) :
    (outsAt1 V c t.val t.isLt).2 = frStep1 (iblk1 V c 0 t) (iblk1 V c 1 t) (iblk1 V c 2 t) (outsAt1 V c (t.val - 1) (Nat.lt_of_le_of_lt (Nat.sub_le _ _) t.isLt)).2 := by
  rw [outsAt1_C V c t h0 h1]; dsimp only
  rw [sout1_C_0_eq, sout1_C_1_eq, sout1_C_2_eq]; rfl

/-- where the output block is read off the stepped triple. -/
theorem outsAt1_C_out (c : Dev nD) (t : Fin cfg1.N) (h0 : ¬t.val % 4 = 0) (h1 : t.val % 4 = 3) :
    (outsAt1 V c t.val t.isLt).1 = frFin1 (frStep1 (iblk1 V c 0 t) (iblk1 V c 1 t) (iblk1 V c 2 t) (outsAt1 V c (t.val - 1) (Nat.lt_of_le_of_lt (Nat.sub_le _ _) t.isLt)).2) := by
  rw [outsAt1_C V c t h0 h1]; dsimp only
  rw [out1_C_3_eq]; rfl

/-- A whole sweep of the key/value axis: at its last point `t3` the output block is the four steps from the initial
    triple, over the blocks of the sweep's four points. -/
theorem outsAt1_sweep (c : Dev nD) (t0 t1 t2 t3 : Fin cfg1.N) (h : t0.val % 4 = 0)
    (e1 : t1.val = t0.val + 1) (e2 : t2.val = t0.val + 2) (e3 : t3.val = t0.val + 3) :
    (outsAt1 V c t3.val t3.isLt).1
      = frFin1 (frStep1 (iblk1 V c 0 t3) (iblk1 V c 1 t3) (iblk1 V c 2 t3) (frStep1 (iblk1 V c 0 t2) (iblk1 V c 1 t2) (iblk1 V c 2 t2) (frStep1 (iblk1 V c 0 t1) (iblk1 V c 1 t1) (iblk1 V c 2 t1) (frStep1 (iblk1 V c 0 t0) (iblk1 V c 1 t0) (iblk1 V c 2 t0) frInit1)))) := by
  have s0 := outsAt1_A_step V c t0 h (by omega)
  have s1 := outsAt1_B_step V c t1 (by omega) (by omega)
  rw [outsAt1_congr V c (show t1.val - 1 = t0.val by omega) _ t0.isLt, s0] at s1
  have s2 := outsAt1_B_step V c t2 (by omega) (by omega)
  rw [outsAt1_congr V c (show t2.val - 1 = t1.val by omega) _ t1.isLt, s1] at s2
  rw [outsAt1_C_out V c t3 (by omega) (by omega), outsAt1_congr V c (show t3.val - 1 = t2.val by omega) _ t2.isLt, s2]

end Cert.KernelIdeal.Fr

end
-- ==== Proof.Val1Arr.lean ====
import proofs.«119430_j62362925137949_2_alg».proof.Proof.FrI1Step
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! # Region 1: from blocks to the array

The grid is 8 × 4 × 4 (batch-head block, query block, key/value block), the last coordinate fastest: point `t` has
batch-head block `t / 16`, query block `t / 4 % 4`, key/value block `t % 4`. -/

/-- Every point is below 128. -/
theorem tlt (t : Fin cfg1.N) : t.val < 128 := lt_of_lt_of_eq t.isLt (show cfg1.N = 128 from N_1)

/-- The point of batch-head block `nb`, query block `qb`, key/value block `kv`. -/
def pt (nb : Fin 8) (qb : Fin 4) (kv : Fin 4) : Fin cfg1.N :=
  ⟨(nb.val * 4 + qb.val) * 4 + kv.val, by rw [show cfg1.N = 128 from N_1]; omega⟩

theorem pt_val (nb : Fin 8) (qb : Fin 4) (kv : Fin 4) : (pt nb qb kv).val = (nb.val * 4 + qb.val) * 4 + kv.val := rfl

/-- The windows' block indices at a point, over the grid: the query and output windows move with the batch-head and
    query blocks, the key and value windows with the batch-head and key/value blocks. -/
theorem idx1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = 0 ∧ win1_1.index t (2 : Fin 3) = t.val % 4
    ∧ win1_2.index t (0 : Fin 3) = t.val / 16 ∧ win1_2.index t (1 : Fin 3) = 0 ∧ win1_2.index t (2 : Fin 3) = t.val % 4
    ∧ win1_3.index t (0 : Fin 3) = t.val / 16 ∧ win1_3.index t (1 : Fin 3) = t.val / 4 % 4 ∧ win1_3.index t (2 : Fin 3) = 0 :=
  (by decide +kernel : ∀ t : Fin grid1.N, _)

/-! ## The input blocks at an index -/

/-- The query block at point `t`, at an index: the array's entry at the block's offsets plus the index. -/
theorem iblk1_0_at (c : Dev nD) (t : Fin cfg1.N) (x : S16x256x16.Idx) (k : S128x1024x16.Idx)
    (hk0 : (k 0).val = 16 * (t.val / 16) + (x 0).val) (hk1 : (k 1).val = 256 * (t.val / 4 % 4) + (x 1).val) (hk2 : (k 2).val = (x 2).val) :
    (iblk1 V c 0 t : Vec F S16x256x16 .bf16) x = (V c main_v20 : S128x1024x16.Idx → Elt F .bf16) k := by
  obtain ⟨e0, e1, e2, -⟩ := idx1 t
  unfold iblk1
  rw [View.read_apply]
  show V c main_v20 _ = V c main_v20 _
  congr 1
  funext a
  apply Fin.ext
  match a with
  | ⟨0, _⟩ => show win1_0.index t (0 : Fin 3) * 16 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 16 + 1 * (x 2).val = (k 2).val; rw [e2, hk2]; omega

/-- The key block at point `t` (feature-major), at an index. -/
theorem iblk1_1_at (c : Dev nD) (t : Fin cfg1.N) (x : S16x16x256.Idx) (k : S128x16x1024.Idx)
    (hk0 : (k 0).val = 16 * (t.val / 16) + (x 0).val) (hk1 : (k 1).val = (x 1).val) (hk2 : (k 2).val = 256 * (t.val % 4) + (x 2).val) :
    (iblk1 V c 1 t : Vec F S16x16x256 .bf16) x = (V c main_v23 : S128x16x1024.Idx → Elt F .bf16) k := by
  obtain ⟨-, -, -, e0, e1, e2, -⟩ := idx1 t
  unfold iblk1
  rw [View.read_apply]
  show V c main_v23 _ = V c main_v23 _
  congr 1
  funext a
  apply Fin.ext
  match a with
  | ⟨0, _⟩ => show win1_1.index t (0 : Fin 3) * 16 + 1 * (x 0).val = (k 0).val; rw [e0, hk0]; omega
  | ⟨1, _⟩ => show win1_1.index t (1 : Fin 3) * 16 + 1 * (x 1).val = (k 1).val; rw [e1, hk1]; omega
  | ⟨2, _⟩ => show win1_1.index t (2 : Fin 3) * 256 + 1 * (x 2).val = (k 2).val; rw [e2, hk2]; omega

/-- The value block at point `t` (feature-major), at an index. -/
theorem iblk1_2_at (c : Dev nD) (t : Fin cfg1.N) (x : S16x16x256.Idx) (k : S128x16x1024.Idx)
    (hk0 : (k 0).val = 16 * (t.val / 16) + (x 0).val) (hk1 : (k 1).val = (x 1).val) (hk2 : (k 2).val = 256 * (t.val % 4) + (x 2).val) :
    (iblk1 V c 2 t : Vec F S16x16x256 .bf16) x = (V c main_v26 : S128x16x1024.Idx → Elt F .bf16) k := by
  obtain ⟨-, -, -, -, -, -, e0, e1, e2, -⟩ := idx1 t
  unfold iblk1
  rw [View.read_apply]
  show V c main_v26 _ = V c main_v26 _
  congr 1
  funext a
  apply Fin.ext
  match a with
  | ⟨0, _⟩ => show win1_2.index t (0 : Fin 3) * 16 + 1 * (x 0).val = (k 0).val; rw [e0, hk0]; omega
  | ⟨1, _⟩ => show win1_2.index t (1 : Fin 3) * 16 + 1 * (x 1).val = (k 1).val; rw [e1, hk1]; omega
  | ⟨2, _⟩ => show win1_2.index t (2 : Fin 3) * 256 + 1 * (x 2).val = (k 2).val; rw [e2, hk2]; omega

/-- The same over explicit coordinates, at any point. -/
theorem iblk1_0_apply (c : Dev nD) (t : Fin cfg1.N) (a : Fin 16) (r : Fin 256) (h : Fin 16) :
    (iblk1 V c 0 t : Vec F S16x256x16 .bf16) (ix3 a r h)
      = (V c main_v20 : S128x1024x16.Idx → Elt F .bf16) (ix3 (⟨16 * (t.val / 16) + a.val, by have := tlt t; omega⟩ : Fin 128) (⟨256 * (t.val / 4 % 4) + r.val, by omega⟩ : Fin 1024) h) :=
  iblk1_0_at V c t _ _ rfl rfl rfl

theorem iblk1_1_apply (c : Dev nD) (t : Fin cfg1.N) (a : Fin 16) (h : Fin 16) (j : Fin 256) :
    (iblk1 V c 1 t : Vec F S16x16x256 .bf16) (ix3 a h j)
      = (V c main_v23 : S128x16x1024.Idx → Elt F .bf16) (ix3 (⟨16 * (t.val / 16) + a.val, by have := tlt t; omega⟩ : Fin 128) h (⟨256 * (t.val % 4) + j.val, by omega⟩ : Fin 1024)) :=
  iblk1_1_at V c t _ _ rfl rfl rfl

theorem iblk1_2_apply (c : Dev nD) (t : Fin cfg1.N) (a : Fin 16) (h : Fin 16) (j : Fin 256) :
    (iblk1 V c 2 t : Vec F S16x16x256 .bf16) (ix3 a h j)
      = (V c main_v26 : S128x16x1024.Idx → Elt F .bf16) (ix3 (⟨16 * (t.val / 16) + a.val, by have := tlt t; omega⟩ : Fin 128) h (⟨256 * (t.val % 4) + j.val, by omega⟩ : Fin 1024)) :=
  iblk1_2_at V c t _ _ rfl rfl rfl

/-- At the point of blocks `nb`, `qb`, `kv`: rows `nb·16 + a`, `qb·256 + r` of the query array, -/
theorem iblk1_0_pt (c : Dev nD) (nb : Fin 8) (qb : Fin 4) (kv : Fin 4) (a : Fin 16) (r : Fin 256) (h : Fin 16) :
    (iblk1 V c 0 (pt nb qb kv) : Vec F S16x256x16 .bf16) (ix3 a r h)
      = (V c main_v20 : S128x1024x16.Idx → Elt F .bf16) (ix3 (⟨nb.val * 16 + a.val, by omega⟩ : Fin 128) (⟨qb.val * 256 + r.val, by omega⟩ : Fin 1024) h) :=
  iblk1_0_at V c (pt nb qb kv) _ _ (by show nb.val * 16 + a.val = 16 * (((nb.val * 4 + qb.val) * 4 + kv.val) / 16) + a.val; omega)
    (by show qb.val * 256 + r.val = 256 * (((nb.val * 4 + qb.val) * 4 + kv.val) / 4 % 4) + r.val; omega) rfl

/-- rows `nb·16 + a` and columns `kv·256 + j` of the key array, -/
theorem iblk1_1_pt (c : Dev nD) (nb : Fin 8) (qb : Fin 4) (kv : Fin 4) (a : Fin 16) (h : Fin 16) (j : Fin 256) :
    (iblk1 V c 1 (pt nb qb kv) : Vec F S16x16x256 .bf16) (ix3 a h j)
      = (V c main_v23 : S128x16x1024.Idx → Elt F .bf16) (ix3 (⟨nb.val * 16 + a.val, by omega⟩ : Fin 128) h (⟨kv.val * 256 + j.val, by omega⟩ : Fin 1024)) :=
  iblk1_1_at V c (pt nb qb kv) _ _ (by show nb.val * 16 + a.val = 16 * (((nb.val * 4 + qb.val) * 4 + kv.val) / 16) + a.val; omega) rfl
    (by show kv.val * 256 + j.val = 256 * (((nb.val * 4 + qb.val) * 4 + kv.val) % 4) + j.val; omega)

/-- and of the value array. -/
theorem iblk1_2_pt (c : Dev nD) (nb : Fin 8) (qb : Fin 4) (kv : Fin 4) (a : Fin 16) (h : Fin 16) (j : Fin 256) :
    (iblk1 V c 2 (pt nb qb kv) : Vec F S16x16x256 .bf16) (ix3 a h j)
      = (V c main_v26 : S128x16x1024.Idx → Elt F .bf16) (ix3 (⟨nb.val * 16 + a.val, by omega⟩ : Fin 128) h (⟨kv.val * 256 + j.val, by omega⟩ : Fin 1024)) :=
  iblk1_2_at V c (pt nb qb kv) _ _ (by show nb.val * 16 + a.val = 16 * (((nb.val * 4 + qb.val) * 4 + kv.val) / 16) + a.val; omega) rfl
    (by show kv.val * 256 + j.val = 256 * (((nb.val * 4 + qb.val) * 4 + kv.val) % 4) + j.val; omega)

/-! ## The output array -/

/-- An index of the output array is in point `t`'s block iff each coordinate is in the block's range on its axis. -/
theorem mem_blk1_3 (t : Fin cfg1.N) (i : S128x1024x16.Idx) :
    i ∈ ((cfg1.win 3).blk t).view.set ↔ ∀ a : Fin 3, win1_3.index t a * S16x256x16.size a ≤ (i a).val ∧ (i a).val < win1_3.index t a * S16x256x16.size a + S16x256x16.size a := by
  show i ∈ ((View.whole main_v27).slice (win1_3.rect t)).set ↔ _
  rw [View.set_slice_whole, Rect.mem_set_unit]
  exact Iff.rfl

/-- Every index of the output array is in the block of a point that writes back: the last key/value point of its
    batch-head and query blocks. -/
theorem cover1_3 (i : S128x1024x16.Idx) :
    ∃ t : Fin cfg1.N, (cfg1.win 3).flush t = true ∧ i ∈ ((cfg1.win 3).blk t).view.set := by
  have hi0 : (i 0).val < 128 := (i 0).isLt
  have hi1 : (i 1).val < 1024 := (i 1).isLt
  have hi2 : (i 2).val < 16 := (i 2).isLt
  have hv : (pt ⟨(i 0).val / 16, by omega⟩ ⟨(i 1).val / 256, by omega⟩ 3).val = ((i 0).val / 16 * 4 + (i 1).val / 256) * 4 + 3 := rfl
  obtain ⟨-, -, -, -, -, -, -, -, -, e0, e1, e2⟩ := idx1 (pt ⟨(i 0).val / 16, by omega⟩ ⟨(i 1).val / 256, by omega⟩ 3)
  refine ⟨pt ⟨(i 0).val / 16, by omega⟩ ⟨(i 1).val / 256, by omega⟩ 3, (flush1_3 _).mpr (by rw [hv]; omega), ?_⟩
  rw [mem_blk1_3]
  intro a
  match a with
  | ⟨0, _⟩ => show win1_3.index _ (0 : Fin 3) * 16 ≤ (i 0).val ∧ (i 0).val < win1_3.index _ (0 : Fin 3) * 16 + 16; rw [e0, hv]; omega
  | ⟨1, _⟩ => show win1_3.index _ (1 : Fin 3) * 256 ≤ (i 1).val ∧ (i 1).val < win1_3.index _ (1 : Fin 3) * 256 + 256; rw [e1, hv]; omega
  | ⟨2, _⟩ => show win1_3.index _ (2 : Fin 3) * 16 ≤ (i 2).val ∧ (i 2).val < win1_3.index _ (2 : Fin 3) * 16 + 16; rw [e2]; omega

/-- FROM BLOCKS TO THE ARRAY, for any whole-array contents `G`: if what every writing point (`t % 4 = 3`) leaves in the
    output's staging buffer is its block of `G`, the output array ends holding `G`. -/
theorem arrAt1_3_of (c : Dev nD) (G : S128x1024x16.Idx → Elt F .bf16)
    (hG : ∀ (t : Fin cfg1.N), t.val % 4 = 3 → ∀ (b : Fin 16) (r : Fin 256) (h : Fin 16),
      ((dat1 V c).after 3 t : Vec F S16x256x16 .bf16) (ix3 b r h)
        = G (ix3 (⟨16 * (t.val / 16) + b.val, by have := tlt t; omega⟩ : Fin 128) (⟨256 * (t.val / 4 % 4) + r.val, by omega⟩ : Fin 1024) h)) :
    (dat1 V c).arrAt 3 cfg1.N = G := by
  refine (dat1 V c).arrAt_eq_of_cover 3 G (fun t hf => ?_) cover1_3
  have h3 : t.val % 4 = 3 := (flush1_3 t).mp hf
  obtain ⟨-, -, -, -, -, -, -, -, -, e0, e1, e2⟩ := idx1 t
  show (cfg1.win 3).cut (grid1.coords t) ((dat1 V c).after 3 t) = _
  funext y
  rw [View.read_apply]
  obtain ⟨b, r, h, rfl⟩ : ∃ (b : Fin 16) (r : Fin 256) (h : Fin 16), y = ix3 b r h := ⟨y 0, y 1, y 2, eq_ix3 y⟩
  show ((dat1 V c).after 3 t : Vec F S16x256x16 .bf16) (ix3 b r h) = G _
  rw [hG t h3 b r h]
  congr 1
  funext a
  apply Fin.ext
  match a with
  | ⟨0, _⟩ => show 16 * (t.val / 16) + b.val = win1_3.index t (0 : Fin 3) * 16 + 1 * b.val; rw [e0]; omega
  | ⟨1, _⟩ => show 256 * (t.val / 4 % 4) + r.val = win1_3.index t (1 : Fin 3) * 256 + 1 * r.val; rw [e1]; omega
  | ⟨2, _⟩ => show h.val = win1_3.index t (2 : Fin 3) * 16 + 1 * h.val; rw [e2]; omega

/-! ## The output array in closed form -/

/-- The output block of batch-head block `nb` and query block `qb`: the four steps of the sweep over the key/value blocks
    from the initial triple, then the output read off the final triple. -/
def sweepOut1 (c : Dev nD) (nb : Fin 8) (qb : Fin 4) : Vec F S16x256x16 .bf16 :=
  frFin1 (frStep1 (iblk1 V c 0 (pt nb qb 3)) (iblk1 V c 1 (pt nb qb 3)) (iblk1 V c 2 (pt nb qb 3)) (frStep1 (iblk1 V c 0 (pt nb qb 2)) (iblk1 V c 1 (pt nb qb 2)) (iblk1 V c 2 (pt nb qb 2)) (frStep1 (iblk1 V c 0 (pt nb qb 1)) (iblk1 V c 1 (pt nb qb 1)) (iblk1 V c 2 (pt nb qb 1)) (frStep1 (iblk1 V c 0 (pt nb qb 0)) (iblk1 V c 1 (pt nb qb 0)) (iblk1 V c 2 (pt nb qb 0)) frInit1))))

theorem sweepOut1_congr (c : Dev nD) {nb nb' : Fin 8} {qb qb' : Fin 4} {x x' : S16x256x16.Idx}
    (h1 : nb.val = nb'.val) (h2 : qb.val = qb'.val) (h3 : ∀ a, (x a).val = (x' a).val) :
    sweepOut1 V c nb qb x = sweepOut1 V c nb' qb' x' := by
  obtain rfl := Fin.ext h1
  obtain rfl := Fin.ext h2
  obtain rfl : x = x' := funext fun a => Fin.ext (h3 a)
  rfl

/-- What the output's staging buffer holds after the last key/value point of blocks `nb`, `qb`. -/
theorem after1_3_pt (c : Dev nD) (nb : Fin 8) (qb : Fin 4) :
    ((dat1 V c).after 3 (pt nb qb 3) : Vec F S16x256x16 .bf16) = sweepOut1 V c nb qb := by
  rw [after1_3]
  exact outsAt1_sweep V c (pt nb qb 0) (pt nb qb 1) (pt nb qb 2) (pt nb qb 3)
    (by show ((nb.val * 4 + qb.val) * 4 + 0) % 4 = 0; omega)
    (by show (nb.val * 4 + qb.val) * 4 + 1 = (nb.val * 4 + qb.val) * 4 + 0 + 1; omega)
    (by show (nb.val * 4 + qb.val) * 4 + 2 = (nb.val * 4 + qb.val) * 4 + 0 + 2; omega)
    (by show (nb.val * 4 + qb.val) * 4 + 3 = (nb.val * 4 + qb.val) * 4 + 0 + 3; omega)

/-- The same at any writing point. -/
theorem after1_3_flush (c : Dev nD) (t : Fin cfg1.N) (h3 : t.val % 4 = 3) :
    ((dat1 V c).after 3 t : Vec F S16x256x16 .bf16)
      = sweepOut1 V c ⟨t.val / 16, by have := tlt t; omega⟩ ⟨t.val / 4 % 4, by omega⟩ := by
  have hN := tlt t
  have e := after1_3_pt V c ⟨t.val / 16, by omega⟩ ⟨t.val / 4 % 4, by omega⟩
  rw [after1_3] at e
  rw [after1_3, outsAt1_congr V c (show t.val = (pt ⟨t.val / 16, by omega⟩ ⟨t.val / 4 % 4, by omega⟩ 3).val from by
    show t.val = (t.val / 16 * 4 + t.val / 4 % 4) * 4 + 3; omega) t.isLt (pt _ _ _).isLt]
  exact e

/-- The output array as one function of the region-entry contents: entry `(n, q, h)` is entry `(n % 16, q % 256, h)` of
    the output block of batch-head block `n / 16` and query block `q / 256`. -/
def G1 (c : Dev nD) : S128x1024x16.Idx → Elt F .bf16 := fun j =>
  sweepOut1 V c ⟨(j 0).val / 16, by have : (j 0).val < 128 := (j 0).isLt; omega⟩ ⟨(j 1).val / 256, by have : (j 1).val < 1024 := (j 1).isLt; omega⟩
    (ix3 (⟨(j 0).val % 16, by omega⟩ : Fin 16) (⟨(j 1).val % 256, by omega⟩ : Fin 256) (⟨(j 2).val, (j 2).isLt⟩ : Fin 16))

/-- After the region the output array holds `G1`. -/
theorem final1_3 (c : Dev nD) : (dat1 V c).arrAt 3 cfg1.N = G1 V c :=
  arrAt1_3_of V c (G1 V c) fun t h3 b r h => by
    have hN := tlt t
    rw [after1_3_flush V c t h3]
    unfold G1
    exact sweepOut1_congr V c (by show t.val / 16 = (16 * (t.val / 16) + b.val) / 16; omega)
      (by show t.val / 4 % 4 = (256 * (t.val / 4 % 4) + r.val) / 256; omega)
      (fun a => by
        match a with
        | ⟨0, _⟩ => show b.val = (16 * (t.val / 16) + b.val) % 16; omega
        | ⟨1, _⟩ => show r.val = (256 * (t.val / 4 % 4) + r.val) % 256; omega
        | ⟨2, _⟩ => rfl)

/-- THE OUTPUT ARRAY at an index: entry `(n, q, h)` after the region. -/
theorem arr1 (c : Dev nD) (n : Fin 128) (q : Fin 1024) (h : Fin 16) :
    ((dat1 V c).arrAt 3 cfg1.N : S128x1024x16.Idx → Elt F .bf16) (ix3 n q h)
      = sweepOut1 V c ⟨n.val / 16, by omega⟩ ⟨q.val / 256, by omega⟩ (ix3 (⟨n.val % 16, by omega⟩ : Fin 16) (⟨q.val % 256, by omega⟩ : Fin 256) h) := by
  rw [final1_3]
  rfl

end Cert.KernelIdeal.Val

end
-- ==== Proof.Online.lean ====
/-
  The attention step computed ONLINE: the 1024 keys of a query row are visited in 4 blocks of 256
  (key 256·j + i is the i-th key of block j), and a running state (m, l, acc) is carried from block to block:

      B   = the largest score of the block
      m'  = max m B
      l'  = e^{m − m'} · l   + Σᵢ e^{sᵢ − m'}
      acc'= e^{m − m'} · acc + Σᵢ e^{sᵢ − m'} · vᵢ

  Over the reals the state after the first block is (B₀, Σᵢ e^{sᵢ − B₀}, Σᵢ e^{sᵢ − B₀} vᵢ); after j + 1 blocks it
  is (M, Σ e^{s − M}, Σ e^{s − M} v) with the sums over the first 256·(j+1) keys and M their largest score,
  because e^{m − m'} · e^{s − m} = e^{s − m'}.  After the fourth block acc / l is the softmax-weighted mean of the
  values (Spec's attnK).

  Over the extended reals the state starts at (−∞, 0, 0).  With e^{−∞} = 0 and −∞ − r = −∞ the first update lands
  on the real state above, and every later update is the real one: the last section says so for any function E on
  the extended reals that is 0 at −∞ and the real exponential on the reals.
-/
import Mathlib.Analysis.SpecialFunctions.Exp
import Mathlib.Data.EReal.Operations
import Mathlib.Algebra.BigOperators.Field
import Mathlib.Algebra.BigOperators.Fin
import Mathlib.Tactic.Ring
import Mathlib.Tactic.Linarith
import proofs.«119430_j62362925137949_2_alg».proof.Proof.Spec

noncomputable section

namespace Cert.Online

open Finset Cert.Spec

/-! ## The blocks -/

/-- The i-th key of block j (j is read modulo 4, so that the function is total). -/
def keyAt (j : ℕ) (i : Fin 256) : Fin 1024 := ⟨256 * (j % 4) + i.val, by omega⟩

theorem keyAt_val (j : ℕ) (hj : j < 4) (i : Fin 256) : (keyAt j i).val = 256 * j + i.val := by
  simp [keyAt, Nat.mod_eq_of_lt hj]

/-- Every key is a key of one of the four blocks. -/
theorem key_eq_keyAt (k : Fin 1024) : k = keyAt (k.val / 256) ⟨k.val % 256, Nat.mod_lt _ (by norm_num)⟩ := by
  apply Fin.ext
  simp only [keyAt]
  omega

/-- A sum over the 1024 keys is the sum over the four blocks of the sums over each block's 256 keys. -/
theorem sum_blocks (g : Fin 1024 → ℝ) : ∑ j ∈ range 4, ∑ i : Fin 256, g (keyAt j i) = ∑ k : Fin 1024, g k := by
  let e : Fin 4 × Fin 256 ≃ Fin 1024 :=
    { toFun := fun p => keyAt p.1.val p.2
      invFun := fun k => (⟨k.val / 256, by omega⟩, ⟨k.val % 256, Nat.mod_lt _ (by norm_num)⟩)
      left_inv := fun p => by
        obtain ⟨j, i⟩ := p
        apply Prod.ext <;> apply Fin.ext <;> simp only [keyAt] <;> omega
      right_inv := fun k => (key_eq_keyAt k).symm }
  rw [← Fin.sum_univ_eq_sum_range (fun j => ∑ i : Fin 256, g (keyAt j i)) 4, ← Fintype.sum_prod_type']
  exact Equiv.sum_comp e g

/-! ## The running state over the reals -/

/-- The largest score of block j. -/
def blockMax (S : Fin 1024 → ℝ) (j : ℕ) : ℝ := univ.sup' univ_nonempty fun i : Fin 256 => S (keyAt j i)

/-- Σᵢ e^{sᵢ − M} over block j. -/
def blockSum (S : Fin 1024 → ℝ) (M : ℝ) (j : ℕ) : ℝ := ∑ i : Fin 256, Real.exp (S (keyAt j i) - M)

/-- Σᵢ e^{sᵢ − M} vᵢ over block j. -/
def blockAcc (S W : Fin 1024 → ℝ) (M : ℝ) (j : ℕ) : ℝ := ∑ i : Fin 256, Real.exp (S (keyAt j i) - M) * W (keyAt j i)

/-- The running maximum after blocks 0 … j. -/
def runMax (S : Fin 1024 → ℝ) : ℕ → ℝ
  | 0 => blockMax S 0
  | j + 1 => max (runMax S j) (blockMax S (j + 1))

/-- The running normaliser after blocks 0 … j. -/
def runSum (S : Fin 1024 → ℝ) : ℕ → ℝ
  | 0 => blockSum S (runMax S 0) 0
  | j + 1 => Real.exp (runMax S j - runMax S (j + 1)) * runSum S j + blockSum S (runMax S (j + 1)) (j + 1)

/-- The running weighted sum of the values after blocks 0 … j. -/
def runAcc (S W : Fin 1024 → ℝ) : ℕ → ℝ
  | 0 => blockAcc S W (runMax S 0) 0
  | j + 1 => Real.exp (runMax S j - runMax S (j + 1)) * runAcc S W j + blockAcc S W (runMax S (j + 1)) (j + 1)

@[simp] theorem runMax_zero (S : Fin 1024 → ℝ) : runMax S 0 = blockMax S 0 := rfl
@[simp] theorem runMax_succ (S : Fin 1024 → ℝ) (j : ℕ) : runMax S (j + 1) = max (runMax S j) (blockMax S (j + 1)) := rfl
theorem runSum_zero (S : Fin 1024 → ℝ) : runSum S 0 = blockSum S (runMax S 0) 0 := rfl
theorem runSum_succ (S : Fin 1024 → ℝ) (j : ℕ) :
    runSum S (j + 1) = Real.exp (runMax S j - runMax S (j + 1)) * runSum S j + blockSum S (runMax S (j + 1)) (j + 1) := rfl
theorem runAcc_zero (S W : Fin 1024 → ℝ) : runAcc S W 0 = blockAcc S W (runMax S 0) 0 := rfl
theorem runAcc_succ (S W : Fin 1024 → ℝ) (j : ℕ) :
    runAcc S W (j + 1) = Real.exp (runMax S j - runMax S (j + 1)) * runAcc S W j + blockAcc S W (runMax S (j + 1)) (j + 1) := rfl

/-- Changing the reference point of a block's sum: e^{M − M'} · Σ e^{s − M} = Σ e^{s − M'}. -/
theorem exp_mul_blockSum (S : Fin 1024 → ℝ) (M M' : ℝ) (j : ℕ) :
    Real.exp (M - M') * blockSum S M j = blockSum S M' j := by
  unfold blockSum
  rw [Finset.mul_sum]
  refine Finset.sum_congr rfl fun i _ => ?_
  rw [← Real.exp_add]
  congr 1
  ring

theorem exp_mul_blockAcc (S W : Fin 1024 → ℝ) (M M' : ℝ) (j : ℕ) :
    Real.exp (M - M') * blockAcc S W M j = blockAcc S W M' j := by
  unfold blockAcc
  rw [Finset.mul_sum]
  refine Finset.sum_congr rfl fun i _ => ?_
  rw [← mul_assoc, ← Real.exp_add]
  congr 2
  ring

/-- The running normaliser in closed form: the sum over the blocks seen so far, at the current maximum. -/
theorem runSum_closed (S : Fin 1024 → ℝ) (j : ℕ) : runSum S j = ∑ j' ∈ range (j + 1), blockSum S (runMax S j) j' := by
  induction j with
  | zero => simp [runSum_zero]
  | succ j ih =>
    rw [runSum_succ, ih, Finset.mul_sum, Finset.sum_range_succ _ (j + 1)]
    congr 1
    exact Finset.sum_congr rfl fun j' _ => exp_mul_blockSum S _ _ j'

theorem runAcc_closed (S W : Fin 1024 → ℝ) (j : ℕ) :
    runAcc S W j = ∑ j' ∈ range (j + 1), blockAcc S W (runMax S j) j' := by
  induction j with
  | zero => simp [runAcc_zero]
  | succ j ih =>
    rw [runAcc_succ, ih, Finset.mul_sum, Finset.sum_range_succ _ (j + 1)]
    congr 1
    exact Finset.sum_congr rfl fun j' _ => exp_mul_blockAcc S W _ _ j'

/-- The normaliser is positive: it is a sum of exponentials. -/
theorem runSum_pos (S : Fin 1024 → ℝ) (j : ℕ) : 0 < runSum S j := by
  rw [runSum_closed]
  refine Finset.sum_pos (fun j' _ => ?_) ⟨0, by simp⟩
  exact Finset.sum_pos (fun i _ => Real.exp_pos _) univ_nonempty

theorem runSum_ne_zero (S : Fin 1024 → ℝ) (j : ℕ) : runSum S j ≠ 0 := (runSum_pos S j).ne'

/-- A block's maximum is below the running maximum once the block has been seen. -/
theorem blockMax_le_runMax (S : Fin 1024 → ℝ) {j' j : ℕ} (h : j' ≤ j) : blockMax S j' ≤ runMax S j := by
  induction j with
  | zero => obtain rfl : j' = 0 := by omega
            exact le_rfl
  | succ j ih =>
    rw [runMax_succ]
    rcases Nat.lt_or_ge j' (j + 1) with h' | h'
    · exact le_max_of_le_left (ih (by omega))
    · obtain rfl : j' = j + 1 := by omega
      exact le_max_right _ _

/-- The running maximum is one of the scores seen, hence below the row's maximum. -/
theorem runMax_le_rowMax (S : Fin 1024 → ℝ) (j : ℕ) : runMax S j ≤ rowMax S := by
  have hb : ∀ j', blockMax S j' ≤ rowMax S := fun j' =>
    Finset.sup'_le _ _ fun i _ => Finset.le_sup' (f := S) (mem_univ (keyAt j' i))
  induction j with
  | zero => exact hb 0
  | succ j ih => exact max_le ih (hb _)

/-- After the four blocks the running maximum is the row's maximum. -/
theorem runMax_three (S : Fin 1024 → ℝ) : runMax S 3 = rowMax S := by
  refine le_antisymm (runMax_le_rowMax S 3) (Finset.sup'_le _ _ fun k _ => ?_)
  have hk : k.val / 256 ≤ 3 := by omega
  rw [key_eq_keyAt k]
  exact le_trans (Finset.le_sup' (f := fun i : Fin 256 => S (keyAt (k.val / 256) i)) (mem_univ _))
    (blockMax_le_runMax S hk)

/-- After the four blocks the running normaliser is the row's: Σₖ e^{sₖ − M}. -/
theorem runSum_three (S : Fin 1024 → ℝ) : runSum S 3 = ∑ k : Fin 1024, Real.exp (S k - rowMax S) := by
  rw [runSum_closed, runMax_three]
  exact sum_blocks fun k => Real.exp (S k - rowMax S)

/-- After the four blocks the running weighted sum is the row's: Σₖ e^{sₖ − M} vₖ. -/
theorem runAcc_three (S W : Fin 1024 → ℝ) : runAcc S W 3 = ∑ k : Fin 1024, Real.exp (S k - rowMax S) * W k := by
  rw [runAcc_closed, runMax_three]
  exact sum_blocks fun k => Real.exp (S k - rowMax S) * W k

/-- The online quotient is the attention step with the division last. -/
theorem runAcc_div_runSum_three (Q : Fin 128 → Fin 1024 → Fin 16 → ℝ) (K V : Fin 128 → Fin 16 → Fin 1024 → ℝ)
    (n : Fin 128) (q : Fin 1024) (h : Fin 16) :
    runAcc (scoreK Q K n q) (V n h) 3 / runSum (scoreK Q K n q) 3 = attnK Q K V n q h := by
  rw [runAcc_three, runSum_three]
  rfl

/-! ## The same updates over the extended reals -/

/-- A finite sum of reals, read in the extended reals. -/
theorem coe_sum {ι : Type*} (A : Finset ι) (f : ι → ℝ) : ∑ i ∈ A, ((f i : ℝ) : EReal) = ((∑ i ∈ A, f i : ℝ) : EReal) := by
  classical
  induction A using Finset.induction_on with
  | empty => simp
  | insert a A ha ih => rw [Finset.sum_insert ha, Finset.sum_insert ha, ih, EReal.coe_add]

/-- The larger of two reals, read in the extended reals. -/
theorem coe_max (x y : ℝ) : ((max x y : ℝ) : EReal) = max (x : EReal) (y : EReal) :=
  EReal.coe_strictMono.monotone.map_max

/-- The fold of max from −∞ over a block of real scores is the block's maximum. -/
theorem fold_max_bot_coe (S : Fin 1024 → ℝ) (j : ℕ) :
    (univ : Finset (Fin 256)).fold max (⊥ : EReal) (fun i => ((S (keyAt j i) : ℝ) : EReal)) = ((blockMax S j : ℝ) : EReal) := by
  have h1 : (univ : Finset (Fin 256)).fold max (⊥ : EReal) (fun i => ((S (keyAt j i) : ℝ) : EReal))
      = (univ : Finset (Fin 256)).sup (fun i => ((S (keyAt j i) : ℝ) : EReal)) := rfl
  rw [h1, ← Finset.sup'_eq_sup univ_nonempty, blockMax]
  exact (Finset.comp_sup'_eq_sup'_comp univ_nonempty (fun r : ℝ => (r : EReal)) fun x y => coe_max x y).symm

section Extended

variable (E : EReal → EReal) (hE0 : E ⊥ = 0) (hE : ∀ r : ℝ, E (r : EReal) = ((Real.exp r : ℝ) : EReal))
include hE0 hE

/-- The first block, from the state (−∞, 0, 0): the new maximum is the block's, the old state is forgotten
    (its factor is e^{−∞} = 0), and the new normaliser and weighted sum are the block's. -/
theorem first_block (S W : Fin 1024 → ℝ) :
    max (⊥ : EReal) ((blockMax S 0 : ℝ) : EReal) = ((runMax S 0 : ℝ) : EReal)
    ∧ E (⊥ - ((runMax S 0 : ℝ) : EReal)) * 0 + ∑ i : Fin 256, E (((S (keyAt 0 i) : ℝ) : EReal) - ((runMax S 0 : ℝ) : EReal))
        = ((runSum S 0 : ℝ) : EReal)
    ∧ E (⊥ - ((runMax S 0 : ℝ) : EReal)) * 0
        + ∑ i : Fin 256, E (((S (keyAt 0 i) : ℝ) : EReal) - ((runMax S 0 : ℝ) : EReal)) * ((W (keyAt 0 i) : ℝ) : EReal)
        = ((runAcc S W 0 : ℝ) : EReal) := by
  refine ⟨by rw [runMax_zero]; exact max_eq_right bot_le, ?_, ?_⟩
  · rw [mul_zero, zero_add, runSum_zero, blockSum, ← coe_sum]
    exact Finset.sum_congr rfl fun i _ => by rw [← EReal.coe_sub, hE]
  · rw [mul_zero, zero_add, runAcc_zero, blockAcc, ← coe_sum]
    exact Finset.sum_congr rfl fun i _ => by rw [← EReal.coe_sub, hE, ← EReal.coe_mul]

/-- A later block, from a real state: the update is the real one. -/
theorem next_block (S W : Fin 1024 → ℝ) (j : ℕ) :
    max ((runMax S j : ℝ) : EReal) ((blockMax S (j + 1) : ℝ) : EReal) = ((runMax S (j + 1) : ℝ) : EReal)
    ∧ E (((runMax S j : ℝ) : EReal) - ((runMax S (j + 1) : ℝ) : EReal)) * ((runSum S j : ℝ) : EReal)
        + ∑ i : Fin 256, E (((S (keyAt (j + 1) i) : ℝ) : EReal) - ((runMax S (j + 1) : ℝ) : EReal))
        = ((runSum S (j + 1) : ℝ) : EReal)
    ∧ E (((runMax S j : ℝ) : EReal) - ((runMax S (j + 1) : ℝ) : EReal)) * ((runAcc S W j : ℝ) : EReal)
        + ∑ i : Fin 256, E (((S (keyAt (j + 1) i) : ℝ) : EReal) - ((runMax S (j + 1) : ℝ) : EReal)) * ((W (keyAt (j + 1) i) : ℝ) : EReal)
        = ((runAcc S W (j + 1) : ℝ) : EReal) := by
  refine ⟨by rw [runMax_succ, coe_max], ?_, ?_⟩
  · rw [runSum_succ, EReal.coe_add, EReal.coe_mul, ← EReal.coe_sub, hE, blockSum, ← coe_sum]
    congr 1
    exact Finset.sum_congr rfl fun i _ => by rw [← EReal.coe_sub, hE]
  · rw [runAcc_succ, EReal.coe_add, EReal.coe_mul, ← EReal.coe_sub, hE, blockAcc, ← coe_sum]
    congr 1
    exact Finset.sum_congr rfl fun i _ => by rw [← EReal.coe_sub, hE, ← EReal.coe_mul]

end Extended

end Cert.Online

end
-- ==== Proof.Val1Pay.lean ====
/-
  The payloads of the attention kernel read at an index, over the extended reals.

  One grid point of the kernel updates, for each of its 16 × 256 query rows (b, r), the running maximum m, the
  running normaliser l and the 16 running weighted sums acc of the values, from a block of 256 keys:

      s (b, r, i)  = Σₕ (q (b, r, h) · ¼) · k (b, h, i)                       the block's scores
      m' (b, r)    = max (m (b, r)) (maxᵢ s (b, r, i))                        (the inner maximum folded from −∞)
      a (b, r)     = e^{m (b, r) − m' (b, r)}
      p (b, r, i)  = e^{s (b, r, i) − m' (b, r)}
      l' (b, r)    = a (b, r) · l (b, r) + Σᵢ p (b, r, i)
      acc' (b, r, h) = a (b, r) · acc (b, r, h) + Σᵢ p (b, r, i) · v (b, h, i)
      out (b, r, h)  = acc (b, r, h) / l (b, r)

  Each statement below is one of these equations for the corresponding generated payload, with every index written by
  its coordinates.  Format changes are the identity at this instance, the bf16 literal 0x3E80 is ¼, the f32 pattern
  0xFF800000 is −∞ and the zero pattern is 0.
-/
import proofs.«119430_j62362925137949_2_alg».proof.Proof.Gen.KernelIdeal.Skeleton
import proofs.«119430_j62362925137949_2_alg».proof.Proof.Online
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen

/-- The bf16 literal 0x3E80 is the real 1/4. -/
theorem quarter : Ideal.ofBits .bf16 0x3E80#16 = ((1 / 4 : ℝ) : EReal) := by
  simp [Ideal.ofBits, Ideal.ieee]
  norm_num
  rw [← EReal.coe_mul]
  norm_num

/-- The f32 pattern 0xFF800000 is −∞. -/
theorem negInf : Ideal.ofBits .f32 0xFF800000#32 = (⊥ : EReal) := by
  simp [Ideal.ofBits, Ideal.ieee]

/-! ## Layout operations at an index -/

/-- A [16,256] array cast to [16,256,1] reads, at (b, r, 0), the operand at (b, r). -/
theorem keepdims_apply {α : Type} (x : S16x256.Idx → α) (h : S16x256.ShapeCasts S16x256x1) (b : Fin 16) (r : Fin 256) (u : Fin 1) :
    shapeCast S16x256x1 x h (ix3 b r u) = x (ix2 b r) :=
  shapeCast_apply x h _ _ (by
    have hu : u.val = 0 := by omega
    rw [Shape.rowMajor_val_three, Shape.rowMajor_val_two]
    show b.val * 256 + r.val = (b.val * 256 + r.val) * 1 + u.val
    rw [hu, Nat.mul_one, Nat.add_zero])

/-- A [16,256,1] array broadcast along its last axis to 256 reads, at (b, r, i), the operand at (b, r, 0). -/
theorem bcast256_apply {α : Type} (x : S16x256x1.Idx → α) (h : S16x256x1.Broadcasts S16x256x256) (b : Fin 16) (r : Fin 256) (i : Fin 256) :
    broadcastTo S16x256x256 x h (ix3 b r i) = x (ix3 b r (0 : Fin 1)) := by
  refine broadcastTo_apply x h (ix3 b r i) (ix3 b r (0 : Fin 1)) fun ax => ?_
  match ax with
  | ⟨0, _⟩ => rfl
  | ⟨1, _⟩ => rfl
  | ⟨2, _⟩ => rfl

/-- The same to 16. -/
theorem bcast16_apply {α : Type} (x : S16x256x1.Idx → α) (h : S16x256x1.Broadcasts S16x256x16) (b : Fin 16) (r : Fin 256) (i : Fin 16) :
    broadcastTo S16x256x16 x h (ix3 b r i) = x (ix3 b r (0 : Fin 1)) := by
  refine broadcastTo_apply x h (ix3 b r i) (ix3 b r (0 : Fin 1)) fun ax => ?_
  match ax with
  | ⟨0, _⟩ => rfl
  | ⟨1, _⟩ => rfl
  | ⟨2, _⟩ => rfl

/-- The index (b, r) of the reduced array with the coordinate i inserted on the reduced axis is (b, r, i). -/
theorem lift_eq (h : S16x256x256.Reduces [2] S16x256) (b : Fin 16) (r : Fin 256) (i : Fin 256) :
    h.lift (ix2 b r) i = ix3 b r i :=
  funext fun a => Fin.ext (by
    match a with
    | ⟨0, _⟩ => rfl
    | ⟨1, _⟩ => rfl
    | ⟨2, _⟩ => rfl)

/-- The maximum of a [16,256,256] array along its last axis, from −∞: at (b, r) the fold of max over the entries (b, r, i). -/
theorem rowmax_apply (src : FVec Ideal S16x256x256 .f32) (h : S16x256x256.Reduces [2] S16x256) (hφ : FKind.Formats .f32)
    (hacc : (0xFF800000#32 : BitVec 32) = FKind.maximumf.neutral .f32 hφ) (b : Fin 16) (r : Fin 256) :
    multiReduction (F := Ideal) .maximumf [2] S16x256 src 0xFF800000#32 h hφ hacc (ix2 b r)
      = (Finset.univ : Finset (Fin 256)).fold max (⊥ : EReal) fun i => src (ix3 b r i) := by
  have e := Ideal.multiReduction_maximumf_single (φ := .f32) src 0xFF800000#32 h hφ hacc (ix2 b r)
  refine e.trans ?_
  have e0 : (FloatOps.ofBits .f32 0xFF800000#32 : Ideal .f32) = (⊥ : EReal) := negInf
  rw [e0]
  exact congrArg (fun f : Fin 256 → EReal => (Finset.univ : Finset (Fin 256)).fold max (⊥ : EReal) f)
    (funext fun i => congrArg src (lift_eq h b r i))

/-- The sum of a [16,256,256] array along its last axis: at (b, r) the sum over i of the entries (b, r, i). -/
theorem rowsum_apply (src : FVec Ideal S16x256x256 .f32) (h : S16x256x256.Reduces [2] S16x256) (hφ : FKind.Formats .f32)
    (hacc : (0x00000000#32 : BitVec 32) = FKind.add.neutral .f32 hφ) (b : Fin 16) (r : Fin 256) :
    multiReduction (F := Ideal) .add [2] S16x256 src 0x00000000#32 h hφ hacc (ix2 b r)
      = ∑ i : Fin 256, src (ix3 b r i) := by
  have e := Ideal.multiReduction_add_single (φ := .f32) src 0x00000000#32 h hφ hacc (ix2 b r)
  refine e.trans ?_
  exact Finset.sum_congr rfl fun i _ => congrArg src (lift_eq h b r i)

/-! ## The operand indices of the two contractions -/

theorem qk_lhs_0 (j : S16x256x256.Idx) (q : dot_S16x256x16_S16x16x256_S16x256x256_2_1_1_2_0_0.contr.Idx) :
    (dot_S16x256x16_S16x16x256_S16x256x256_2_1_1_2_0_0.lhsIdx j q 0).val = (j 0).val := by
  unfold DotDims.lhsIdx
  rw [dif_pos (show (0 : Fin S16x256x16.rank) ∈ dot_S16x256x16_S16x16x256_S16x256x256_2_1_1_2_0_0.lhsBatch by decide)]
  rfl
theorem qk_lhs_1 (j : S16x256x256.Idx) (q : dot_S16x256x16_S16x16x256_S16x256x256_2_1_1_2_0_0.contr.Idx) :
    (dot_S16x256x16_S16x16x256_S16x256x256_2_1_1_2_0_0.lhsIdx j q 1).val = (j 1).val := by
  unfold DotDims.lhsIdx
  rw [dif_neg (show ¬(1 : Fin S16x256x16.rank) ∈ dot_S16x256x16_S16x16x256_S16x256x256_2_1_1_2_0_0.lhsBatch by decide), dif_pos (show (1 : Fin S16x256x16.rank) ∈ dot_S16x256x16_S16x16x256_S16x256x256_2_1_1_2_0_0.lhsNonContracting by decide)]
  rfl
theorem qk_lhs_2 (j : S16x256x256.Idx) (q : dot_S16x256x16_S16x16x256_S16x256x256_2_1_1_2_0_0.contr.Idx) :
    (dot_S16x256x16_S16x16x256_S16x256x256_2_1_1_2_0_0.lhsIdx j q 2).val = (q ⟨0, by decide⟩).val :=
  dot_S16x256x16_S16x16x256_S16x256x256_2_1_1_2_0_0.lhsIdx_val_of_single rfl j q
theorem qk_rhs_0 (j : S16x256x256.Idx) (q : dot_S16x256x16_S16x16x256_S16x256x256_2_1_1_2_0_0.contr.Idx) :
    (dot_S16x256x16_S16x16x256_S16x256x256_2_1_1_2_0_0.rhsIdx j q 0).val = (j 0).val := by
  unfold DotDims.rhsIdx
  rw [dif_pos (show (0 : Fin S16x16x256.rank) ∈ dot_S16x256x16_S16x16x256_S16x256x256_2_1_1_2_0_0.rhsBatch by decide)]
  rfl
theorem qk_rhs_1 (j : S16x256x256.Idx) (q : dot_S16x256x16_S16x16x256_S16x256x256_2_1_1_2_0_0.contr.Idx) :
    (dot_S16x256x16_S16x16x256_S16x256x256_2_1_1_2_0_0.rhsIdx j q 1).val = (q ⟨0, by decide⟩).val :=
  dot_S16x256x16_S16x16x256_S16x256x256_2_1_1_2_0_0.rhsIdx_val_of_single rfl j q
theorem qk_rhs_2 (j : S16x256x256.Idx) (q : dot_S16x256x16_S16x16x256_S16x256x256_2_1_1_2_0_0.contr.Idx) :
    (dot_S16x256x16_S16x16x256_S16x256x256_2_1_1_2_0_0.rhsIdx j q 2).val = (j 2).val := by
  unfold DotDims.rhsIdx
  rw [dif_neg (show ¬(2 : Fin S16x16x256.rank) ∈ dot_S16x256x16_S16x16x256_S16x256x256_2_1_1_2_0_0.rhsBatch by decide), dif_pos (show (2 : Fin S16x16x256.rank) ∈ dot_S16x256x16_S16x16x256_S16x256x256_2_1_1_2_0_0.rhsNonContracting by decide)]
  rfl

theorem pv_lhs_0 (j : S16x256x16.Idx) (q : dot_S16x256x256_S16x16x256_S16x256x16_2_2_1_1_0_0.contr.Idx) :
    (dot_S16x256x256_S16x16x256_S16x256x16_2_2_1_1_0_0.lhsIdx j q 0).val = (j 0).val := by
  unfold DotDims.lhsIdx
  rw [dif_pos (show (0 : Fin S16x256x256.rank) ∈ dot_S16x256x256_S16x16x256_S16x256x16_2_2_1_1_0_0.lhsBatch by decide)]
  rfl
theorem pv_lhs_1 (j : S16x256x16.Idx) (q : dot_S16x256x256_S16x16x256_S16x256x16_2_2_1_1_0_0.contr.Idx) :
    (dot_S16x256x256_S16x16x256_S16x256x16_2_2_1_1_0_0.lhsIdx j q 1).val = (j 1).val := by
  unfold DotDims.lhsIdx
  rw [dif_neg (show ¬(1 : Fin S16x256x256.rank) ∈ dot_S16x256x256_S16x16x256_S16x256x16_2_2_1_1_0_0.lhsBatch by decide), dif_pos (show (1 : Fin S16x256x256.rank) ∈ dot_S16x256x256_S16x16x256_S16x256x16_2_2_1_1_0_0.lhsNonContracting by decide)]
  rfl
theorem pv_lhs_2 (j : S16x256x16.Idx) (q : dot_S16x256x256_S16x16x256_S16x256x16_2_2_1_1_0_0.contr.Idx) :
    (dot_S16x256x256_S16x16x256_S16x256x16_2_2_1_1_0_0.lhsIdx j q 2).val = (q ⟨0, by decide⟩).val :=
  dot_S16x256x256_S16x16x256_S16x256x16_2_2_1_1_0_0.lhsIdx_val_of_single rfl j q
theorem pv_rhs_0 (j : S16x256x16.Idx) (q : dot_S16x256x256_S16x16x256_S16x256x16_2_2_1_1_0_0.contr.Idx) :
    (dot_S16x256x256_S16x16x256_S16x256x16_2_2_1_1_0_0.rhsIdx j q 0).val = (j 0).val := by
  unfold DotDims.rhsIdx
  rw [dif_pos (show (0 : Fin S16x16x256.rank) ∈ dot_S16x256x256_S16x16x256_S16x256x16_2_2_1_1_0_0.rhsBatch by decide)]
  rfl
theorem pv_rhs_1 (j : S16x256x16.Idx) (q : dot_S16x256x256_S16x16x256_S16x256x16_2_2_1_1_0_0.contr.Idx) :
    (dot_S16x256x256_S16x16x256_S16x256x16_2_2_1_1_0_0.rhsIdx j q 1).val = (j 2).val := by
  unfold DotDims.rhsIdx
  rw [dif_neg (show ¬(1 : Fin S16x16x256.rank) ∈ dot_S16x256x256_S16x16x256_S16x256x16_2_2_1_1_0_0.rhsBatch by decide), dif_pos (show (1 : Fin S16x16x256.rank) ∈ dot_S16x256x256_S16x16x256_S16x256x16_2_2_1_1_0_0.rhsNonContracting by decide)]
  rfl
theorem pv_rhs_2 (j : S16x256x16.Idx) (q : dot_S16x256x256_S16x16x256_S16x256x16_2_2_1_1_0_0.contr.Idx) :
    (dot_S16x256x256_S16x16x256_S16x256x16_2_2_1_1_0_0.rhsIdx j q 2).val = (q ⟨0, by decide⟩).val :=
  dot_S16x256x256_S16x16x256_S16x256x16_2_2_1_1_0_0.rhsIdx_val_of_single rfl j q

/-! ## The payloads -/

/-- The scores of a block: entry (b, r, i) is Σₕ (q (b, r, h) · ¼) · k (b, h, i). -/
theorem pay7_apply (x0 : Vec Ideal S16x256x16 .bf16) (x1 : Vec Ideal S16x16x256 .bf16) (b : Fin 16) (r : Fin 256) (i : Fin 256) :
    (k1_pay7 (F := Ideal) x0 x1 : S16x256x256.Idx → EReal) (ix3 b r i)
      = ∑ h : Fin 16, (x0 (ix3 b r h) * Ideal.ofBits .bf16 0x3E80#16) * x1 (ix3 b h i) := by
  unfold k1_pay7
  simp only [shapeCast_self]
  refine (Ideal.matmul_constant_zero_apply (φ₁ := .bf16) (φ₂ := .bf16) dot_S16x256x16_S16x16x256_S16x256x256_2_1_1_2_0_0 none (mulf (F := Ideal) (φ := .bf16) x0 (broadcast S16x256x16 (FloatOps.ofBits .bf16 0x3E80#16))) x1 (ix3 b r i)).trans ?_
  rw [← Equiv.sum_comp (contrEquiv1 dot_S16x256x16_S16x16x256_S16x256x256_2_1_1_2_0_0 16 rfl rfl).symm]
  refine Finset.sum_congr rfl fun h _ => ?_
  have hk := contrEquiv1_symm_val dot_S16x256x16_S16x16x256_S16x256x256_2_1_1_2_0_0 16 rfl rfl h
  have el : dot_S16x256x16_S16x16x256_S16x256x256_2_1_1_2_0_0.lhsIdx (ix3 b r i) ((contrEquiv1 dot_S16x256x16_S16x16x256_S16x256x256_2_1_1_2_0_0 16 rfl rfl).symm h) = ix3 b r h := funext fun a => Fin.ext (by
    match a with
    | ⟨0, _⟩ => exact qk_lhs_0 _ _
    | ⟨1, _⟩ => exact qk_lhs_1 _ _
    | ⟨2, _⟩ => exact (qk_lhs_2 _ _).trans hk)
  have er : dot_S16x256x16_S16x16x256_S16x256x256_2_1_1_2_0_0.rhsIdx (ix3 b r i) ((contrEquiv1 dot_S16x256x16_S16x16x256_S16x256x256_2_1_1_2_0_0 16 rfl rfl).symm h) = ix3 b h i := funext fun a => Fin.ext (by
    match a with
    | ⟨0, _⟩ => exact qk_rhs_0 _ _
    | ⟨1, _⟩ => exact (qk_rhs_1 _ _).trans hk
    | ⟨2, _⟩ => exact qk_rhs_2 _ _)
  rw [el, er]
  rfl

/-- The new running maximum: entry (b, r, 0) is the larger of the old one and the fold of max from −∞ over the block's scores. -/
theorem pay8_apply (x0 : Vec Ideal S16x256x16 .bf16) (x1 : Vec Ideal S16x16x256 .bf16) (m : Vec Ideal S16x256x1 .f32)
    (b : Fin 16) (r : Fin 256) :
    (k1_pay8 (F := Ideal) x0 x1 m : S16x256x1.Idx → EReal) (ix3 b r (0 : Fin 1))
      = max (m (ix3 b r (0 : Fin 1)))
          ((Finset.univ : Finset (Fin 256)).fold max (⊥ : EReal) fun i => (k1_pay7 (F := Ideal) x0 x1 : S16x256x256.Idx → EReal) (ix3 b r i)) := by
  unfold k1_pay8
  refine congrArg (max (m (ix3 b r (0 : Fin 1)))) ?_
  refine (keepdims_apply _ _ b r 0).trans ?_
  exact rowmax_apply (k1_pay7 (F := Ideal) x0 x1) reduces_S16x256x256_S16x256 (.inl rfl) rfl b r

/-- The rescaling factor of the old state: e^{m − m'}. -/
theorem pay9_apply (x0 : Vec Ideal S16x256x16 .bf16) (x1 : Vec Ideal S16x16x256 .bf16) (m m2 : Vec Ideal S16x256x1 .f32)
    (b : Fin 16) (r : Fin 256) :
    (k1_pay9 (F := Ideal) x0 x1 m m2 : S16x256x1.Idx → EReal) (ix3 b r (0 : Fin 1))
      = Ideal.exp (m2 (ix3 b r (0 : Fin 1)) - (k1_pay8 (F := Ideal) x0 x1 m : S16x256x1.Idx → EReal) (ix3 b r (0 : Fin 1))) := by
  unfold k1_pay9
  rfl

/-- The block's weights: e^{s − m'}. -/
theorem pay10_apply (x0 : Vec Ideal S16x256x16 .bf16) (x1 : Vec Ideal S16x16x256 .bf16) (m : Vec Ideal S16x256x1 .f32)
    (b : Fin 16) (r : Fin 256) (i : Fin 256) :
    (k1_pay10 (F := Ideal) x0 x1 m : S16x256x256.Idx → EReal) (ix3 b r i)
      = Ideal.exp ((k1_pay7 (F := Ideal) x0 x1 : S16x256x256.Idx → EReal) (ix3 b r i)
          - (k1_pay8 (F := Ideal) x0 x1 m : S16x256x1.Idx → EReal) (ix3 b r (0 : Fin 1))) := by
  unfold k1_pay10
  exact congrArg (fun z : EReal => Ideal.exp ((k1_pay7 (F := Ideal) x0 x1 : S16x256x256.Idx → EReal) (ix3 b r i) - z))
    (bcast256_apply (k1_pay8 (F := Ideal) x0 x1 m) broadcasts_S16x256x1_S16x256x256 b r i)

/-- The weights handed to the second contraction are the same numbers (a format change). -/
theorem pay12_apply (x0 : Vec Ideal S16x256x16 .bf16) (x1 : Vec Ideal S16x16x256 .bf16) (m : Vec Ideal S16x256x1 .f32)
    (b : Fin 16) (r : Fin 256) (i : Fin 256) :
    (k1_pay12 (F := Ideal) x0 x1 m : S16x256x256.Idx → EReal) (ix3 b r i)
      = (k1_pay10 (F := Ideal) x0 x1 m : S16x256x256.Idx → EReal) (ix3 b r i) := by
  unfold k1_pay12
  rfl

/-- The new running normaliser: a · l + Σᵢ p. -/
theorem pay11_apply (x0 : Vec Ideal S16x256x16 .bf16) (x1 : Vec Ideal S16x16x256 .bf16) (m m2 l : Vec Ideal S16x256x1 .f32)
    (b : Fin 16) (r : Fin 256) :
    (k1_pay11 (F := Ideal) x0 x1 m m2 l : S16x256x1.Idx → EReal) (ix3 b r (0 : Fin 1))
      = (k1_pay9 (F := Ideal) x0 x1 m m2 : S16x256x1.Idx → EReal) (ix3 b r (0 : Fin 1)) * l (ix3 b r (0 : Fin 1))
        + ∑ i : Fin 256, (k1_pay10 (F := Ideal) x0 x1 m : S16x256x256.Idx → EReal) (ix3 b r i) := by
  unfold k1_pay11
  simp only [shapeCast_self]
  refine congrArg (fun z : EReal => (k1_pay9 (F := Ideal) x0 x1 m m2 : S16x256x1.Idx → EReal) (ix3 b r (0 : Fin 1)) * l (ix3 b r (0 : Fin 1)) + z) ?_
  refine (keepdims_apply _ _ b r 0).trans ?_
  exact rowsum_apply (k1_pay10 (F := Ideal) x0 x1 m) reduces_S16x256x256_S16x256 (.inl rfl) rfl b r

/-- The new running weighted sums: a · acc + Σᵢ p (b, r, i) · v (b, h, i). -/
theorem pay1_apply (a : FVec Ideal S16x256x1 .f32) (p : FVec Ideal S16x256x256 .bf16) (x2 : Vec Ideal S16x16x256 .bf16)
    (acc : Vec Ideal S16x256x16 .f32) (b : Fin 16) (r : Fin 256) (h : Fin 16) :
    (k1_pay1 (F := Ideal) a p x2 acc : S16x256x16.Idx → EReal) (ix3 b r h)
      = a (ix3 b r (0 : Fin 1)) * acc (ix3 b r h) + ∑ i : Fin 256, p (ix3 b r i) * x2 (ix3 b h i) := by
  unfold k1_pay1
  simp only [shapeCast_self]
  refine congrArg₂ (fun y z : EReal => y * acc (ix3 b r h) + z) (bcast16_apply a broadcasts_S16x256x1_S16x256x16 b r h) ?_
  refine (Ideal.matmul_constant_zero_apply (φ₁ := .bf16) (φ₂ := .bf16) dot_S16x256x256_S16x16x256_S16x256x16_2_2_1_1_0_0 none p x2 (ix3 b r h)).trans ?_
  rw [← Equiv.sum_comp (contrEquiv1 dot_S16x256x256_S16x16x256_S16x256x16_2_2_1_1_0_0 256 rfl rfl).symm]
  refine Finset.sum_congr rfl fun i _ => ?_
  have hk := contrEquiv1_symm_val dot_S16x256x256_S16x16x256_S16x256x16_2_2_1_1_0_0 256 rfl rfl i
  have el : dot_S16x256x256_S16x16x256_S16x256x16_2_2_1_1_0_0.lhsIdx (ix3 b r h) ((contrEquiv1 dot_S16x256x256_S16x16x256_S16x256x16_2_2_1_1_0_0 256 rfl rfl).symm i) = ix3 b r i := funext fun ax => Fin.ext (by
    match ax with
    | ⟨0, _⟩ => exact pv_lhs_0 _ _
    | ⟨1, _⟩ => exact pv_lhs_1 _ _
    | ⟨2, _⟩ => exact (pv_lhs_2 _ _).trans hk)
  have er : dot_S16x256x256_S16x16x256_S16x256x16_2_2_1_1_0_0.rhsIdx (ix3 b r h) ((contrEquiv1 dot_S16x256x256_S16x16x256_S16x256x16_2_2_1_1_0_0 256 rfl rfl).symm i) = ix3 b h i := funext fun ax => Fin.ext (by
    match ax with
    | ⟨0, _⟩ => exact pv_rhs_0 _ _
    | ⟨1, _⟩ => exact pv_rhs_1 _ _
    | ⟨2, _⟩ => exact (pv_rhs_2 _ _).trans hk)
  rw [el, er]

/-- The stored maximum is the new maximum (a cast to the same shape). -/
theorem pay2_eq (m : FVec Ideal S16x256x1 .f32) : k1_pay2 (F := Ideal) m = m := by
  unfold k1_pay2
  exact shapeCast_self _ _

/-- The written block: acc / l. -/
theorem pay3_apply (acc : Vec Ideal S16x256x16 .f32) (l : Vec Ideal S16x256x1 .f32) (b : Fin 16) (r : Fin 256) (h : Fin 16) :
    (k1_pay3 (F := Ideal) acc l : S16x256x16.Idx → EReal) (ix3 b r h)
      = Ideal.div (acc (ix3 b r h)) (l (ix3 b r (0 : Fin 1))) := by
  unfold k1_pay3
  exact congrArg (fun z : EReal => Ideal.div (acc (ix3 b r h)) z) (bcast16_apply l broadcasts_S16x256x1_S16x256x16 b r h)

/-- The state a sweep starts from: −∞, 0, 0. -/
theorem pay4_apply (j : S16x256x1.Idx) : (k1_pay4 (F := Ideal) : S16x256x1.Idx → EReal) j = ⊥ := by
  unfold k1_pay4
  simp only [shapeCast_self]
  exact negInf

theorem pay5_apply (j : S16x256x1.Idx) : (k1_pay5 (F := Ideal) : S16x256x1.Idx → EReal) j = 0 := by
  unfold k1_pay5
  simp only [shapeCast_self]
  exact Ideal.ofBits_zero_f32

theorem pay6_apply (j : S16x256x16.Idx) : (k1_pay6 (F := Ideal) : S16x256x16.Idx → EReal) j = 0 := by
  unfold k1_pay6
  simp only [shapeCast_self]
  exact Ideal.ofBits_zero_f32

end Cert.KernelIdeal.Val

end
-- ==== Proof.Val1Math.lean ====
/-
  One sweep of the attention kernel over the four key blocks of a query row, read at an index over the extended reals.

  With the query block, the four key blocks and the four value blocks of the sweep holding real numbers, the scratch
  triple (m, l, acc) after the j-th step holds, at row (a, r) and feature h, the real running state of the online
  attention step (its running maximum, normaliser and weighted sum after blocks 0 … j): the first step starts from
  (−∞, 0, 0) and lands on the real state, every later step is the real update.  The block written after the fourth
  step is acc / l, the softmax-weighted mean of the values.
-/
import proofs.«119430_j62362925137949_2_alg».proof.Proof.FrI1Step
import proofs.«119430_j62362925137949_2_alg».proof.Proof.Val1Pay
import proofs.«119430_j62362925137949_2_alg».proof.Proof.Online
import proofs.«119430_j62362925137949_2_alg».proof.Proof.Spec

set_option maxRecDepth 16384

noncomputable section

namespace Cert.KernelIdeal.Val

open Idealize.ShloMosaic Idealize.ShloMosaic.ValueIdx Cert.KernelIdeal Cert.KernelIdeal.Gen Cert.KernelIdeal.Fr
open Cert.Online Cert.Spec

/-- The scratch triple: running maximum, running normaliser, running weighted sums. -/
abbrev Tri : Type := Vec Ideal S16x256x1 .f32 × Vec Ideal S16x256x1 .f32 × Vec Ideal S16x256x16 .f32

/-- The scores of block j of a row whose queries and keys are real: the real scores. -/
theorem pay7_real (x0 : Vec Ideal S16x256x16 .bf16) (x1 : Vec Ideal S16x16x256 .bf16) (a : Fin 16) (r : Fin 256)
    (Qrow : Fin 16 → ℝ) (Krow : Fin 16 → Fin 1024 → ℝ) (j : ℕ)
    (hq : ∀ h' : Fin 16, x0 (ix3 a r h') = ((Qrow h' : ℝ) : EReal))
    (hk : ∀ (h' : Fin 16) (i : Fin 256), x1 (ix3 a h' i) = ((Krow h' (keyAt j i) : ℝ) : EReal)) (i : Fin 256) :
    (k1_pay7 (F := Ideal) x0 x1 : S16x256x256.Idx → EReal) (ix3 a r i)
      = ((∑ h' : Fin 16, (Qrow h' * (1 / 4)) * Krow h' (keyAt j i) : ℝ) : EReal) := by
  refine (pay7_apply x0 x1 a r i).trans ?_
  rw [← coe_sum]
  refine Finset.sum_congr rfl fun h' _ => ?_
  rw [hq h', hk h' i, quarter, ← EReal.coe_mul, ← EReal.coe_mul]

/-- One step at a row: from the entries (m, l, acc) of the triple at row (a, r) and feature h, with the block's
    scores the real S (keyAt j ·) and its values the real W (keyAt j ·). -/
theorem step_apply (x0 : Vec Ideal S16x256x16 .bf16) (x1 x2 : Vec Ideal S16x16x256 .bf16) (s : Tri)
    (a : Fin 16) (r : Fin 256) (h : Fin 16) (S W : Fin 1024 → ℝ) (j : ℕ)
    (hs : ∀ i : Fin 256, (k1_pay7 (F := Ideal) x0 x1 : S16x256x256.Idx → EReal) (ix3 a r i) = ((S (keyAt j i) : ℝ) : EReal))
    (hv : ∀ i : Fin 256, x2 (ix3 a h i) = ((W (keyAt j i) : ℝ) : EReal))
    (m l acc : EReal) (hm : s.1 (ix3 a r (0 : Fin 1)) = m) (hl : s.2.1 (ix3 a r (0 : Fin 1)) = l) (hacc : s.2.2 (ix3 a r h) = acc) :
    (frStep1 x0 x1 x2 s).1 (ix3 a r (0 : Fin 1)) = max m ((blockMax S j : ℝ) : EReal)
    ∧ (frStep1 x0 x1 x2 s).2.1 (ix3 a r (0 : Fin 1))
        = Ideal.exp (m - max m ((blockMax S j : ℝ) : EReal)) * l
          + ∑ i : Fin 256, Ideal.exp (((S (keyAt j i) : ℝ) : EReal) - max m ((blockMax S j : ℝ) : EReal))
    ∧ (frStep1 x0 x1 x2 s).2.2 (ix3 a r h)
        = Ideal.exp (m - max m ((blockMax S j : ℝ) : EReal)) * acc
          + ∑ i : Fin 256, Ideal.exp (((S (keyAt j i) : ℝ) : EReal) - max m ((blockMax S j : ℝ) : EReal)) * ((W (keyAt j i) : ℝ) : EReal) := by
  have hM : (k1_pay8 (F := Ideal) x0 x1 s.1 : S16x256x1.Idx → EReal) (ix3 a r (0 : Fin 1)) = max m ((blockMax S j : ℝ) : EReal) := by
    refine (pay8_apply x0 x1 s.1 a r).trans ?_
    rw [hm, show (fun i : Fin 256 => (k1_pay7 (F := Ideal) x0 x1 : S16x256x256.Idx → EReal) (ix3 a r i))
        = fun i : Fin 256 => ((S (keyAt j i) : ℝ) : EReal) from funext hs, fold_max_bot_coe]
  have h9 : (k1_pay9 (F := Ideal) x0 x1 s.1 s.1 : S16x256x1.Idx → EReal) (ix3 a r (0 : Fin 1))
      = Ideal.exp (m - max m ((blockMax S j : ℝ) : EReal)) := by
    refine (pay9_apply x0 x1 s.1 s.1 a r).trans ?_
    rw [hm, hM]
  have h10 : ∀ i : Fin 256, (k1_pay10 (F := Ideal) x0 x1 s.1 : S16x256x256.Idx → EReal) (ix3 a r i)
      = Ideal.exp (((S (keyAt j i) : ℝ) : EReal) - max m ((blockMax S j : ℝ) : EReal)) := fun i => by
    refine (pay10_apply x0 x1 s.1 a r i).trans ?_
    rw [hs i, hM]
  refine ⟨?_, ?_, ?_⟩
  · show (k1_pay2 (F := Ideal) (k1_pay8 (F := Ideal) x0 x1 s.1) : S16x256x1.Idx → EReal) (ix3 a r (0 : Fin 1)) = _
    rw [pay2_eq]
    exact hM
  · show (k1_pay11 (F := Ideal) x0 x1 s.1 s.1 s.2.1 : S16x256x1.Idx → EReal) (ix3 a r (0 : Fin 1)) = _
    refine (pay11_apply x0 x1 s.1 s.1 s.2.1 a r).trans ?_
    rw [h9, hl]
    exact congrArg _ (Finset.sum_congr rfl fun i _ => h10 i)
  · show (k1_pay1 (F := Ideal) (k1_pay9 (F := Ideal) x0 x1 s.1 s.1) (k1_pay12 (F := Ideal) x0 x1 s.1) x2 s.2.2 : S16x256x16.Idx → EReal) (ix3 a r h) = _
    refine (pay1_apply _ _ x2 s.2.2 a r h).trans ?_
    rw [h9, hacc]
    refine congrArg _ (Finset.sum_congr rfl fun i _ => ?_)
    rw [pay12_apply, h10 i, hv i]

/-- What the triple holds at row (a, r) and feature h after blocks 0 … j of the real scores S and values W. -/
def RowAt (S W : Fin 1024 → ℝ) (j : ℕ) (s : Tri) (a : Fin 16) (r : Fin 256) (h : Fin 16) : Prop :=
  s.1 (ix3 a r (0 : Fin 1)) = ((runMax S j : ℝ) : EReal)
  ∧ s.2.1 (ix3 a r (0 : Fin 1)) = ((runSum S j : ℝ) : EReal)
  ∧ s.2.2 (ix3 a r h) = ((runAcc S W j : ℝ) : EReal)

/-- The first step, from (−∞, 0, 0). -/
theorem step_first (x0 : Vec Ideal S16x256x16 .bf16) (x1 x2 : Vec Ideal S16x16x256 .bf16)
    (a : Fin 16) (r : Fin 256) (h : Fin 16) (S W : Fin 1024 → ℝ)
    (hs : ∀ i : Fin 256, (k1_pay7 (F := Ideal) x0 x1 : S16x256x256.Idx → EReal) (ix3 a r i) = ((S (keyAt 0 i) : ℝ) : EReal))
    (hv : ∀ i : Fin 256, x2 (ix3 a h i) = ((W (keyAt 0 i) : ℝ) : EReal)) :
    RowAt S W 0 (frStep1 x0 x1 x2 (frInit1 (F := Ideal))) a r h := by
  obtain ⟨e1, e2, e3⟩ := step_apply x0 x1 x2 (frInit1 (F := Ideal)) a r h S W 0 hs hv ⊥ 0 0
    (pay4_apply (ix3 a r (0 : Fin 1))) (pay5_apply (ix3 a r (0 : Fin 1))) (pay6_apply (ix3 a r h))
  obtain ⟨f1, f2, f3⟩ := first_block Ideal.exp Ideal.exp_bot Ideal.exp_coe S W
  rw [f1] at e1 e2 e3
  exact ⟨e1, e2.trans f2, e3.trans f3⟩

/-- A later step, from the real state. -/
theorem step_next (x0 : Vec Ideal S16x256x16 .bf16) (x1 x2 : Vec Ideal S16x16x256 .bf16) (s : Tri)
    (a : Fin 16) (r : Fin 256) (h : Fin 16) (S W : Fin 1024 → ℝ) (j : ℕ)
    (hs : ∀ i : Fin 256, (k1_pay7 (F := Ideal) x0 x1 : S16x256x256.Idx → EReal) (ix3 a r i) = ((S (keyAt (j + 1) i) : ℝ) : EReal))
    (hv : ∀ i : Fin 256, x2 (ix3 a h i) = ((W (keyAt (j + 1) i) : ℝ) : EReal))
    (hrow : RowAt S W j s a r h) : RowAt S W (j + 1) (frStep1 x0 x1 x2 s) a r h := by
  obtain ⟨e1, e2, e3⟩ := step_apply x0 x1 x2 s a r h S W (j + 1) hs hv _ _ _ hrow.1 hrow.2.1 hrow.2.2
  obtain ⟨f1, f2, f3⟩ := next_block Ideal.exp Ideal.exp_bot Ideal.exp_coe S W j
  rw [f1] at e1 e2 e3
  exact ⟨e1, e2.trans f2, e3.trans f3⟩

/-- The written block from a real state: acc / l. -/
theorem fin_apply (s : Tri) (a : Fin 16) (r : Fin 256) (h : Fin 16) (S W : Fin 1024 → ℝ) (j : ℕ) (hrow : RowAt S W j s a r h) :
    (frFin1 s : S16x256x16.Idx → EReal) (ix3 a r h) = ((runAcc S W j / runSum S j : ℝ) : EReal) := by
  show (k1_pay3 (F := Ideal) s.2.2 s.2.1 : S16x256x16.Idx → EReal) (ix3 a r h) = _
  refine (pay3_apply s.2.2 s.2.1 a r h).trans ?_
  rw [hrow.2.2, hrow.2.1, Ideal.div_coe (runSum_ne_zero S j), ← EReal.coe_mul]
  congr 1
  rw [one_div, div_eq_mul_inv]

/-- A whole sweep at a row: four steps from (−∞, 0, 0) over the blocks of the sweep's four points, then the written
    block.  The query blocks of the four points hold the same real query row; key block j holds keys 256·j … 256·j+255. -/
theorem sweep_apply (q0 q1 q2 q3 : Vec Ideal S16x256x16 .bf16) (k0 k1 k2 k3 v0 v1 v2 v3 : Vec Ideal S16x16x256 .bf16)
    (a : Fin 16) (r : Fin 256) (h : Fin 16) (Qrow : Fin 16 → ℝ) (Krow : Fin 16 → Fin 1024 → ℝ) (W : Fin 1024 → ℝ)
    (hq0 : ∀ h' : Fin 16, q0 (ix3 a r h') = ((Qrow h' : ℝ) : EReal)) (hq1 : ∀ h' : Fin 16, q1 (ix3 a r h') = ((Qrow h' : ℝ) : EReal))
    (hq2 : ∀ h' : Fin 16, q2 (ix3 a r h') = ((Qrow h' : ℝ) : EReal)) (hq3 : ∀ h' : Fin 16, q3 (ix3 a r h') = ((Qrow h' : ℝ) : EReal))
    (hk0 : ∀ (h' : Fin 16) (i : Fin 256), k0 (ix3 a h' i) = ((Krow h' (keyAt 0 i) : ℝ) : EReal))
    (hk1 : ∀ (h' : Fin 16) (i : Fin 256), k1 (ix3 a h' i) = ((Krow h' (keyAt 1 i) : ℝ) : EReal))
    (hk2 : ∀ (h' : Fin 16) (i : Fin 256), k2 (ix3 a h' i) = ((Krow h' (keyAt 2 i) : ℝ) : EReal))
    (hk3 : ∀ (h' : Fin 16) (i : Fin 256), k3 (ix3 a h' i) = ((Krow h' (keyAt 3 i) : ℝ) : EReal))
    (hv0 : ∀ i : Fin 256, v0 (ix3 a h i) = ((W (keyAt 0 i) : ℝ) : EReal)) (hv1 : ∀ i : Fin 256, v1 (ix3 a h i) = ((W (keyAt 1 i) : ℝ) : EReal))
    (hv2 : ∀ i : Fin 256, v2 (ix3 a h i) = ((W (keyAt 2 i) : ℝ) : EReal)) (hv3 : ∀ i : Fin 256, v3 (ix3 a h i) = ((W (keyAt 3 i) : ℝ) : EReal)) :
    (frFin1 (frStep1 q3 k3 v3 (frStep1 q2 k2 v2 (frStep1 q1 k1 v1 (frStep1 q0 k0 v0 (frInit1 (F := Ideal)))))) : S16x256x16.Idx → EReal) (ix3 a r h)
      = ((runAcc (fun k => ∑ h' : Fin 16, (Qrow h' * (1 / 4)) * Krow h' k) W 3
          / runSum (fun k => ∑ h' : Fin 16, (Qrow h' * (1 / 4)) * Krow h' k) 3 : ℝ) : EReal) := by
  have r0 := step_first q0 k0 v0 a r h (fun k => ∑ h' : Fin 16, (Qrow h' * (1 / 4)) * Krow h' k) W
    (fun i => pay7_real q0 k0 a r Qrow Krow 0 hq0 hk0 i) hv0
  have r1 := step_next q1 k1 v1 _ a r h _ W 0 (fun i => pay7_real q1 k1 a r Qrow Krow 1 hq1 hk1 i) hv1 r0
  have r2 := step_next q2 k2 v2 _ a r h _ W 1 (fun i => pay7_real q2 k2 a r Qrow Krow 2 hq2 hk2 i) hv2 r1
  have r3 := step_next q3 k3 v3 _ a r h _ W 2 (fun i => pay7_real q3 k3 a r Qrow Krow 3 hq3 hk3 i) hv3 r2
  exact fin_apply _ a r h _ W 3 r3

end Cert.KernelIdeal.Val

end
-- ==== Proof.Val1.lean ====
/-
  What the attention region leaves in its output array, over the extended reals.

  With the query, key and value arrays the region finds holding real numbers, entry (n, q, h) of the output array
  after the region is the attention step of Spec (scores with the scale on the queries, division last) at problem n,
  query position q and feature h: the entry lies in the block written at the last key/value point of its batch-head
  and query blocks, that block is the four online steps of the sweep over the key blocks from (−∞, 0, 0) followed by
  acc / l, the four steps at a row are the real online recurrences, and after the fourth block these are the row's
  softmax sums.
-/
import proofs.«119430_j62362925137949_2_alg».proof.Proof.Val1Arr
import proofs.«119430_j62362925137949_2_alg».proof.Proof.Val1Math
import proofs.«119430_j62362925137949_2_alg».proof.Proof.Online
import proofs.«119430_j62362925137949_2_alg».proof.Proof.Spec

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.KernelIdeal.Fr Cert.Online Cert.Spec

/-- Entry (n, q, h) of the attention region's output array is the attention step at (n, q, h). -/
theorem final1 (V : (c : Dev nD) → (b : Ref sig .tc) → Buf (Elt Ideal) ((c : Thread nD τ).loc b)) (c : Dev nD)
    (Qr : Fin 128 → Fin 1024 → Fin 16 → ℝ) (Kr Vr : Fin 128 → Fin 16 → Fin 1024 → ℝ)
    (hQ : ∀ n q h, (V c main_v20 : S128x1024x16.Idx → EReal) (ix3 n q h) = ((Qr n q h : ℝ) : EReal))
    (hK : ∀ n h k, (V c main_v23 : S128x16x1024.Idx → EReal) (ix3 n h k) = ((Kr n h k : ℝ) : EReal))
    (hV : ∀ n h k, (V c main_v26 : S128x16x1024.Idx → EReal) (ix3 n h k) = ((Vr n h k : ℝ) : EReal))
    (n : Fin 128) (q : Fin 1024) (h : Fin 16) :
    ((dat1 V c).arrAt 3 cfg1.N : S128x1024x16.Idx → EReal) (ix3 n q h) = ((attnK Qr Kr Vr n q h : ℝ) : EReal) := by
  have hn : n.val < 128 := n.isLt
  have hq : q.val < 1024 := q.isLt
  refine (arr1 V c n q h).trans ?_
  unfold sweepOut1
  refine (sweep_apply
    (iblk1 V c 0 (pt ⟨n.val / 16, by omega⟩ ⟨q.val / 256, by omega⟩ 0)) (iblk1 V c 0 (pt ⟨n.val / 16, by omega⟩ ⟨q.val / 256, by omega⟩ 1))
    (iblk1 V c 0 (pt ⟨n.val / 16, by omega⟩ ⟨q.val / 256, by omega⟩ 2)) (iblk1 V c 0 (pt ⟨n.val / 16, by omega⟩ ⟨q.val / 256, by omega⟩ 3))
    (iblk1 V c 1 (pt ⟨n.val / 16, by omega⟩ ⟨q.val / 256, by omega⟩ 0)) (iblk1 V c 1 (pt ⟨n.val / 16, by omega⟩ ⟨q.val / 256, by omega⟩ 1))
    (iblk1 V c 1 (pt ⟨n.val / 16, by omega⟩ ⟨q.val / 256, by omega⟩ 2)) (iblk1 V c 1 (pt ⟨n.val / 16, by omega⟩ ⟨q.val / 256, by omega⟩ 3))
    (iblk1 V c 2 (pt ⟨n.val / 16, by omega⟩ ⟨q.val / 256, by omega⟩ 0)) (iblk1 V c 2 (pt ⟨n.val / 16, by omega⟩ ⟨q.val / 256, by omega⟩ 1))
    (iblk1 V c 2 (pt ⟨n.val / 16, by omega⟩ ⟨q.val / 256, by omega⟩ 2)) (iblk1 V c 2 (pt ⟨n.val / 16, by omega⟩ ⟨q.val / 256, by omega⟩ 3))
    (⟨n.val % 16, by omega⟩ : Fin 16) (⟨q.val % 256, by omega⟩ : Fin 256) h (Qr n q) (Kr n) (Vr n h)
    ?_ ?_ ?_ ?_ ?_ ?_ ?_ ?_ ?_ ?_ ?_ ?_).trans ?_
  · intro h'
    refine (iblk1_0_at V c (pt ⟨n.val / 16, by omega⟩ ⟨q.val / 256, by omega⟩ 0) (ix3 (⟨n.val % 16, by omega⟩ : Fin 16) (⟨q.val % 256, by omega⟩ : Fin 256) h') (ix3 n q h') ?_ ?_ rfl).trans (hQ n q h')
    · show n.val = 16 * (((n.val / 16 * 4 + q.val / 256) * 4 + 0) / 16) + n.val % 16
      omega
    · show q.val = 256 * (((n.val / 16 * 4 + q.val / 256) * 4 + 0) / 4 % 4) + q.val % 256
      omega
  · intro h'
    refine (iblk1_0_at V c (pt ⟨n.val / 16, by omega⟩ ⟨q.val / 256, by omega⟩ 1) (ix3 (⟨n.val % 16, by omega⟩ : Fin 16) (⟨q.val % 256, by omega⟩ : Fin 256) h') (ix3 n q h') ?_ ?_ rfl).trans (hQ n q h')
    · show n.val = 16 * (((n.val / 16 * 4 + q.val / 256) * 4 + 1) / 16) + n.val % 16
      omega
    · show q.val = 256 * (((n.val / 16 * 4 + q.val / 256) * 4 + 1) / 4 % 4) + q.val % 256
      omega
  · intro h'
    refine (iblk1_0_at V c (pt ⟨n.val / 16, by omega⟩ ⟨q.val / 256, by omega⟩ 2) (ix3 (⟨n.val % 16, by omega⟩ : Fin 16) (⟨q.val % 256, by omega⟩ : Fin 256) h') (ix3 n q h') ?_ ?_ rfl).trans (hQ n q h')
    · show n.val = 16 * (((n.val / 16 * 4 + q.val / 256) * 4 + 2) / 16) + n.val % 16
      omega
    · show q.val = 256 * (((n.val / 16 * 4 + q.val / 256) * 4 + 2) / 4 % 4) + q.val % 256
      omega
  · intro h'
    refine (iblk1_0_at V c (pt ⟨n.val / 16, by omega⟩ ⟨q.val / 256, by omega⟩ 3) (ix3 (⟨n.val % 16, by omega⟩ : Fin 16) (⟨q.val % 256, by omega⟩ : Fin 256) h') (ix3 n q h') ?_ ?_ rfl).trans (hQ n q h')
    · show n.val = 16 * (((n.val / 16 * 4 + q.val / 256) * 4 + 3) / 16) + n.val % 16
      omega
    · show q.val = 256 * (((n.val / 16 * 4 + q.val / 256) * 4 + 3) / 4 % 4) + q.val % 256
      omega
  · intro h' i
    refine (iblk1_1_at V c (pt ⟨n.val / 16, by omega⟩ ⟨q.val / 256, by omega⟩ 0) (ix3 (⟨n.val % 16, by omega⟩ : Fin 16) h' i) (ix3 n h' (keyAt 0 i)) ?_ rfl ?_).trans (hK n h' (keyAt 0 i))
    · show n.val = 16 * (((n.val / 16 * 4 + q.val / 256) * 4 + 0) / 16) + n.val % 16
      omega
    · show 256 * (0 % 4) + i.val = 256 * (((n.val / 16 * 4 + q.val / 256) * 4 + 0) % 4) + i.val
      omega
  · intro h' i
    refine (iblk1_1_at V c (pt ⟨n.val / 16, by omega⟩ ⟨q.val / 256, by omega⟩ 1) (ix3 (⟨n.val % 16, by omega⟩ : Fin 16) h' i) (ix3 n h' (keyAt 1 i)) ?_ rfl ?_).trans (hK n h' (keyAt 1 i))
    · show n.val = 16 * (((n.val / 16 * 4 + q.val / 256) * 4 + 1) / 16) + n.val % 16
      omega
    · show 256 * (1 % 4) + i.val = 256 * (((n.val / 16 * 4 + q.val / 256) * 4 + 1) % 4) + i.val
      omega
  · intro h' i
    refine (iblk1_1_at V c (pt ⟨n.val / 16, by omega⟩ ⟨q.val / 256, by omega⟩ 2) (ix3 (⟨n.val % 16, by omega⟩ : Fin 16) h' i) (ix3 n h' (keyAt 2 i)) ?_ rfl ?_).trans (hK n h' (keyAt 2 i))
    · show n.val = 16 * (((n.val / 16 * 4 + q.val / 256) * 4 + 2) / 16) + n.val % 16
      omega
    · show 256 * (2 % 4) + i.val = 256 * (((n.val / 16 * 4 + q.val / 256) * 4 + 2) % 4) + i.val
      omega
  · intro h' i
    refine (iblk1_1_at V c (pt ⟨n.val / 16, by omega⟩ ⟨q.val / 256, by omega⟩ 3) (ix3 (⟨n.val % 16, by omega⟩ : Fin 16) h' i) (ix3 n h' (keyAt 3 i)) ?_ rfl ?_).trans (hK n h' (keyAt 3 i))
    · show n.val = 16 * (((n.val / 16 * 4 + q.val / 256) * 4 + 3) / 16) + n.val % 16
      omega
    · show 256 * (3 % 4) + i.val = 256 * (((n.val / 16 * 4 + q.val / 256) * 4 + 3) % 4) + i.val
      omega
  · intro i
    refine (iblk1_2_at V c (pt ⟨n.val / 16, by omega⟩ ⟨q.val / 256, by omega⟩ 0) (ix3 (⟨n.val % 16, by omega⟩ : Fin 16) h i) (ix3 n h (keyAt 0 i)) ?_ rfl ?_).trans (hV n h (keyAt 0 i))
    · show n.val = 16 * (((n.val / 16 * 4 + q.val / 256) * 4 + 0) / 16) + n.val % 16
      omega
    · show 256 * (0 % 4) + i.val = 256 * (((n.val / 16 * 4 + q.val / 256) * 4 + 0) % 4) + i.val
      omega
  · intro i
    refine (iblk1_2_at V c (pt ⟨n.val / 16, by omega⟩ ⟨q.val / 256, by omega⟩ 1) (ix3 (⟨n.val % 16, by omega⟩ : Fin 16) h i) (ix3 n h (keyAt 1 i)) ?_ rfl ?_).trans (hV n h (keyAt 1 i))
    · show n.val = 16 * (((n.val / 16 * 4 + q.val / 256) * 4 + 1) / 16) + n.val % 16
      omega
    · show 256 * (1 % 4) + i.val = 256 * (((n.val / 16 * 4 + q.val / 256) * 4 + 1) % 4) + i.val
      omega
  · intro i
    refine (iblk1_2_at V c (pt ⟨n.val / 16, by omega⟩ ⟨q.val / 256, by omega⟩ 2) (ix3 (⟨n.val % 16, by omega⟩ : Fin 16) h i) (ix3 n h (keyAt 2 i)) ?_ rfl ?_).trans (hV n h (keyAt 2 i))
    · show n.val = 16 * (((n.val / 16 * 4 + q.val / 256) * 4 + 2) / 16) + n.val % 16
      omega
    · show 256 * (2 % 4) + i.val = 256 * (((n.val / 16 * 4 + q.val / 256) * 4 + 2) % 4) + i.val
      omega
  · intro i
    refine (iblk1_2_at V c (pt ⟨n.val / 16, by omega⟩ ⟨q.val / 256, by omega⟩ 3) (ix3 (⟨n.val % 16, by omega⟩ : Fin 16) h i) (ix3 n h (keyAt 3 i)) ?_ rfl ?_).trans (hV n h (keyAt 3 i))
    · show n.val = 16 * (((n.val / 16 * 4 + q.val / 256) * 4 + 3) / 16) + n.val % 16
      omega
    · show 256 * (3 % 4) + i.val = 256 * (((n.val / 16 * 4 + q.val / 256) * 4 + 3) % 4) + i.val
      omega
  · exact congrArg (fun x : ℝ => (x : EReal)) (runAcc_div_runSum_three Qr Kr Vr n q h)

end Cert.KernelIdeal.Val

end
-- ==== Proof.SpecLaws.lean ====
/-
  The two arrangements of the attention step are the same function.

  Scaling the queries by 1/4 before the feature contraction or the scores after it gives the same scores
  (the contraction is linear); dividing the weighted sum of the values by the normaliser or normalising the
  weights first gives the same quotient (division distributes over a finite sum).
-/
import Mathlib.Tactic.Ring
import Mathlib.Algebra.BigOperators.Field
import proofs.«119430_j62362925137949_2_alg».proof.Proof.Spec

noncomputable section

namespace Cert.Spec

/-- (Q · 1/4) · K summed over the features is (Q · K summed) · 1/4. -/
theorem scoreK_eq_scoreR (Q : Fin 128 → Fin 1024 → Fin 16 → ℝ) (K : Fin 128 → Fin 16 → Fin 1024 → ℝ)
    (n : Fin 128) (q k : Fin 1024) : scoreK Q K n q k = scoreR Q K n q k := by
  unfold scoreK scoreR
  rw [Finset.sum_mul]
  refine Finset.sum_congr rfl fun h _ => ?_
  ring

/-- The rows of scores agree as functions of the key position. -/
theorem scoreK_row_eq_scoreR_row (Q : Fin 128 → Fin 1024 → Fin 16 → ℝ) (K : Fin 128 → Fin 16 → Fin 1024 → ℝ)
    (n : Fin 128) (q : Fin 1024) : scoreK Q K n q = scoreR Q K n q :=
  funext fun k => scoreK_eq_scoreR Q K n q k

/-- (Σₖ eₖ vₖ) / D = Σₖ (eₖ / D) vₖ, on equal scores. -/
theorem attnK_eq_attnR (Q : Fin 128 → Fin 1024 → Fin 16 → ℝ) (K V : Fin 128 → Fin 16 → Fin 1024 → ℝ)
    (n : Fin 128) (q : Fin 1024) (h : Fin 16) : attnK Q K V n q h = attnR Q K V n q h := by
  unfold attnK attnR
  rw [scoreK_row_eq_scoreR_row Q K n q, Finset.sum_div]
  refine Finset.sum_congr rfl fun k _ => ?_
  ring

/-- The whole function does not depend on the arrangement of its attention step. -/
theorem outK_eq_outR (x : Fin 2 → Fin 1024 → Fin 1024 → ℝ) (Wq Wk Wv Wo : Fin 1024 → Fin 1024 → ℝ)
    (b : Fin 2) (c d : Fin 1024) : outK x Wq Wk Wv Wo b c d = outR x Wq Wk Wv Wo b c d := by
  unfold outK outR
  refine Finset.sum_congr rfl fun e _ => ?_
  rw [attnK_eq_attnR]

end Cert.Spec

end
-- ==== Proof.lean ====
/-
  The certificate of a multi-head attention kernel against its reference.

  The kernel program is three kernel regions among host operations: a fused projection x · [W_qᵀ | W_kᵀ | W_vᵀ]
  computed block of rows by block of rows; an attention step over 128 independent problems of 1024 positions and
  16 components, computed query block by query block with the keys visited in four blocks and a running maximum,
  normaliser and accumulator carried from one key block to the next; and the output projection.  The reference
  computes the same function with whole-array operations: three projections, the scores scaled by 1/√16, a softmax
  along the keys, the value contraction and the output projection.

  Frames.  Each program terminates without a fault and leaves its arguments unchanged: for the kernel program (at
  the word level and at the ideal values alike) the run is followed segment by segment, each region's body run once
  per control case (first key block, middle, last) and no host operation or region writing an argument; the
  reference's run is read off its operations.

  Values, at the ideal instance (floats extended reals, operations exact, format changes the identity), under the
  precondition that every input entry is finite, hence a real.  Every entry the kernel computes is then a real:
  the projections are finite sums of products; the running maximum starts at −∞ but is real after the first key
  block, where the rescaling factor exp(−∞ − m) = 0 multiplies the zero-initialised normaliser and accumulator;
  after the four blocks the accumulator over the normaliser is Σₖ e^{sₖ − M} vₖ / Σₖ e^{sₖ − M} with M the row's
  largest score.  The reference's softmax-then-contract is Σₖ (e^{sₖ − M} / Σₖ' e^{sₖ' − M}) vₖ with the scale 1/4
  applied after the feature contraction instead of before it.  The two are one real function: the scale moves
  through a finite sum of reals, and division by the positive normaliser commutes with the finite sum.
-/
import proofs.«119430_j62362925137949_2_alg».proof.Defs
import proofs.«119430_j62362925137949_2_alg».proof.Proof.Gen.Kernel
import proofs.«119430_j62362925137949_2_alg».proof.Proof.Gen.KernelIdeal
import proofs.«119430_j62362925137949_2_alg».proof.Proof.Gen.ReferenceIdeal
import proofs.«119430_j62362925137949_2_alg».proof.Proof.Gen.Pre_finite_inputs
import proofs.«119430_j62362925137949_2_alg».proof.Proof.RunI
import proofs.«119430_j62362925137949_2_alg».proof.Proof.RunB
import proofs.«119430_j62362925137949_2_alg».proof.Proof.RefV
import proofs.«119430_j62362925137949_2_alg».proof.Proof.Finite
import proofs.«119430_j62362925137949_2_alg».proof.Proof.Bridge1
import proofs.«119430_j62362925137949_2_alg».proof.Proof.Bridge2
import proofs.«119430_j62362925137949_2_alg».proof.Proof.Val1
import proofs.«119430_j62362925137949_2_alg».proof.Proof.SpecLaws

set_option maxRecDepth 16384

noncomputable section

namespace Cert.Proof

open Idealize.ShloMosaic Idealize.ShloMosaic.TcCoe Idealize.ShloMosaic.ValueIdx Idealize.SL.Sem

/-- The word-level kernel program runs and leaves its arguments unchanged. -/
theorem frame_p : Cert.frame_Kernel := fun m ρ _ => Cert.Kernel.Fr.frame m ρ
/-- So does the kernel program read at the ideal values. -/
theorem frame_pi : Cert.frame_KernelIdeal := fun m ρ _ => Cert.KernelIdeal.Fr.frame m ρ
/-- The idealization rewrote no operation. -/
theorem preserves : Cert.preserves_Kernel_KernelIdeal := trivial

open Cert.KernelIdeal Cert.KernelIdeal.Gen Cert.KernelIdeal.Fr Cert.KernelIdeal.Val Cert.Spec in
/-- The kernel program's result at (b, p, d), the argument entries being reals: the first arrangement of the
    specification. -/
theorem kernel_value (m : (ℓ : Loc nD τ sig) → Buf (Elt Ideal) ℓ) (c : Dev nD)
    (xr : Fin 2 → Fin 1024 → Fin 1024 → ℝ) (Wq Wk Wv Wo : Fin 1024 → Fin 1024 → ℝ)
    (hx : ∀ b c' e, (m ((c : Thread nD τ).loc main_arg0) : S2x1024x1024.Idx → EReal) (ix3 b c' e) = ((xr b c' e : ℝ) : EReal))
    (hq : ∀ d e, (m ((c : Thread nD τ).loc main_arg1) : S1024x1024.Idx → EReal) (ix2 d e) = ((Wq d e : ℝ) : EReal))
    (hk : ∀ d e, (m ((c : Thread nD τ).loc main_arg2) : S1024x1024.Idx → EReal) (ix2 d e) = ((Wk d e : ℝ) : EReal))
    (hv : ∀ d e, (m ((c : Thread nD τ).loc main_arg3) : S1024x1024.Idx → EReal) (ix2 d e) = ((Wv d e : ℝ) : EReal))
    (ho : ∀ d e, (m ((c : Thread nD τ).loc main_arg4) : S1024x1024.Idx → EReal) (ix2 d e) = ((Wo d e : ℝ) : EReal))
    (b : Fin 2) (p d : Fin 1024) :
    (W7 m c (Proc.devRef .tc main_v33) : S2x1024x1024.Idx → EReal) (ix3 b p d) = ((outK xr Wq Wk Wv Wo b p d : ℝ) : EReal) := by
  have h27 : ∀ n q h, (W4 m c (Proc.devRef .tc main_v27) : S128x1024x16.Idx → EReal) (ix3 n q h)
      = ((attnK (Qn xr Wq) (KVn xr Wk) (KVn xr Wv) n q h : ℝ) : EReal) := fun n q h => by
    have ha : (W4 m c (Proc.devRef .tc main_v27) : S128x1024x16.Idx → EReal) = (dat1 (E3 m) c).arrAt 3 cfg1.N := W4_arr m c 3
    rw [ha]
    exact final1 (E3 m) c (Qn xr Wq) (KVn xr Wk) (KVn xr Wv)
      (w3_v20 m c xr Wq hx hq) (w3_v23 m c xr Wk hx hk) (w3_v26 m c xr Wv hx hv) n q h
  exact w7_v33 m c _ Wo h27 (w5_v8 m c Wo ho) b p d

/-- Two arrays of shape [2, 1024, 1024] that agree at every (b, p, d) are equal. -/
theorem ext3 (f g : Cert.KernelIdeal.S2x1024x1024.Idx → EReal) (h : ∀ (b : Fin 2) (p d : Fin 1024), f (ix3 b p d) = g (ix3 b p d)) : f = g :=
  funext fun i => by rw [eq_ix3 i]; exact h _ _ _

/-- The two idealized programs end with equal results. -/
theorem algebraic : Cert.algebraic_KernelIdeal_ReferenceIdeal := by
  intro m ρ m' ρ' hpre hagree
  refine ⟨fun c => Cert.KernelIdeal.Fr.W7 m c (Proc.devRef .tc Cert.KernelIdeal.main_v33), ?_, ?_⟩
  · refine (θ_run Cert.KernelIdeal.defs _ _).mono (fun r h c => ?_) (Cert.KernelIdeal.Fr.run_all m ρ)
    exact ⟨h c _ (Cert.KernelIdeal.Fr.mem_ucF Cert.KernelIdeal.main_v33 (by decide)),
      (h c _ (Cert.KernelIdeal.Fr.mem_ucF Cert.KernelIdeal.main_arg0 (by decide))).trans (Cert.KernelIdeal.Fr.W7_main_arg0 m c),
      (h c _ (Cert.KernelIdeal.Fr.mem_ucF Cert.KernelIdeal.main_arg1 (by decide))).trans (Cert.KernelIdeal.Fr.W7_main_arg1 m c),
      (h c _ (Cert.KernelIdeal.Fr.mem_ucF Cert.KernelIdeal.main_arg2 (by decide))).trans (Cert.KernelIdeal.Fr.W7_main_arg2 m c),
      (h c _ (Cert.KernelIdeal.Fr.mem_ucF Cert.KernelIdeal.main_arg3 (by decide))).trans (Cert.KernelIdeal.Fr.W7_main_arg3 m c),
      (h c _ (Cert.KernelIdeal.Fr.mem_ucF Cert.KernelIdeal.main_arg4 (by decide))).trans (Cert.KernelIdeal.Fr.W7_main_arg4 m c)⟩
  · refine (θ_run Cert.ReferenceIdeal.defs _ _).mono (fun r h c => ⟨(h c).1.trans ?_, (h c).2⟩)
      (Cert.ReferenceIdeal.Value.run (F := Ideal) m' ρ')
    obtain ⟨⟨xr, hx⟩, ⟨Wq, hq⟩, ⟨Wk, hk⟩, ⟨Wv, hv⟩, ⟨Wo, ho⟩⟩ := Cert.Finite.real_args _ _ _ _ _ (hpre c)
    refine ext3 _ _ fun b p d => ?_
    exact (Cert.ReferenceIdeal.RefValue.ref_run_eq m' c xr Wq Wk Wv Wo
      (fun b c' e => by rw [(hagree c).1]; exact hx b c' e)
      (fun d e => by rw [(hagree c).2.1]; exact hq d e)
      (fun d e => by rw [(hagree c).2.2.1]; exact hk d e)
      (fun d e => by rw [(hagree c).2.2.2.1]; exact hv d e)
      (fun d e => by rw [(hagree c).2.2.2.2]; exact ho d e) b p d).trans
      ((congrArg (fun x : ℝ => (x : EReal)) (Cert.Spec.outK_eq_outR xr Wq Wk Wv Wo b p d).symm).trans
        (kernel_value m c xr Wq Wk Wv Wo hx hq hk hv ho b p d).symm)

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ri, preserves, algebraic⟩

end Cert.Proof

end
